-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16x3 : Shape := ⟨3, ![100000, 16, 3]⟩
abbrev S3200000x3x3 : Shape := ⟨3, ![3200000, 3, 3]⟩
abbrev S16x16 : Shape := ⟨2, ![16, 16]⟩
abbrev S3x16 : Shape := ⟨2, ![3, 16]⟩
abbrev S128x153 : Shape := ⟨2, ![128, 153]⟩
abbrev S128 : Shape := ⟨1, ![128]⟩
abbrev S16x128 : Shape := ⟨2, ![16, 128]⟩
abbrev S16 : Shape := ⟨1, ![16]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x16x3 : S_.BroadcastsInDim S100000x16x3 (![] : Fin 0 → Fin S100000x16x3.rank)
  reducesTo_S100000x16x3_S_d0_1_2 : S100000x16x3.ReducesTo [0, 1, 2] S_
  bcast_S_S3200000x3x3 : S_.BroadcastsInDim S3200000x3x3 (![] : Fin 0 → Fin S3200000x3x3.rank)
  reducesTo_S3200000x3x3_S_d0_1_2 : S3200000x3x3.ReducesTo [0, 1, 2] S_
  bcast_S_S16x16 : S_.BroadcastsInDim S16x16 (![] : Fin 0 → Fin S16x16.rank)
  reducesTo_S16x16_S_d0_1 : S16x16.ReducesTo [0, 1] S_
  bcast_S_S3x16 : S_.BroadcastsInDim S3x16 (![] : Fin 0 → Fin S3x16.rank)
  reducesTo_S3x16_S_d0_1 : S3x16.ReducesTo [0, 1] S_
  bcast_S_S128x153 : S_.BroadcastsInDim S128x153 (![] : Fin 0 → Fin S128x153.rank)
  reducesTo_S128x153_S_d0_1 : S128x153.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x16 .f32) (main_arg8 : FVec F S16x128 .f32) (main_arg9 : FVec F S16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16x128 .f32 := Host.absf main_arg8
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S3x16 .f32) (main_arg5 : FVec F S128x153 .f32) (main_arg6 : FVec F S128 .f32) (main_arg7 : FVec F S16x16 .f32) (main_arg8 : FVec F S16x128 .f32) (main_arg9 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S3x16 .f32 := Host.absf main_arg4
  let main_cst_6 : FVec F S_ .f32 := constant S_ .f32 0x7F800000#32
  let main_v20 : FVec F S3x16 .f32 := broadcastInDim S3x16 ![] bcast_S_S3x16 main_cst_6
  let main_v21 : IVec S3x16 1 := cmpf .olt main_v19 main_v20
  let main_c_7 : IVec S_ 1 := constantI S_ 1 1#1
  let main_v22 : IVec S_ 1 := (fun x v => Host.reduce IntOp.andi x v reducesTo_S3x16_S_d0_1 h_S_) main_v21 main_c_7
  let main_v23 : IVec S_ 1 := andi main_v18 main_v22
  let main_v24 : FVec F S128x153 .f32 := Host.absf main_arg5
  let main_cst_8 : FVec F S_ .f32 := constant S_ .f32 0x7F800000#32
  let main_v25 : FVec F S128x153 .f32 := broadcastInDim S128x153 ![] bcast_S_S128x153 main_cst_8
  let main_v26 : IVec S128x153 1 := cmpf .olt main_v24 main_v25
  let main_c_9 : IVec S_ 1 := constantI S_ 1 1#1
  let main_v27 : IVec S_ 1 := (fun x v => Host.reduce IntOp.andi x v reducesTo_S128x153_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S100000x16x3 .f32) (main_arg2 : FVec F S3200000x3x3 .f32) (main_arg3 : FVec F S16x16 .f32) (main_arg4 : FVec F S3x16 .f32) (main_arg5 : FVec F S128x153 .f32) (main_arg6 : FVec F S128 .f32) (main_arg7 : FVec F S16x16 .f32) (main_arg8 : FVec F S16x128 .f32) (main_arg9 : FVec F S16 .f32) (main_arg10 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x16x3 .f32 := Host.absf main_arg1
  let main_cst_0 : FVec F S_ .f32 := constant S_ .f32 0x7F800000#32
  let main_v5 : FVec F S100000x16x3 .f32 := broadcastInDim S100000x16x3 ![] bcast_S_S100000x16x3 main_cst_0
  let main_v6 : IVec S100000x16x3 1 := cmpf .olt main_v4 main_v5
  let main_c_1 : IVec S_ 1 := constantI S_ 1 1#1
  let main_v7 : IVec S_ 1 := (fun x v => Host.reduce IntOp.andi x v reducesTo_S100000x16x3_S_d0_1_2 h_S_) main_v6 main_c_1
  let main_v8 : IVec S_ 1 := andi main_v3 main_v7
  let main_v9 : FVec F S3200000x3x3 .f32 := Host.absf main_arg2
  let main_cst_2 : FVec F S_ .f32 := constant S_ .f32 0x7F800000#32
  let main_v10 : FVec F S3200000x3x3 .f32 := broadcastInDim S3200000x3x3 ![] bcast_S_S3200000x3x3 main_cst_2
  let main_v11 : IVec S3200000x3x3 1 := cmpf .olt main_v9 main_v10
  let main_c_3 : IVec S_ 1 := constantI S_ 1 1#1
  let main_v12 : IVec S_ 1 := (fun x v => Host.reduce IntOp.andi x v reducesTo_S3200000x3x3_S_d0_1_2 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S100000x16x3 : Shape := ⟨3, ![100000, 16, 3]⟩
abbrev S3200000x3x3 : Shape := ⟨3, ![3200000, 3, 3]⟩
abbrev S16x16 : Shape := ⟨2, ![16, 16]⟩
abbrev S3x16 : Shape := ⟨2, ![3, 16]⟩
abbrev S128x153 : Shape := ⟨2, ![128, 153]⟩
abbrev S128 : Shape := ⟨1, ![128]⟩
abbrev S16x128 : Shape := ⟨2, ![16, 128]⟩
abbrev S16 : Shape := ⟨1, ![16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S100000x3x3 : Shape := ⟨3, ![100000, 3, 3]⟩
abbrev S3200000x1 : Shape := ⟨2, ![3200000, 1]⟩
abbrev S100000 : Shape := ⟨1, ![100000]⟩
abbrev S100000x1 : Shape := ⟨2, ![100000, 1]⟩
abbrev S200x128 : Shape := ⟨2, ![200, 128]⟩
abbrev S200x16x3 : Shape := ⟨3, ![200, 16, 3]⟩
abbrev S200x3x3 : Shape := ⟨3, ![200, 3, 3]⟩
abbrev S200x1 : Shape := ⟨2, ![200, 1]⟩
abbrev S200x3x16 : Shape := ⟨3, ![200, 3, 16]⟩
abbrev S600x16 : Shape := ⟨2, ![600, 16]⟩
abbrev S200x16 : Shape := ⟨2, ![200, 16]⟩
abbrev S16x3 : Shape := ⟨2, ![16, 3]⟩
abbrev S600x3 : Shape := ⟨2, ![600, 3]⟩
abbrev S200x3x1 : Shape := ⟨3, ![200, 3, 1]⟩
abbrev S200x1x3 : Shape := ⟨3, ![200, 1, 3]⟩
abbrev S200x1x1 : Shape := ⟨3, ![200, 1, 1]⟩
abbrev S200x9 : Shape := ⟨2, ![200, 9]⟩
abbrev S200x153 : Shape := ⟨2, ![200, 153]⟩
abbrev S153x128 : Shape := ⟨2, ![153, 128]⟩
abbrev S1x128 : Shape := ⟨2, ![1, 128]⟩
abbrev S128x16 : Shape := ⟨2, ![128, 16]⟩
abbrev S1x16 : Shape := ⟨2, ![1, 16]⟩
abbrev S200x16x1 : Shape := ⟨3, ![200, 16, 1]⟩

abbrev nBuf : Space → Nat
  | .hbm => 26
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S100000x16x3, .f32⟩
  | .hbm, ⟨2, _⟩ => ⟨S3200000x3x3, .f32⟩
  | .hbm, ⟨3, _⟩ => ⟨S16x16, .f32⟩
  | .hbm, ⟨4, _⟩ => ⟨S3x16, .f32⟩
  | .hbm, ⟨5, _⟩ => ⟨S128x153, .f32⟩
  | .hbm, ⟨6, _⟩ => ⟨S128, .f32⟩
  | .hbm, ⟨7, _⟩ => ⟨S16x16, .f32⟩
  | .hbm, ⟨8, _⟩ => ⟨S16x128, .f32⟩
  | .hbm, ⟨9, _⟩ => ⟨S16, .f32⟩
  | .hbm, ⟨10, _⟩ => ⟨S2x3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S100000x3x3, .f32⟩
  | .hbm, ⟨15, _⟩ => ⟨S3200000x1, .i32⟩
  | .hbm, ⟨16, _⟩ => ⟨S100000x3x3, .f32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x16x3, .f32⟩
  | .local _ .vmem, ⟨0, _⟩ => ⟨S200x128, .f32⟩
  | .local _ .vmem, ⟨1, _⟩ => ⟨S200x128, .f32⟩
  | .local _ .vmem, ⟨2, _⟩ => ⟨S200x16x3, .f32⟩
  | .local _ .vmem, ⟨3, _⟩ => ⟨S200x16x3, .f32⟩
  | .local _ .vmem, ⟨4, _⟩ => ⟨S200x3x3, .f32⟩
  | .local _ .vmem, ⟨5, _⟩ => ⟨S200x3x3, .f32⟩
  | .local _ .vmem, ⟨6, _⟩ => ⟨S200x1, .f32⟩
  | .local _ .vmem, ⟨7, _⟩ => ⟨S200x1, .f32⟩
  | .local _ .vmem, ⟨8, _⟩ => ⟨S16x16, .f32⟩
  | .local _ .vmem, ⟨9, _⟩ => ⟨S3x16, .f32⟩
  | .local _ .vmem, ⟨10, _⟩ => ⟨S128x153, .f32⟩
  | .local _ .vmem, ⟨11, _⟩ => ⟨S128, .f32⟩
  | .local _ .vmem, ⟨12, _⟩ => ⟨S16x16, .f32⟩
  | .local _ .vmem, ⟨13, _⟩ => ⟨S16x128, .f32⟩
  | .local _ .vmem, ⟨14, _⟩ => ⟨S16, .f32⟩
  | .local _ .vmem, ⟨15, _⟩ => ⟨S200x128, .f32⟩
  | .local _ .vmem, ⟨16, _⟩ => ⟨S200x128, .f32⟩
  | .local _ .vmem, ⟨17, _⟩ => ⟨S200x16x3, .f32⟩
  | .local _ .vmem, ⟨18, _⟩ => ⟨S200x16x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x153 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S200x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S200x16x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S100000x3x3 : S_.BroadcastsInDim S100000x3x3 (![] : Fin 0 → Fin S100000x3x3.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S_S100000 : S_.BroadcastsInDim S100000 (![] : Fin 0 → Fin S100000.rank)
  shapeCasts_S100000_S100000x1 : S100000.ShapeCasts S100000x1
  inb_S200x128_S200x128_0_0 : ∀ a, (![0, 0] : Fin 2 → Nat) a + S200x128.size a ≤ S200x128.size a
  h_S200x128 : 0 < S200x128.numel
  inb_S200x16x3_S200x16x3_0_0_0 : ∀ a, (![0, 0, 0] : Fin 3 → Nat) a + S200x16x3.size a ≤ S200x16x3.size a
  h_S200x16x3 : 0 < S200x16x3.numel
  inb_S200x3x3_S200x3x3_0_0_0 : ∀ a, (![0, 0, 0] : Fin 3 → Nat) a + S200x3x3.size a ≤ S200x3x3.size a
  h_S200x3x3 : 0 < S200x3x3.numel
  shapeCasts_S200x3x3_S200x3x3 : S200x3x3.ShapeCasts S200x3x3
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S16x16_S16x16_0_0 : ∀ a, (![0, 0] : Fin 2 → Nat) a + S16x16.size a ≤ S16x16.size a
  h_S16x16 : 0 < S16x16.numel
  inb_S3x16_S3x16_0_0 : ∀ a, (![0, 0] : Fin 2 → Nat) a + S3x16.size a ≤ S3x16.size a
  h_S3x16 : 0 < S3x16.numel
  inb_S128x153_S128x153_0_0 : ∀ a, (![0, 0] : Fin 2 → Nat) a + S128x153.size a ≤ S128x153.size a
  h_S128x153 : 0 < S128x153.numel
  inb_S128_S128_0 : ∀ a, (![0] : Fin 1 → Nat) a + S128.size a ≤ S128.size a
  h_S128 : 0 < S128.numel
  inb_S16x128_S16x128_0_0 : ∀ a, (![0, 0] : Fin 2 → Nat) a + S16x128.size a ≤ S16x128.size a
  h_S16x128 : 0 < S16x128.numel
  inb_S16_S16_0 : ∀ a, (![0] : Fin 1 → Nat) a + S16.size a ≤ S16.size a
  h_S16 : 0 < S16.numel
  transposes_S200x16x3_p0_2_1_S200x3x16 : S200x16x3.Transposes [0, 2, 1] S200x3x16
  shapeCasts_S200x3x16_S600x16 : S200x3x16.ShapeCasts S600x16
  bitsLt_bf16_f32 : FTy.bits .bf16 < FTy.bits .f32
  transposes_S16x16_p1_0_S16x16 : S16x16.Transposes [1, 0] S16x16
  shapeCasts_S600x16_S200x3x16 : S600x16.ShapeCasts S200x3x16
  reduces_S200x3x16_S200x16 : S200x3x16.Reduces [1] S200x16
  transposes_S3x16_p1_0_S16x3 : S3x16.Transposes [1, 0] S16x3
  shapeCasts_S600x3_S200x3x3 : S600x3.ShapeCasts S200x3x3
  slices_S200x3x3_o0_0_0_S200x3x1 : S200x3x3.Slices ![0, 0, 0] S200x3x1
  slices_S200x3x3_o0_0_0_S200x1x3 : S200x3x3.Slices ![0, 0, 0] S200x1x3
  broadcasts_S200x3x1_S200x3x3 : S200x3x1.Broadcasts S200x3x3
  broadcasts_S200x1x3_S200x3x3 : S200x1x3.Broadcasts S200x3x3
  slices_S200x3x3_o0_0_1_S200x3x1 : S200x3x3.Slices ![0, 0, 1] S200x3x1
  slices_S200x3x3_o0_1_0_S200x1x3 : S200x3x3.Slices ![0, 1, 0] S200x1x3
  slices_S200x3x3_o0_0_2_S200x3x1 : S200x3x3.Slices ![0, 0, 2] S200x3x1
  slices_S200x3x3_o0_2_0_S200x1x3 : S200x3x3.Slices ![0, 2, 0] S200x1x3
  shapeCasts_S200x1_S200x1x1 : S200x1.ShapeCasts S200x1x1
  broadcasts_S200x1x1_S200x3x3 : S200x1x1.Broadcasts S200x3x3
  transposes_S200x3x3_p0_2_1_S200x3x3 : S200x3x3.Transposes [0, 2, 1] S200x3x3
  shapeCasts_S200x3x3_S200x9 : S200x3x3.ShapeCasts S200x9
  concatenates_S200x128_S200x16_S200x9_S200x153_d1 : Shape.Concatenates [S200x128, S200x16, S200x9] S200x153 1
  transposes_S128x153_p1_0_S153x128 : S128x153.Transposes [1, 0] S153x128
  shapeCasts_S128_S1x128 : S128.ShapeCasts S1x128
  broadcasts_S1x128_S200x128 : S1x128.Broadcasts S200x128
  transposes_S200x3x16_p0_2_1_S200x16x3 : S200x3x16.Transposes [0, 2, 1] S200x16x3
  transposes_S16x128_p1_0_S128x16 : S16x128.Transposes [1, 0] S128x16
  shapeCasts_S16_S1x16 : S16.ShapeCasts S1x16
  broadcasts_S1x16_S200x16 : S1x16.Broadcasts S200x16
  shapeCasts_S200x16_S200x16x1 : S200x16.ShapeCasts S200x16x1
  broadcasts_S200x16x1_S200x16x3 : S200x16x1.Broadcasts S200x16x3
  scatter_S100000x3x3_S3200000x1_S3200000x3x3_12_0_0_1_wf : ScatterDims.WF S100000x3x3 S3200000x1 S3200000x3x3 [1, 2] [0] [0] 1
  scatter_S100000_S3200000x1_S3200000_n_0_0_1_wf : ScatterDims.WF S100000 S3200000x1 S3200000 [] [0] [0] 1
  dot_S600x16_S16x16_S600x16_1_0_0_1_n_n_wf : DotDims.WF S600x16 S16x16 S600x16 [1] [0] [0] [1] [] []
  dot_S600x16_S16x3_S600x3_1_0_0_1_n_n_wf : DotDims.WF S600x16 S16x3 S600x3 [1] [0] [0] [1] [] []
  dot_S200x153_S153x128_S200x128_1_0_0_1_n_n_wf : DotDims.WF S200x153 S153x128 S200x128 [1] [0] [0] [1] [] []
  dot_S200x128_S128x16_S200x16_1_0_0_1_n_n_wf : DotDims.WF S200x128 S128x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S100000x128.size a
  hwx0_0 : ∀ i : grid0.Coords, EltTy.bits .f32 = 32 ∨ (Rect.block (s := S100000x128) S200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x16x3.size a ≤ S100000x16x3.size a
  hwx0_1 : ∀ i : grid0.Coords, EltTy.bits .f32 = 32 ∨ (Rect.block (s := S100000x16x3) S200x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x3x3.size a ≤ S100000x3x3.size a
  hwx0_2 : ∀ i : grid0.Coords, EltTy.bits .f32 = 32 ∨ (Rect.block (s := S100000x3x3) S200x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S100000x1.size a
  hwx0_3 : ∀ i : grid0.Coords, EltTy.bits .f32 = 32 ∨ (Rect.block (s := S100000x1) S200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x153.size a ≤ S128x153.size a
  hwx0_6 : ∀ i : grid0.Coords, EltTy.bits .f32 = 32 ∨ (Rect.block (s := S128x153) S128x153.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x16.size a ≤ S16x16.size a
  hwx0_8 : ∀ i : grid0.Coords, EltTy.bits .f32 = 32 ∨ (Rect.block (s := S16x16) S16x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x128.size a ≤ S16x128.size a
  hwx0_9 : ∀ i : grid0.Coords, EltTy.bits .f32 = 32 ∨ (Rect.block (s := S16x128) S16x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S200x128.size a ≤ S100000x128.size a
  hwx0_11 : ∀ i : grid0.Coords, EltTy.bits .f32 = 32 ∨ (Rect.block (s := S100000x128) S200x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S200x16x3.size a ≤ S100000x16x3.size a
  hwx0_12 : ∀ i : grid0.Coords, EltTy.bits .f32 = 32 ∨ (Rect.block (s := S100000x16x3) S200x16x3.size (cc0_transform_12 i) (hinb0_12 i)).WholeWords (EltTy.packing .f32)

variable [Facts₀]

def scatter_S100000x3x3_S3200000x1_S3200000x3x3_12_0_0_1 : ScatterDims S100000x3x3 S3200000x1 S3200000x3x3 where
  updateWindowDims := [1, 2]
  insertedWindowDims := [0]
  scatterDimsToOperandDims := [0]
  indexVectorDim := 1
  wf := scatter_S100000x3x3_S3200000x1_S3200000x3x3_12_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S600x16_S16x16_S600x16_1_0_0_1_n_n : DotDims S600x16 S16x16 S600x16 where
  lhsContracting := [1]
  rhsContracting := [0]
  lhsNonContracting := [0]
  rhsNonContracting := [1]
  lhsBatch := []
  rhsBatch := []
  wf := dot_S600x16_S16x16_S600x16_1_0_0_1_n_n_wf
def dot_S600x16_S16x3_S600x3_1_0_0_1_n_n : DotDims S600x16 S16x3 S600x3 where
  lhsContracting := [1]
  rhsContracting := [0]
  lhsNonContracting := [0]
  rhsNonContracting := [1]
  lhsBatch := []
  rhsBatch := []
  wf := dot_S600x16_S16x3_S600x3_1_0_0_1_n_n_wf
def dot_S200x153_S153x128_S200x128_1_0_0_1_n_n : DotDims S200x153 S153x128 S200x128 where
  lhsContracting := [1]
  rhsContracting := [0]
  lhsNonContracting := [0]
  rhsNonContracting := [1]
  lhsBatch := []
  rhsBatch := []
  wf := dot_S200x153_S153x128_S200x128_1_0_0_1_n_n_wf
def dot_S200x128_S128x16_S200x16_1_0_0_1_n_n : DotDims S200x128 S128x16 S200x16 where
  lhsContracting := [1]
  rhsContracting := [0]
  lhsNonContracting := [0]
  rhsNonContracting := [1]
  lhsBatch := []
  rhsBatch := []
  wf := dot_S200x128_S128x16_S200x16_1_0_0_1_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S200x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x153.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S16x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S16x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10_0) S200x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_1) S200x16x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x16x3 : Shape := ⟨3, ![100000, 16, 3]⟩
abbrev S3200000x3x3 : Shape := ⟨3, ![3200000, 3, 3]⟩
abbrev S16x16 : Shape := ⟨2, ![16, 16]⟩
abbrev S3x16 : Shape := ⟨2, ![3, 16]⟩
abbrev S128x153 : Shape := ⟨2, ![128, 153]⟩
abbrev S128 : Shape := ⟨1, ![128]⟩
abbrev S16x128 : Shape := ⟨2, ![16, 128]⟩
abbrev S16 : Shape := ⟨1, ![16]⟩
abbrev S2x3200000 : Shape := ⟨2, ![2, 3200000]⟩
abbrev S1x3200000 : Shape := ⟨2, ![1, 3200000]⟩
abbrev S3200000 : Shape := ⟨1, ![3200000]⟩
abbrev S100000x3x16 : Shape := ⟨3, ![100000, 3, 16]⟩
abbrev S_ : Shape := ⟨0, ![]⟩
abbrev S100000x16 : Shape := ⟨2, ![100000, 16]⟩
abbrev S100000x3x3 : Shape := ⟨3, ![100000, 3, 3]⟩
abbrev S3200000x1 : Shape := ⟨2, ![3200000, 1]⟩
abbrev S3200000x9 : Shape := ⟨2, ![3200000, 9]⟩
abbrev S100000x9 : Shape := ⟨2, ![100000, 9]⟩
abbrev S100000 : Shape := ⟨1, ![100000]⟩
abbrev S100000x1 : Shape := ⟨2, ![100000, 1]⟩
abbrev S100000x153 : Shape := ⟨2, ![100000, 153]⟩
abbrev S153x128 : Shape := ⟨2, ![153, 128]⟩
abbrev S1x128 : Shape := ⟨2, ![1, 128]⟩
abbrev S128x16 : Shape := ⟨2, ![128, 16]⟩
abbrev S1x16 : Shape := ⟨2, ![1, 16]⟩
abbrev S100000x16x1 : Shape := ⟨3, ![100000, 16, 1]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x16x3, .f32⟩
  | .hbm, ⟨2, _⟩ => ⟨S3200000x3x3, .f32⟩
  | .hbm, ⟨3, _⟩ => ⟨S16x16, .f32⟩
  | .hbm, ⟨4, _⟩ => ⟨S3x16, .f32⟩
  | .hbm, ⟨5, _⟩ => ⟨S128x153, .f32⟩
  | .hbm, ⟨6, _⟩ => ⟨S128, .f32⟩
  | .hbm, ⟨7, _⟩ => ⟨S16x16, .f32⟩
  | .hbm, ⟨8, _⟩ => ⟨S16x128, .f32⟩
  | .hbm, ⟨9, _⟩ => ⟨S16, .f32⟩
  | .hbm, ⟨10, _⟩ => ⟨S2x3200000, .i32⟩
  | .hbm, ⟨11, _⟩ => ⟨S1x3200000, .i32⟩
  | .hbm, ⟨12, _⟩ => ⟨S3200000, .i32⟩
  | .hbm, ⟨13, _⟩ => ⟨S100000x3x16, .f32⟩
  | .hbm, ⟨14, _⟩ => ⟨S100000x3x16, .f32⟩
  | .hbm, ⟨15, _⟩ => ⟨S100000x3x16, .f32⟩
  | .hbm, ⟨16, _⟩ => ⟨S_, .f32⟩
  | .hbm, ⟨17, _⟩ => ⟨S100000x16, .f32⟩
  | .hbm, ⟨18, _⟩ => ⟨S_, .f32⟩
  | .hbm, ⟨19, _⟩ => ⟨S100000x16, .f32⟩
  | .hbm, ⟨20, _⟩ => ⟨S100000x16, .f32⟩
  | .hbm, ⟨21, _⟩ => ⟨S100000x16, .f32⟩
  | .hbm, ⟨22, _⟩ => ⟨S100000x3x3, .f32⟩
  | .hbm, ⟨23, _⟩ => ⟨S_, .i32⟩
  | .hbm, ⟨24, _⟩ => ⟨S3200000, .i32⟩
  | .hbm, ⟨25, _⟩ => ⟨S3200000, .i1⟩
  | .hbm, ⟨26, _⟩ => ⟨S_, .i32⟩
  | .hbm, ⟨27, _⟩ => ⟨S3200000, .i32⟩
  | .hbm, ⟨28, _⟩ => ⟨S3200000, .i32⟩
  | .hbm, ⟨29, _⟩ => ⟨S3200000, .i32⟩
  | .hbm, ⟨30, _⟩ => ⟨S3200000x1, .i32⟩
  | .hbm, ⟨31, _⟩ => ⟨S3200000x3x3, .f32⟩
  | .hbm, ⟨32, _⟩ => ⟨S3200000x3x3, .f32⟩
  | .hbm, ⟨33, _⟩ => ⟨S3200000x3x3, .f32⟩
  | .hbm, ⟨34, _⟩ => ⟨S3200000x9, .f32⟩
  | .hbm, ⟨35, _⟩ => ⟨S_, .f32⟩
  | .hbm, ⟨36, _⟩ => ⟨S100000x9, .f32⟩
  | .hbm, ⟨37, _⟩ => ⟨S3200000x1, .i32⟩
  | .hbm, ⟨38, _⟩ => ⟨S100000x9, .f32⟩
  | .hbm, ⟨39, _⟩ => ⟨S_, .f32⟩
  | .hbm, ⟨40, _⟩ => ⟨S3200000, .f32⟩
  | .hbm, ⟨41, _⟩ => ⟨S_, .f32⟩
  | .hbm, ⟨42, _⟩ => ⟨S100000, .f32⟩
  | .hbm, ⟨43, _⟩ => ⟨S3200000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x9, .f32⟩
  | .hbm, ⟨50, _⟩ => ⟨S100000x9, .f32⟩
  | .hbm, ⟨51, _⟩ => ⟨S100000x153, .f32⟩
  | .hbm, ⟨52, _⟩ => ⟨S153x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S100000x3x16, .f32⟩
  | .hbm, ⟨58, _⟩ => ⟨S100000x16x3, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S128x16, .f32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S100000x16, .f32⟩
  | .hbm, ⟨73, _⟩ => ⟨S100000x16, .f32⟩
  | .hbm, ⟨74, _⟩ => ⟨S100000x16, .f32⟩
  | .hbm, ⟨75, _⟩ => ⟨S_, .f32⟩
  | .hbm, ⟨76, _⟩ => ⟨S100000x16, .f32⟩
  | .hbm, ⟨77, _⟩ => ⟨S100000x16, .f32⟩
  | .hbm, ⟨78, _⟩ => ⟨S_, .f32⟩
  | .hbm, ⟨79, _⟩ => ⟨S100000x16, .f32⟩
  | .hbm, ⟨80, _⟩ => ⟨S100000x16, .f32⟩
  | .hbm, ⟨81, _⟩ => ⟨S100000x16x1, .f32⟩
  | .hbm, ⟨82, _⟩ => ⟨S100000x16x3, .f32⟩
  | .hbm, ⟨83, _⟩ => ⟨S100000x16x3, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v55 : Ref sig .tc := ⟨.hbm, 92, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  transposes_S100000x16x3_S100000x3x16_0_2_1 : S100000x16x3.Transposes [0, 2, 1] S100000x3x16
  reducesTo_S100000x3x16_S100000x16_d1 : S100000x3x16.ReducesTo [1] S100000x16
  h_S_ : 0 < S_.numel
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  transposes_S3200000x3x3_S3200000x3x3_0_2_1 : S3200000x3x3.Transposes [0, 2, 1] S3200000x3x3
  shapeCasts_S3200000x3x3_S3200000x9 : S3200000x3x3.ShapeCasts S3200000x9
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  concatenates_S100000x128_S100000x16_S100000x9_S100000x153_d1 : Shape.Concatenates [S100000x128, S100000x16, S100000x9] S100000x153 1
  transposes_S128x153_S153x128_1_0 : S128x153.Transposes [1, 0] S153x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S100000x3x16_S100000x16x3_0_2_1 : S100000x3x16.Transposes [0, 2, 1] S100000x16x3
  bcast_S_S100000x128 : S_.BroadcastsInDim S100000x128 (![] : Fin 0 → Fin S100000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000x16_S100000x16x1_0_1 : S100000x16.BroadcastsInDim S100000x16x1 (![0, 1] : Fin 2 → Fin S100000x16x1.rank)
  bcast_S100000x16x1_S100000x16x3_0_1_2 : S100000x16x1.BroadcastsInDim S100000x16x3 (![0, 1, 2] : Fin 3 → Fin S100000x16x3.rank)
  dot_S100000x3x16_S16x16_S100000x3x16_2_1_01_0_n_n_wf : DotDims.WF S100000x3x16 S16x16 S100000x3x16 [2] [1] [0, 1] [0] [] []
  dot_S100000x3x16_S3x16_S100000x3x3_2_1_01_0_n_n_wf : DotDims.WF S100000x3x16 S3x16 S100000x3x3 [2] [1] [0, 1] [0] [] []
  gather_S100000x3x3_S3200000x1_S3200000x3x3_12_0_n_n_0_1_133_wf : GatherDims.WF S100000x3x3 S3200000x1 S3200000x3x3 [1, 2] [0] [] [0] [] 1 ![1, 3, 3]
  dot_S3200000x3x3_S3200000x3x3_S3200000x3x3_2_1_1_2_0_0_wf : DotDims.WF S3200000x3x3 S3200000x3x3 S3200000x3x3 [2] [1] [1] [2] [0] [0]
  scatter_S100000x9_S3200000x1_S3200000x9_1_0_0_1_wf : ScatterDims.WF S100000x9 S3200000x1 S3200000x9 [1] [0] [0] 1
  scatter_S100000_S3200000x1_S3200000_n_0_0_1_wf : ScatterDims.WF S100000 S3200000x1 S3200000 [] [0] [0] 1
  dot_S100000x153_S153x128_S100000x128_1_0_0_1_n_n_wf : DotDims.WF S100000x153 S153x128 S100000x128 [1] [0] [0] [1] [] []
  dot_S100000x128_S128x16_S100000x16_1_0_0_1_n_n_wf : DotDims.WF S100000x128 S128x16 S100000x16 [1] [0] [0] [1] [] []

variable [Facts₀]

def dot_S100000x3x16_S16x16_S100000x3x16_2_1_01_0_n_n : DotDims S100000x3x16 S16x16 S100000x3x16 where
  lhsContracting := [2]
  rhsContracting := [1]
  lhsNonContracting := [0, 1]
  rhsNonContracting := [0]
  lhsBatch := []
  rhsBatch := []
  wf := dot_S100000x3x16_S16x16_S100000x3x16_2_1_01_0_n_n_wf
def dot_S100000x3x16_S3x16_S100000x3x3_2_1_01_0_n_n : DotDims S100000x3x16 S3x16 S100000x3x3 where
  lhsContracting := [2]
  rhsContracting := [1]
  lhsNonContracting := [0, 1]
  rhsNonContracting := [0]
  lhsBatch := []
  rhsBatch := []
  wf := dot_S100000x3x16_S3x16_S100000x3x3_2_1_01_0_n_n_wf
def gather_S100000x3x3_S3200000x1_S3200000x3x3_12_0_n_n_0_1_133 : GatherDims S100000x3x3 S3200000x1 S3200000x3x3 where
  offsetDims := [1, 2]
  collapsedSliceDims := [0]
  operandBatchingDims := []
  startIndicesBatchingDims := []
  startIndexMap := [0]
  indexVectorDim := 1
  sliceSizes := ![1, 3, 3]
  wf := gather_S100000x3x3_S3200000x1_S3200000x3x3_12_0_n_n_0_1_133_wf
def dot_S3200000x3x3_S3200000x3x3_S3200000x3x3_2_1_1_2_0_0 : DotDims S3200000x3x3 S3200000x3x3 S3200000x3x3 where
  lhsContracting := [2]
  rhsContracting := [1]
  lhsNonContracting := [1]
  rhsNonContracting := [2]
  lhsBatch := [0]
  rhsBatch := [0]
  wf := dot_S3200000x3x3_S3200000x3x3_S3200000x3x3_2_1_1_2_0_0_wf
def scatter_S100000x9_S3200000x1_S3200000x9_1_0_0_1 : ScatterDims S100000x9 S3200000x1 S3200000x9 where
  updateWindowDims := [1]
  insertedWindowDims := [0]
  scatterDimsToOperandDims := [0]
  indexVectorDim := 1
  wf := scatter_S100000x9_S3200000x1_S3200000x9_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x153_S153x128_S100000x128_1_0_0_1_n_n : DotDims S100000x153 S153x128 S100000x128 where
  lhsContracting := [1]
  rhsContracting := [0]
  lhsNonContracting := [0]
  rhsNonContracting := [1]
  lhsBatch := []
  rhsBatch := []
  wf := dot_S100000x153_S153x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.NodeRow.lean ====
/-
  One node's rows of the two results, as functions of that node's own inputs, the weights, and a
  9-vector `hid` of edge-averaged frame features. Every extent is literal: 128 scalar channels, 16 vector
  channels of 3 spatial components, 16 hidden channels, 3 frame channels, 153 = 128 + 16 + 9 merged features.

  With `a1 v t` the vector channel `v` at spatial component `t`:
    vh t h   = Σ_v a1 v t · W3 h v                  (down projection)
    vdf t f  = Σ_v a1 v t · W4 f v                  (frame projection)
    vnorm h  = sqrt (Σ_t vh t h · vh t h + ε)       (ε the f32 word 0x322BCC77, the same on both sides)
    merged   = a0 ++ vnorm ++ hid
    sout o   = Σ_j merged j · W5 o j + b6 o
    sfin o   = sout o · logistic (sout o)           (silu)
    vup t v  = Σ_h vh t h · W7 v h
    gate v   = logistic (Σ_o sfin o · W8 v o + b9 v)
    vfin v t = vup t v · gate v
  and the kernel's form of `hid` at k = 3 f + s from the node's summed frames `Fs s t`, its edge count and
  its frame projection `d t f`: ((Fs s 0 · d 0 f + Fs s 1 · d 1 f) + Fs s 2 · d 2 f) / max(count, 1).
-/
import Idealize.ShloMosaic.PureOps.Ideal
import Idealize.ShloMosaic.Lib.ValueIdx

noncomputable section

namespace Cert.NodeRow

open Idealize.ShloMosaic

/-- The down projection of one node's vector channels: `(t, h) ↦ Σ_v a1 v t · W3 h v`. -/
def vh (a1 : Fin 16 → Fin 3 → EReal) (W3 : Fin 16 → Fin 16 → EReal) (t : Fin 3) (h : Fin 16) : EReal :=
  ∑ v : Fin 16, a1 v t * W3 h v

/-- The frame projection of one node's vector channels: `(t, f) ↦ Σ_v a1 v t · W4 f v`. -/
def vdf (a1 : Fin 16 → Fin 3 → EReal) (W4 : Fin 3 → Fin 16 → EReal) (t : Fin 3) (f : Fin 3) : EReal :=
  ∑ v : Fin 16, a1 v t * W4 f v

/-- The norm over the spatial axis of the down projection, with the additive ε under the root. -/
def vnorm (a1 : Fin 16 → Fin 3 → EReal) (W3 : Fin 16 → Fin 16 → EReal) (h : Fin 16) : EReal :=
  Ideal.sqrt ((∑ t : Fin 3, vh a1 W3 t h * vh a1 W3 t h) + Ideal.ofBits .f32 0x322BCC77#32)

/-- The merged feature row: the 128 scalar channels, then the 16 norms, then the 9 hidden features. -/
def merged (a0 : Fin 128 → EReal) (vn : Fin 16 → EReal) (hid : Fin 9 → EReal) (j : Fin 153) : EReal :=
  if h : j.val < 128 then a0 ⟨j.val, h⟩
  else if h2 : j.val < 144 then vn ⟨j.val - 128, by omega⟩
  else hid ⟨j.val - 144, by omega⟩

/-- The scalar pre-activation: the merged row against row `o` of the scalar weights, plus the bias. -/
def sout (a0 : Fin 128 → EReal) (a1 : Fin 16 → Fin 3 → EReal) (hid : Fin 9 → EReal) (W3 : Fin 16 → Fin 16 → EReal)
    (W5 : Fin 128 → Fin 153 → EReal) (b6 : Fin 128 → EReal) (o : Fin 128) : EReal :=
  (∑ j : Fin 153, merged a0 (vnorm a1 W3) hid j * W5 o j) + b6 o

/-- silu: `x · logistic x`. -/
def silu (x : EReal) : EReal := x * Ideal.logistic x

/-- The first result's row: silu of the scalar pre-activation. -/
def sfin (a0 : Fin 128 → EReal) (a1 : Fin 16 → Fin 3 → EReal) (hid : Fin 9 → EReal) (W3 : Fin 16 → Fin 16 → EReal)
    (W5 : Fin 128 → Fin 153 → EReal) (b6 : Fin 128 → EReal) (o : Fin 128) : EReal :=
  silu (sout a0 a1 hid W3 W5 b6 o)

/-- The up projection of the down projection: `(t, v) ↦ Σ_h vh t h · W7 v h`. -/
def vup (a1 : Fin 16 → Fin 3 → EReal) (W3 W7 : Fin 16 → Fin 16 → EReal) (t : Fin 3) (v : Fin 16) : EReal :=
  ∑ h : Fin 16, vh a1 W3 t h * W7 v h

/-- The sigmoid gate of vector channel `v`, from the first result's row. -/
def gate (a0 : Fin 128 → EReal) (a1 : Fin 16 → Fin 3 → EReal) (hid : Fin 9 → EReal) (W3 : Fin 16 → Fin 16 → EReal)
    (W5 : Fin 128 → Fin 153 → EReal) (b6 : Fin 128 → EReal) (W8 : Fin 16 → Fin 128 → EReal) (b9 : Fin 16 → EReal)
    (v : Fin 16) : EReal :=
  Ideal.logistic ((∑ o : Fin 128, sfin a0 a1 hid W3 W5 b6 o * W8 v o) + b9 v)

/-- The second result's row: the up projection, gated per vector channel. -/
def vfin (a0 : Fin 128 → EReal) (a1 : Fin 16 → Fin 3 → EReal) (hid : Fin 9 → EReal) (W3 : Fin 16 → Fin 16 → EReal)
    (W5 : Fin 128 → Fin 153 → EReal) (b6 : Fin 128 → EReal) (W7 : Fin 16 → Fin 16 → EReal)
    (W8 : Fin 16 → Fin 128 → EReal) (b9 : Fin 16 → EReal) (v : Fin 16) (t : Fin 3) : EReal :=
  vup a1 W3 W7 t v * gate a0 a1 hid W3 W5 b6 W8 b9 v

/-- The kernel's form of the hidden features at `k = 3 f + s`: the node's summed frames `Fs` against its
    frame projection `d`, the three spatial terms added left to right, over `max(count, 1)`. -/
def hidK (Fs : Fin 3 → Fin 3 → EReal) (cnt : EReal) (d : Fin 3 → Fin 3 → EReal) (k : Fin 9) : EReal :=
  Ideal.div
    ((Fs ⟨k.val % 3, Nat.mod_lt _ (by decide)⟩ 0 * d 0 ⟨k.val / 3, by omega⟩
      + Fs ⟨k.val % 3, Nat.mod_lt _ (by decide)⟩ 1 * d 1 ⟨k.val / 3, by omega⟩)
      + Fs ⟨k.val % 3, Nat.mod_lt _ (by decide)⟩ 2 * d 2 ⟨k.val / 3, by omega⟩)
    (max cnt (Ideal.ofBits .f32 0x3F800000#32))

end Cert.NodeRow

end
-- ==== Proof.KernelRows.lean ====
/-
  One block of the kernel (200 nodes): the two stored payloads read at an index are the per-node rows of the
  specification. Each non-pointwise operation of the body is read at an index written by coordinates: the four
  contractions as finite sums over the contracted coordinate, the reshapes [200,3,·] ↔ [600,·] by the row 3 p + t,
  the lane sum over the spatial axis as a sum over three coordinates, the slices and broadcasts of the frame
  product by their coordinates, the transpose-then-reshape of the hidden features by k = 3 f + s, and the
  concatenation of the merged row by the span each column falls in.
-/
import proofs.«120632_j80229989089898_2_alg».proof.Proof.Gen.KernelIdeal.Skeleton
import proofs.«120632_j80229989089898_2_alg».proof.Proof.NodeRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelRows

open Idealize.ShloMosaic Idealize.ShloMosaic.ValueIdx Cert.KernelIdeal Cert.KernelIdeal.Gen

/-- The left operand's row coordinate of the contraction [600,16] · [16,16] is the result's row. -/
theorem mm_down_lhs0 (i : S600x16.Idx) (q : dot_S600x16_S16x16_S600x16_1_0_0_1_n_n.contr.Idx) : (dot_S600x16_S16x16_S600x16_1_0_0_1_n_n.lhsIdx i q 0).val = (i 0).val := by
  unfold DotDims.lhsIdx
  rw [dif_neg (show ¬(0 : Fin S600x16.rank) ∈ dot_S600x16_S16x16_S600x16_1_0_0_1_n_n.lhsBatch by decide),
    dif_pos (show (0 : Fin S600x16.rank) ∈ dot_S600x16_S16x16_S600x16_1_0_0_1_n_n.lhsNonContracting by decide)]
  rfl

/-- The right operand's column coordinate of the contraction [600,16] · [16,16] is the result's column. -/
theorem mm_down_rhs1 (i : S600x16.Idx) (q : dot_S600x16_S16x16_S600x16_1_0_0_1_n_n.contr.Idx) : (dot_S600x16_S16x16_S600x16_1_0_0_1_n_n.rhsIdx i q 1).val = (i 1).val := by
  unfold DotDims.rhsIdx
  rw [dif_neg (show ¬(1 : Fin S16x16.rank) ∈ dot_S600x16_S16x16_S600x16_1_0_0_1_n_n.rhsBatch by decide),
    dif_pos (show (1 : Fin S16x16.rank) ∈ dot_S600x16_S16x16_S600x16_1_0_0_1_n_n.rhsNonContracting by decide)]
  rfl

/-- The contraction [600,16] · [16,16] into the zero splat, read at (r, c): the sum over the contracted coordinate. -/
theorem mm_down (a : FVec Ideal S600x16 .bf16) (b : FVec Ideal S16x16 .bf16) (r : Fin 600) (c : Fin 16) :
    matmul dot_S600x16_S16x16_S600x16_1_0_0_1_n_n none a b (constant (F := Ideal) S600x16 .f32 0x00000000#32) (ix2 r c)
      = ∑ k : Fin 16, a (ix2 r k) * b (ix2 k c) := by
  simp only [matmul]
  rw [Ideal.matmul_constant_zero_apply, ← Equiv.sum_comp (contrEquiv1 dot_S600x16_S16x16_S600x16_1_0_0_1_n_n 16 rfl rfl).symm]
  refine Finset.sum_congr rfl fun k _ => ?_
  have hk := contrEquiv1_symm_val dot_S600x16_S16x16_S600x16_1_0_0_1_n_n 16 rfl rfl k
  have el : dot_S600x16_S16x16_S600x16_1_0_0_1_n_n.lhsIdx (ix2 r c) ((contrEquiv1 dot_S600x16_S16x16_S600x16_1_0_0_1_n_n 16 rfl rfl).symm k) = ix2 r k :=
    funext fun x => Fin.ext (by
      match x with
      | ⟨0, _⟩ => exact mm_down_lhs0 _ _
      | ⟨1, _⟩ => exact (dot_S600x16_S16x16_S600x16_1_0_0_1_n_n.lhsIdx_val_of_single rfl _ _).trans hk)
  have er : dot_S600x16_S16x16_S600x16_1_0_0_1_n_n.rhsIdx (ix2 r c) ((contrEquiv1 dot_S600x16_S16x16_S600x16_1_0_0_1_n_n 16 rfl rfl).symm k) = ix2 k c :=
    funext fun x => Fin.ext (by
      match x with
      | ⟨0, _⟩ => exact (dot_S600x16_S16x16_S600x16_1_0_0_1_n_n.rhsIdx_val_of_single rfl _ _).trans hk
      | ⟨1, _⟩ => exact mm_down_rhs1 _ _)
  rw [el, er]

/-- The left operand's row coordinate of the contraction [600,16] · [16,3] is the result's row. -/
theorem mm_frame_lhs0 (i : S600x3.Idx) (q : dot_S600x16_S16x3_S600x3_1_0_0_1_n_n.contr.Idx) : (dot_S600x16_S16x3_S600x3_1_0_0_1_n_n.lhsIdx i q 0).val = (i 0).val := by
  unfold DotDims.lhsIdx
  rw [dif_neg (show ¬(0 : Fin S600x16.rank) ∈ dot_S600x16_S16x3_S600x3_1_0_0_1_n_n.lhsBatch by decide),
    dif_pos (show (0 : Fin S600x16.rank) ∈ dot_S600x16_S16x3_S600x3_1_0_0_1_n_n.lhsNonContracting by decide)]
  rfl

/-- The right operand's column coordinate of the contraction [600,16] · [16,3] is the result's column. -/
theorem mm_frame_rhs1 (i : S600x3.Idx) (q : dot_S600x16_S16x3_S600x3_1_0_0_1_n_n.contr.Idx) : (dot_S600x16_S16x3_S600x3_1_0_0_1_n_n.rhsIdx i q 1).val = (i 1).val := by
  unfold DotDims.rhsIdx
  rw [dif_neg (show ¬(1 : Fin S16x3.rank) ∈ dot_S600x16_S16x3_S600x3_1_0_0_1_n_n.rhsBatch by decide),
    dif_pos (show (1 : Fin S16x3.rank) ∈ dot_S600x16_S16x3_S600x3_1_0_0_1_n_n.rhsNonContracting by decide)]
  rfl

/-- The contraction [600,16] · [16,3] into the zero splat, read at (r, c): the sum over the contracted coordinate. -/
theorem mm_frame (a : FVec Ideal S600x16 .bf16) (b : FVec Ideal S16x3 .bf16) (r : Fin 600) (c : Fin 3) :
    matmul dot_S600x16_S16x3_S600x3_1_0_0_1_n_n none a b (constant (F := Ideal) S600x3 .f32 0x00000000#32) (ix2 r c)
      = ∑ k : Fin 16, a (ix2 r k) * b (ix2 k c) := by
  simp only [matmul]
  rw [Ideal.matmul_constant_zero_apply, ← Equiv.sum_comp (contrEquiv1 dot_S600x16_S16x3_S600x3_1_0_0_1_n_n 16 rfl rfl).symm]
  refine Finset.sum_congr rfl fun k _ => ?_
  have hk := contrEquiv1_symm_val dot_S600x16_S16x3_S600x3_1_0_0_1_n_n 16 rfl rfl k
  have el : dot_S600x16_S16x3_S600x3_1_0_0_1_n_n.lhsIdx (ix2 r c) ((contrEquiv1 dot_S600x16_S16x3_S600x3_1_0_0_1_n_n 16 rfl rfl).symm k) = ix2 r k :=
    funext fun x => Fin.ext (by
      match x with
      | ⟨0, _⟩ => exact mm_frame_lhs0 _ _
      | ⟨1, _⟩ => exact (dot_S600x16_S16x3_S600x3_1_0_0_1_n_n.lhsIdx_val_of_single rfl _ _).trans hk)
  have er : dot_S600x16_S16x3_S600x3_1_0_0_1_n_n.rhsIdx (ix2 r c) ((contrEquiv1 dot_S600x16_S16x3_S600x3_1_0_0_1_n_n 16 rfl rfl).symm k) = ix2 k c :=
    funext fun x => Fin.ext (by
      match x with
      | ⟨0, _⟩ => exact (dot_S600x16_S16x3_S600x3_1_0_0_1_n_n.rhsIdx_val_of_single rfl _ _).trans hk
      | ⟨1, _⟩ => exact mm_frame_rhs1 _ _)
  rw [el, er]

/-- The left operand's row coordinate of the contraction [200,153] · [153,128] is the result's row. -/
theorem mm_scalar_lhs0 (i : S200x128.Idx) (q : dot_S200x153_S153x128_S200x128_1_0_0_1_n_n.contr.Idx) : (dot_S200x153_S153x128_S200x128_1_0_0_1_n_n.lhsIdx i q 0).val = (i 0).val := by
  unfold DotDims.lhsIdx
  rw [dif_neg (show ¬(0 : Fin S200x153.rank) ∈ dot_S200x153_S153x128_S200x128_1_0_0_1_n_n.lhsBatch by decide),
    dif_pos (show (0 : Fin S200x153.rank) ∈ dot_S200x153_S153x128_S200x128_1_0_0_1_n_n.lhsNonContracting by decide)]
  rfl

/-- The right operand's column coordinate of the contraction [200,153] · [153,128] is the result's column. -/
theorem mm_scalar_rhs1 (i : S200x128.Idx) (q : dot_S200x153_S153x128_S200x128_1_0_0_1_n_n.contr.Idx) : (dot_S200x153_S153x128_S200x128_1_0_0_1_n_n.rhsIdx i q 1).val = (i 1).val := by
  unfold DotDims.rhsIdx
  rw [dif_neg (show ¬(1 : Fin S153x128.rank) ∈ dot_S200x153_S153x128_S200x128_1_0_0_1_n_n.rhsBatch by decide),
    dif_pos (show (1 : Fin S153x128.rank) ∈ dot_S200x153_S153x128_S200x128_1_0_0_1_n_n.rhsNonContracting by decide)]
  rfl

/-- The contraction [200,153] · [153,128] into the zero splat, read at (r, c): the sum over the contracted coordinate. -/
theorem mm_scalar (a : FVec Ideal S200x153 .bf16) (b : FVec Ideal S153x128 .bf16) (r : Fin 200) (c : Fin 128) :
    matmul dot_S200x153_S153x128_S200x128_1_0_0_1_n_n none a b (constant (F := Ideal) S200x128 .f32 0x00000000#32) (ix2 r c)
      = ∑ k : Fin 153, a (ix2 r k) * b (ix2 k c) := by
  simp only [matmul]
  rw [Ideal.matmul_constant_zero_apply, ← Equiv.sum_comp (contrEquiv1 dot_S200x153_S153x128_S200x128_1_0_0_1_n_n 153 rfl rfl).symm]
  refine Finset.sum_congr rfl fun k _ => ?_
  have hk := contrEquiv1_symm_val dot_S200x153_S153x128_S200x128_1_0_0_1_n_n 153 rfl rfl k
  have el : dot_S200x153_S153x128_S200x128_1_0_0_1_n_n.lhsIdx (ix2 r c) ((contrEquiv1 dot_S200x153_S153x128_S200x128_1_0_0_1_n_n 153 rfl rfl).symm k) = ix2 r k :=
    funext fun x => Fin.ext (by
      match x with
      | ⟨0, _⟩ => exact mm_scalar_lhs0 _ _
      | ⟨1, _⟩ => exact (dot_S200x153_S153x128_S200x128_1_0_0_1_n_n.lhsIdx_val_of_single rfl _ _).trans hk)
  have er : dot_S200x153_S153x128_S200x128_1_0_0_1_n_n.rhsIdx (ix2 r c) ((contrEquiv1 dot_S200x153_S153x128_S200x128_1_0_0_1_n_n 153 rfl rfl).symm k) = ix2 k c :=
    funext fun x => Fin.ext (by
      match x with
      | ⟨0, _⟩ => exact (dot_S200x153_S153x128_S200x128_1_0_0_1_n_n.rhsIdx_val_of_single rfl _ _).trans hk
      | ⟨1, _⟩ => exact mm_scalar_rhs1 _ _)
  rw [el, er]

/-- The left operand's row coordinate of the contraction [200,128] · [128,16] is the result's row. -/
theorem mm_gate_lhs0 (i : S200x16.Idx) (q : dot_S200x128_S128x16_S200x16_1_0_0_1_n_n.contr.Idx) : (dot_S200x128_S128x16_S200x16_1_0_0_1_n_n.lhsIdx i q 0).val = (i 0).val := by
  unfold DotDims.lhsIdx
  rw [dif_neg (show ¬(0 : Fin S200x128.rank) ∈ dot_S200x128_S128x16_S200x16_1_0_0_1_n_n.lhsBatch by decide),
    dif_pos (show (0 : Fin S200x128.rank) ∈ dot_S200x128_S128x16_S200x16_1_0_0_1_n_n.lhsNonContracting by decide)]
  rfl

/-- The right operand's column coordinate of the contraction [200,128] · [128,16] is the result's column. -/
theorem mm_gate_rhs1 (i : S200x16.Idx) (q : dot_S200x128_S128x16_S200x16_1_0_0_1_n_n.contr.Idx) : (dot_S200x128_S128x16_S200x16_1_0_0_1_n_n.rhsIdx i q 1).val = (i 1).val := by
  unfold DotDims.rhsIdx
  rw [dif_neg (show ¬(1 : Fin S128x16.rank) ∈ dot_S200x128_S128x16_S200x16_1_0_0_1_n_n.rhsBatch by decide),
    dif_pos (show (1 : Fin S128x16.rank) ∈ dot_S200x128_S128x16_S200x16_1_0_0_1_n_n.rhsNonContracting by decide)]
  rfl

/-- The contraction [200,128] · [128,16] into the zero splat, read at (r, c): the sum over the contracted coordinate. -/
theorem mm_gate (a : FVec Ideal S200x128 .bf16) (b : FVec Ideal S128x16 .bf16) (r : Fin 200) (c : Fin 16) :
    matmul dot_S200x128_S128x16_S200x16_1_0_0_1_n_n none a b (constant (F := Ideal) S200x16 .f32 0x00000000#32) (ix2 r c)
      = ∑ k : Fin 128, a (ix2 r k) * b (ix2 k c) := by
  simp only [matmul]
  rw [Ideal.matmul_constant_zero_apply, ← Equiv.sum_comp (contrEquiv1 dot_S200x128_S128x16_S200x16_1_0_0_1_n_n 128 rfl rfl).symm]
  refine Finset.sum_congr rfl fun k _ => ?_
  have hk := contrEquiv1_symm_val dot_S200x128_S128x16_S200x16_1_0_0_1_n_n 128 rfl rfl k
  have el : dot_S200x128_S128x16_S200x16_1_0_0_1_n_n.lhsIdx (ix2 r c) ((contrEquiv1 dot_S200x128_S128x16_S200x16_1_0_0_1_n_n 128 rfl rfl).symm k) = ix2 r k :=
    funext fun x => Fin.ext (by
      match x with
      | ⟨0, _⟩ => exact mm_gate_lhs0 _ _
      | ⟨1, _⟩ => exact (dot_S200x128_S128x16_S200x16_1_0_0_1_n_n.lhsIdx_val_of_single rfl _ _).trans hk)
  have er : dot_S200x128_S128x16_S200x16_1_0_0_1_n_n.rhsIdx (ix2 r c) ((contrEquiv1 dot_S200x128_S128x16_S200x16_1_0_0_1_n_n 128 rfl rfl).symm k) = ix2 k c :=
    funext fun x => Fin.ext (by
      match x with
      | ⟨0, _⟩ => exact (dot_S200x128_S128x16_S200x16_1_0_0_1_n_n.rhsIdx_val_of_single rfl _ _).trans hk
      | ⟨1, _⟩ => exact mm_gate_rhs1 _ _)
  rw [el, er]

/-! ## The layout operations of the body, read at an index given by coordinates -/

section Layout
variable {α : Type}

/-- The row of the [600, ·] arrangement that holds node `p`'s spatial component `t`. -/
abbrev row (p : Fin 200) (t : Fin 3) : Fin 600 := ⟨3 * p.val + t.val, by omega⟩

/-- [200,3,16] viewed [600,16]: row 3 p + t is (p, t). -/
theorem cast_to_rows16 (x : S200x3x16.Idx → α) (p : Fin 200) (t : Fin 3) (c : Fin 16) :
    shapeCast S600x16 x shapeCasts_S200x3x16_S600x16 (ix2 (row p t) c) = x (ix3 p t c) :=
  shapeCast_apply x shapeCasts_S200x3x16_S600x16 _ _ (by
    rw [Shape.rowMajor_val_three, Shape.rowMajor_val_two]
    show (p.val * 3 + t.val) * 16 + c.val = (3 * p.val + t.val) * 16 + c.val
    omega)

/-- [600,16] viewed [200,3,16]: (p, t) is row 3 p + t. -/
theorem cast_of_rows16 (x : S600x16.Idx → α) (p : Fin 200) (t : Fin 3) (c : Fin 16) :
    shapeCast S200x3x16 x shapeCasts_S600x16_S200x3x16 (ix3 p t c) = x (ix2 (row p t) c) :=
  shapeCast_apply x shapeCasts_S600x16_S200x3x16 _ _ (by
    rw [Shape.rowMajor_val_three, Shape.rowMajor_val_two]
    show (3 * p.val + t.val) * 16 + c.val = (p.val * 3 + t.val) * 16 + c.val
    omega)

/-- [600,3] viewed [200,3,3]: (p, t) is row 3 p + t. -/
theorem cast_of_rows3 (x : S600x3.Idx → α) (p : Fin 200) (t : Fin 3) (c : Fin 3) :
    shapeCast S200x3x3 x shapeCasts_S600x3_S200x3x3 (ix3 p t c) = x (ix2 (row p t) c) :=
  shapeCast_apply x shapeCasts_S600x3_S200x3x3 _ _ (by
    rw [Shape.rowMajor_val_three, Shape.rowMajor_val_two]
    show (3 * p.val + t.val) * 3 + c.val = (p.val * 3 + t.val) * 3 + c.val
    omega)

/-- A column [200,3,1] cut from [200,3,3] at offset `o` on the last axis reads the source's column `o`. -/
theorem slice_col (o : Nat) (x : S200x3x3.Idx → α) (h : S200x3x3.Slices ![0, 0, o] S200x3x1)
    (p : Fin 200) (s : Fin 3) (u : Fin 1) (k : Fin 3) (hk : k.val = o) :
    extractStridedSlice S200x3x1 ![0, 0, o] x h (ix3 p s u) = x (ix3 p s k) :=
  extractStridedSlice_apply _ _ _ _ _ (fun ax => by
    match ax with
    | ⟨0, _⟩ => exact (Nat.zero_add _).symm
    | ⟨1, _⟩ => exact (Nat.zero_add _).symm
    | ⟨2, _⟩ =>
      show k.val = o + u.val
      have := u.isLt
      omega)

/-- A row [200,1,3] cut from [200,3,3] at offset `o` on the middle axis reads the source's row `o`. -/
theorem slice_row (o : Nat) (x : S200x3x3.Idx → α) (h : S200x3x3.Slices ![0, o, 0] S200x1x3)
    (p : Fin 200) (u : Fin 1) (f : Fin 3) (k : Fin 3) (hk : k.val = o) :
    extractStridedSlice S200x1x3 ![0, o, 0] x h (ix3 p u f) = x (ix3 p k f) :=
  slice3_axis1_apply o x h p u f k (by have := u.isLt; omega)

/-- A column [200,3,1] broadcast along the last axis. -/
theorem bcast_col (x : S200x3x1.Idx → α) (p : Fin 200) (s : Fin 3) (f : Fin 3) :
    broadcastTo S200x3x3 x broadcasts_S200x3x1_S200x3x3 (ix3 p s f) = x (ix3 p s (0 : Fin 1)) := by
  refine broadcastTo_apply x broadcasts_S200x3x1_S200x3x3 (ix3 p s f) (ix3 p s (0 : Fin 1)) fun ax => ?_
  match ax with
  | ⟨0, _⟩ => show p.val = if (200 : Nat) = 1 then 0 else p.val; rw [if_neg (by decide)]
  | ⟨1, _⟩ => show s.val = if (3 : Nat) = 1 then 0 else s.val; rw [if_neg (by decide)]
  | ⟨2, _⟩ => show (0 : Nat) = if (1 : Nat) = 1 then 0 else f.val; rw [if_pos rfl]

/-- A row [200,1,3] broadcast along the middle axis. -/
theorem bcast_row (x : S200x1x3.Idx → α) (p : Fin 200) (s : Fin 3) (f : Fin 3) :
    broadcastTo S200x3x3 x broadcasts_S200x1x3_S200x3x3 (ix3 p s f) = x (ix3 p (0 : Fin 1) f) := by
  refine broadcastTo_apply x broadcasts_S200x1x3_S200x3x3 (ix3 p s f) (ix3 p (0 : Fin 1) f) fun ax => ?_
  match ax with
  | ⟨0, _⟩ => show p.val = if (200 : Nat) = 1 then 0 else p.val; rw [if_neg (by decide)]
  | ⟨1, _⟩ => show (0 : Nat) = if (1 : Nat) = 1 then 0 else s.val; rw [if_pos rfl]
  | ⟨2, _⟩ => show f.val = if (3 : Nat) = 1 then 0 else f.val; rw [if_neg (by decide)]

/-- One value per node, [200,1,1], broadcast over both trailing axes. -/
theorem bcast_node (x : S200x1x1.Idx → α) (p : Fin 200) (s : Fin 3) (f : Fin 3) :
    broadcastTo S200x3x3 x broadcasts_S200x1x1_S200x3x3 (ix3 p s f) = x (ix3 p (0 : Fin 1) (0 : Fin 1)) := by
  refine broadcastTo_apply x broadcasts_S200x1x1_S200x3x3 (ix3 p s f) (ix3 p (0 : Fin 1) (0 : Fin 1)) fun ax => ?_
  match ax with
  | ⟨0, _⟩ => show p.val = if (200 : Nat) = 1 then 0 else p.val; rw [if_neg (by decide)]
  | ⟨1, _⟩ => show (0 : Nat) = if (1 : Nat) = 1 then 0 else s.val; rw [if_pos rfl]
  | ⟨2, _⟩ => show (0 : Nat) = if (1 : Nat) = 1 then 0 else f.val; rw [if_pos rfl]

/-- One value per (node, channel), [200,16,1], broadcast along the spatial axis. -/
theorem bcast_gate (x : S200x16x1.Idx → α) (p : Fin 200) (v : Fin 16) (t : Fin 3) :
    broadcastTo S200x16x3 x broadcasts_S200x16x1_S200x16x3 (ix3 p v t) = x (ix3 p v (0 : Fin 1)) := by
  refine broadcastTo_apply x broadcasts_S200x16x1_S200x16x3 (ix3 p v t) (ix3 p v (0 : Fin 1)) fun ax => ?_
  match ax with
  | ⟨0, _⟩ => show p.val = if (200 : Nat) = 1 then 0 else p.val; rw [if_neg (by decide)]
  | ⟨1, _⟩ => show v.val = if (16 : Nat) = 1 then 0 else v.val; rw [if_neg (by decide)]
  | ⟨2, _⟩ => show (0 : Nat) = if (1 : Nat) = 1 then 0 else t.val; rw [if_pos rfl]

/-- [200,1] viewed [200,1,1]. -/
theorem cast_node (x : S200x1.Idx → α) (p : Fin 200) (u u' : Fin 1) :
    shapeCast S200x1x1 x shapeCasts_S200x1_S200x1x1 (ix3 p u u') = x (ix2 p (0 : Fin 1)) :=
  shapeCast_apply x shapeCasts_S200x1_S200x1x1 _ _ (by
    rw [Shape.rowMajor_val_three, Shape.rowMajor_val_two]
    show p.val * 1 + 0 = (p.val * 1 + u.val) * 1 + u'.val
    have := u.isLt
    have := u'.isLt
    omega)

/-- [200,16] viewed [200,16,1]. -/
theorem cast_gate (x : S200x16.Idx → α) (p : Fin 200) (v : Fin 16) (u : Fin 1) :
    shapeCast S200x16x1 x shapeCasts_S200x16_S200x16x1 (ix3 p v u) = x (ix2 p v) :=
  shapeCast_apply x shapeCasts_S200x16_S200x16x1 _ _ (by
    rw [Shape.rowMajor_val_three, Shape.rowMajor_val_two]
    show p.val * 16 + v.val = (p.val * 16 + v.val) * 1 + u.val
    have := u.isLt
    omega)

/-- [200,3,3] viewed [200,9]: column k is (k / 3, k % 3). -/
theorem cast_hidden (x : S200x3x3.Idx → α) (p : Fin 200) (k : Fin 9) :
    shapeCast S200x9 x shapeCasts_S200x3x3_S200x9 (ix2 p k)
      = x (ix3 p (⟨k.val / 3, by omega⟩ : Fin 3) (⟨k.val % 3, Nat.mod_lt _ (by decide)⟩ : Fin 3)) :=
  shapeCast_apply x shapeCasts_S200x3x3_S200x9 _ _ (by
    rw [Shape.rowMajor_val_three, Shape.rowMajor_val_two]
    show (p.val * 3 + k.val / 3) * 3 + k.val % 3 = p.val * 9 + k.val
    omega)

/-- The merged row [200,153] = [200,128] ++ [200,16] ++ [200,9] along the columns, by the span a column falls in. -/
theorem concat_apply (a0 : S200x128.Idx → α) (vn : S200x16.Idx → α) (hd : S200x9.Idx → α) (p : Fin 200) (j : Fin 153) :
    concatenate S200x153 1 [⟨S200x128, a0⟩, ⟨S200x16, vn⟩, ⟨S200x9, hd⟩] concatenates_S200x128_S200x16_S200x9_S200x153_d1 (ix2 p j)
      = if h : j.val < 128 then a0 (ix2 p (⟨j.val, h⟩ : Fin 128))
        else if h2 : j.val < 144 then vn (ix2 p (⟨j.val - 128, by omega⟩ : Fin 16))
        else hd (ix2 p (⟨j.val - 144, by omega⟩ : Fin 9)) := by
  by_cases h : j.val < 128
  · rw [dif_pos h]
    exact concatenate_apply_piece (t := S200x153) 1 [⟨S200x128, a0⟩, ⟨S200x16, vn⟩, ⟨S200x9, hd⟩]
      concatenates_S200x128_S200x16_S200x9_S200x153_d1 (ix2 p j) 0 (by show 0 < 3; omega)
      S200x128 a0 rfl rfl 0 rfl (ix2 p (⟨j.val, h⟩ : Fin 128))
      (fun b hb => by
        match b with
        | ⟨0, _⟩ => rfl
        | ⟨1, _⟩ => exact absurd rfl hb)
      (by show 0 + j.val = j.val; omega)
  · rw [dif_neg h]
    by_cases h2 : j.val < 144
    · rw [dif_pos h2]
      exact concatenate_apply_piece (t := S200x153) 1 [⟨S200x128, a0⟩, ⟨S200x16, vn⟩, ⟨S200x9, hd⟩]
        concatenates_S200x128_S200x16_S200x9_S200x153_d1 (ix2 p j) 1 (by show 1 < 3; omega)
        S200x16 vn rfl rfl 128 rfl (ix2 p (⟨j.val - 128, by omega⟩ : Fin 16))
        (fun b hb => by
          match b with
          | ⟨0, _⟩ => rfl
          | ⟨1, _⟩ => exact absurd rfl hb)
        (by show 128 + (j.val - 128) = j.val; omega)
    · rw [dif_neg h2]
      exact concatenate_apply_piece (t := S200x153) 1 [⟨S200x128, a0⟩, ⟨S200x16, vn⟩, ⟨S200x9, hd⟩]
        concatenates_S200x128_S200x16_S200x9_S200x153_d1 (ix2 p j) 2 (by show 2 < 3; omega)
        S200x9 hd rfl rfl 144 rfl (ix2 p (⟨j.val - 144, by omega⟩ : Fin 9))
        (fun b hb => by
          match b with
          | ⟨0, _⟩ => rfl
          | ⟨1, _⟩ => exact absurd rfl hb)
        (by show 144 + (j.val - 144) = j.val; omega)

end Layout

/-- The lane sum over the spatial axis of a [200,3,16] block, read at (p, h): the sum over the three components. -/
theorem lane_sum (src : FVec Ideal S200x3x16 .f32) (p : Fin 200) (h : Fin 16) :
    multiReduction (F := Ideal) .add [1] S200x16 src 0x00000000#32 reduces_S200x3x16_S200x16 (.inl rfl) rfl (ix2 p h)
      = ∑ t : Fin 3, src (ix3 p t h) := by
  refine (Ideal.multiReduction_add_single src 0x00000000#32 reduces_S200x3x16_S200x16 (.inl rfl) rfl (ix2 p h)).trans ?_
  show ∑ t : Fin 3, src (reduces_S200x3x16_S200x16.lift (ix2 p h) t) = ∑ t : Fin 3, src (ix3 p t h)
  refine Finset.sum_congr rfl fun t _ => congrArg src ?_
  funext a
  match a with
  | ⟨0, _⟩ => rfl
  | ⟨1, _⟩ => rfl
  | ⟨2, _⟩ => rfl

/-! ## The body's values at an index -/

/-- A root at an index is the root of the element. -/
theorem sqrt_apply {s : Shape} (x : FVec Ideal s .f32) (i : s.Idx) : sqrt x i = Ideal.sqrt (x i) := rfl
/-- A logistic at an index is the logistic of the element. -/
theorem logistic_apply {s : Shape} (x : FVec Ideal s .f32) (i : s.Idx) : logistic x i = Ideal.logistic (x i) := rfl
/-- `x · logistic x` at an index, once the element is known. -/
theorem silu_apply {s : Shape} (x : FVec Ideal s .f32) (i : s.Idx) (S : EReal) (h : x i = S) :
    mulf x (logistic x) i = Cert.NodeRow.silu S := by
  subst h; rfl

/-- The narrowing of an f32 block to bf16 is the identity on extended reals. -/
theorem trunc_apply {s : Shape} (a : FVec Ideal s .f32) (h : FTy.bits .bf16 < FTy.bits .f32) (i : s.Idx) :
    (truncf .bf16 a h : FVec Ideal s .bf16) i = a i := rfl

/-- The reshape of the summed frames to their own shape changes nothing. -/
theorem pay1_eq (x2 : Vec Ideal S200x3x3 .f32) : k0_pay1 (F := Ideal) x2 = x2 := by
  unfold k0_pay1
  exact shapeCast_self x2 shapeCasts_S200x3x3_S200x3x3

/-- The reshape of the edge counts to their own shape changes nothing. -/
theorem pay2_eq (x3 : Vec Ideal S200x1 .f32) : k0_pay2 (F := Ideal) x3 = x3 := by
  unfold k0_pay2
  exact shapeCast_self x3 shapeCasts_S200x1_S200x1

/-- The transposed vector channels: (p, t, v) reads channel v's component t. -/
theorem pay3_apply (x1 : Vec Ideal S200x16x3 .f32) (p : Fin 200) (t : Fin 3) (v : Fin 16) :
    k0_pay3 (F := Ideal) x1 (ix3 p t v) = x1 (ix3 p v t) := by
  unfold k0_pay3
  exact transpose_ix3_021_apply x1 transposes_S200x16x3_p0_2_1_S200x3x16 p t v

/-- The down projection of node p at (t, h). -/
theorem pay4_apply (x1 : Vec Ideal S200x16x3 .f32) (x4 : Vec Ideal S16x16 .f32) (p : Fin 200) (t : Fin 3) (h : Fin 16) :
    k0_pay4 (F := Ideal) x1 x4 (ix3 p t h)
      = Cert.NodeRow.vh (fun v t => x1 (ix3 p v t)) (fun h v => x4 (ix2 h v)) t h := by
  unfold k0_pay4
  refine (cast_of_rows16 _ p t h).trans ?_
  refine (mm_down _ _ (row p t) h).trans ?_
  unfold Cert.NodeRow.vh
  refine Finset.sum_congr rfl fun v _ => ?_
  refine congrArg₂ (· * ·) ?_ ?_
  · refine (trunc_apply _ _ _).trans ?_
    exact (cast_to_rows16 _ p t v).trans (pay3_apply x1 p t v)
  · exact (trunc_apply _ _ _).trans (transpose_ix2_apply x4 transposes_S16x16_p1_0_S16x16 v h)

/-- The frame projection of node p at (t, f). -/
theorem pay6_apply (x1 : Vec Ideal S200x16x3 .f32) (x5 : Vec Ideal S3x16 .f32) (p : Fin 200) (t : Fin 3) (f : Fin 3) :
    k0_pay6 (F := Ideal) x1 x5 (ix3 p t f)
      = Cert.NodeRow.vdf (fun v t => x1 (ix3 p v t)) (fun f v => x5 (ix2 f v)) t f := by
  unfold k0_pay6
  refine (cast_of_rows3 _ p t f).trans ?_
  refine (mm_frame _ _ (row p t) f).trans ?_
  unfold Cert.NodeRow.vdf
  refine Finset.sum_congr rfl fun v _ => ?_
  refine congrArg₂ (· * ·) ?_ ?_
  · refine (trunc_apply _ _ _).trans ?_
    exact (cast_to_rows16 _ p t v).trans (pay3_apply x1 p t v)
  · exact (trunc_apply _ _ _).trans (transpose_ix2_apply x5 transposes_S3x16_p1_0_S16x3 v f)

/-- The norm over the spatial axis of node p's down projection at h. -/
theorem pay5_apply (x1 : Vec Ideal S200x16x3 .f32) (x4 : Vec Ideal S16x16 .f32) (p : Fin 200) (h : Fin 16) :
    k0_pay5 (F := Ideal) x1 x4 (ix2 p h)
      = Cert.NodeRow.vnorm (fun v t => x1 (ix3 p v t)) (fun h v => x4 (ix2 h v)) h := by
  unfold k0_pay5
  refine (sqrt_apply _ _).trans ?_
  unfold Cert.NodeRow.vnorm
  refine congrArg Ideal.sqrt ?_
  refine (addf_apply _ _ _).trans ?_
  refine congrArg₂ (· + ·) ?_ rfl
  refine (lane_sum _ p h).trans ?_
  refine Finset.sum_congr rfl fun t _ => ?_
  refine (mulf_apply _ _ _).trans ?_
  rw [pay4_apply]

/-- The first column of the summed frames. -/
theorem pay7_apply (x2 : Vec Ideal S200x3x3 .f32) (p : Fin 200) (s : Fin 3) (u : Fin 1) :
    k0_pay7 (F := Ideal) x2 (ix3 p s u) = x2 (ix3 p s (0 : Fin 3)) := by
  unfold k0_pay7
  refine (slice_col 0 _ slices_S200x3x3_o0_0_0_S200x3x1 p s u 0 rfl).trans ?_
  exact congrFun (pay1_eq x2) _

/-- The first row of the frame projection. -/
theorem pay8_apply (x1 : Vec Ideal S200x16x3 .f32) (x5 : Vec Ideal S3x16 .f32) (p : Fin 200) (u : Fin 1) (f : Fin 3) :
    k0_pay8 (F := Ideal) x1 x5 (ix3 p u f) = k0_pay6 (F := Ideal) x1 x5 (ix3 p (0 : Fin 3) f) := by
  unfold k0_pay8
  exact slice_row 0 _ slices_S200x3x3_o0_0_0_S200x1x3 p u f 0 rfl

/-! ## The two stored payloads at an index -/

/-- The first stored payload at (p, o), over whatever the loaded and derived blocks read on node p's rows: silu of the
    merged row against row o of the scalar weights plus the bias. The merged row's last nine columns are the frame
    product (three slice-and-broadcast products added left to right, over max(count, 1)), transposed and flattened:
    column k reads (s, f) = (k % 3, k / 3). -/
theorem pay9_row (x0 : Vec Ideal S200x128 .f32) (v3 : FVec Ideal S200x3x3 .f32) (v5 : FVec Ideal S200x1 .f32)
    (x6 : Vec Ideal S128x153 .f32) (x7 : Vec Ideal S128 .f32) (v24 : FVec Ideal S200x16 .f32)
    (v30 : FVec Ideal S200x3x3 .f32) (v31 : FVec Ideal S200x3x1 .f32) (v32 : FVec Ideal S200x1x3 .f32)
    (p : Fin 200) (vn : Fin 16 → EReal) (Fs d : Fin 3 → Fin 3 → EReal) (cnt : EReal)
    (h3 : ∀ s t, v3 (ix3 p s t) = Fs s t) (h5 : v5 (ix2 p (0 : Fin 1)) = cnt)
    (h24 : ∀ h, v24 (ix2 p h) = vn h) (h30 : ∀ t f, v30 (ix3 p t f) = d t f)
    (h31 : ∀ s u, v31 (ix3 p s u) = Fs s 0) (h32 : ∀ u f, v32 (ix3 p u f) = d 0 f) (o : Fin 128) :
    k0_pay9 (F := Ideal) x0 v3 v5 x6 x7 v24 v30 v31 v32 (ix2 p o)
      = Cert.NodeRow.silu
          ((∑ j : Fin 153, Cert.NodeRow.merged (fun j => x0 (ix2 p j)) vn (Cert.NodeRow.hidK Fs cnt d) j * x6 (ix2 o j))
            + x7 (ix1 o)) := by
  unfold k0_pay9
  refine silu_apply _ _ _ ?_
  refine (addf_apply _ _ _).trans ?_
  refine congrArg₂ (· + ·) ?_ ?_
  · refine (mm_scalar _ _ p o).trans ?_
    refine Finset.sum_congr rfl fun j _ => ?_
    refine congrArg₂ (· * ·) ?_ ?_
    · refine (trunc_apply _ _ _).trans ?_
      refine (concat_apply _ _ _ p j).trans ?_
      unfold Cert.NodeRow.merged
      by_cases hj : j.val < 128
      · rw [dif_pos hj, dif_pos hj]
      · rw [dif_neg hj, dif_neg hj]
        by_cases hj2 : j.val < 144
        · rw [dif_pos hj2, dif_pos hj2]
          exact h24 _
        · rw [dif_neg hj2, dif_neg hj2]
          refine (cast_hidden _ p _).trans ?_
          refine (transpose_ix3_021_apply _ transposes_S200x3x3_p0_2_1_S200x3x3 p _ _).trans ?_
          refine (divf_apply _ _ _).trans ?_
          unfold Cert.NodeRow.hidK
          refine congrArg₂ Ideal.div ?_ ?_
          · refine (addf_apply _ _ _).trans ?_
            refine congrArg₂ (· + ·) ?_ ?_
            · refine (addf_apply _ _ _).trans ?_
              refine congrArg₂ (· + ·) ?_ ?_
              · refine (mulf_apply _ _ _).trans ?_
                refine congrArg₂ (· * ·) ?_ ?_
                · exact (bcast_col _ p _ _).trans (h31 _ _)
                · exact (bcast_row _ p _ _).trans (h32 _ _)
              · refine (mulf_apply _ _ _).trans ?_
                refine congrArg₂ (· * ·) ?_ ?_
                · exact (bcast_col _ p _ _).trans
                    ((slice_col 1 _ slices_S200x3x3_o0_0_1_S200x3x1 p _ _ 1 rfl).trans (h3 _ _))
                · exact (bcast_row _ p _ _).trans
                    ((slice_row 1 _ slices_S200x3x3_o0_1_0_S200x1x3 p _ _ 1 rfl).trans (h30 _ _))
            · refine (mulf_apply _ _ _).trans ?_
              refine congrArg₂ (· * ·) ?_ ?_
              · exact (bcast_col _ p _ _).trans
                  ((slice_col 2 _ slices_S200x3x3_o0_0_2_S200x3x1 p _ _ 2 rfl).trans (h3 _ _))
              · exact (bcast_row _ p _ _).trans
                  ((slice_row 2 _ slices_S200x3x3_o0_2_0_S200x1x3 p _ _ 2 rfl).trans (h30 _ _))
          · refine (bcast_node _ p _ _).trans ?_
            refine (cast_node _ p _ _).trans ?_
            refine (maximumf_apply _ _ _).trans ?_
            exact congrArg₂ max h5 rfl
    · exact (transpose_ix2_apply _ transposes_S128x153_p1_0_S153x128 j o).trans (trunc_apply _ _ _)
  · exact (broadcastTo_1b_ab_apply _ broadcasts_S1x128_S200x128 p o).trans
      (shapeCast_a_1a_apply x7 shapeCasts_S128_S1x128 (0 : Fin 1) o)

/-- The second stored payload at (p, v, t), over whatever the loaded and derived blocks read on node p's rows: the up
    projection of the down projection `w`, times the logistic gate of channel v computed from the first payload's row. -/
theorem pay10_row (x0 : Vec Ideal S200x128 .f32) (v3 : FVec Ideal S200x3x3 .f32) (v5 : FVec Ideal S200x1 .f32)
    (x6 : Vec Ideal S128x153 .f32) (x7 : Vec Ideal S128 .f32) (x8 : Vec Ideal S16x16 .f32) (x9 : Vec Ideal S16x128 .f32)
    (x10 : Vec Ideal S16 .f32) (v19 : FVec Ideal S200x3x16 .f32) (v24 : FVec Ideal S200x16 .f32)
    (v30 : FVec Ideal S200x3x3 .f32) (v31 : FVec Ideal S200x3x1 .f32) (v32 : FVec Ideal S200x1x3 .f32)
    (p : Fin 200) (w : Fin 3 → Fin 16 → EReal) (sf : Fin 128 → EReal)
    (h19 : ∀ t h, v19 (ix3 p t h) = w t h)
    (hsf : ∀ o, k0_pay9 (F := Ideal) x0 v3 v5 x6 x7 v24 v30 v31 v32 (ix2 p o) = sf o) (v : Fin 16) (t : Fin 3) :
    k0_pay10 (F := Ideal) x0 v3 v5 x6 x7 x8 x9 x10 v19 v24 v30 v31 v32 (ix3 p v t)
      = (∑ h : Fin 16, w t h * x8 (ix2 v h))
          * Ideal.logistic ((∑ o : Fin 128, sf o * x9 (ix2 v o)) + x10 (ix1 v)) := by
  unfold k0_pay10
  refine (mulf_apply _ _ _).trans ?_
  refine congrArg₂ (· * ·) ?_ ?_
  · refine (transpose_ix3_021_apply _ transposes_S200x3x16_p0_2_1_S200x16x3 p v t).trans ?_
    refine (cast_of_rows16 _ p t v).trans ?_
    refine (mm_down _ _ (row p t) v).trans ?_
    refine Finset.sum_congr rfl fun h _ => ?_
    refine congrArg₂ (· * ·) ?_ ?_
    · refine (trunc_apply _ _ _).trans ?_
      exact (cast_to_rows16 _ p t h).trans (h19 t h)
    · exact (trunc_apply _ _ _).trans (transpose_ix2_apply x8 transposes_S16x16_p1_0_S16x16 h v)
  · refine (bcast_gate _ p v t).trans ?_
    refine (cast_gate _ p v _).trans ?_
    refine (logistic_apply _ _).trans ?_
    refine congrArg Ideal.logistic ?_
    refine (addf_apply _ _ _).trans ?_
    refine congrArg₂ (· + ·) ?_ ?_
    · refine (mm_gate _ _ p v).trans ?_
      refine Finset.sum_congr rfl fun o _ => ?_
      refine congrArg₂ (· * ·) ?_ ?_
      · refine (trunc_apply _ _ _).trans ?_
        exact hsf o
      · exact (transpose_ix2_apply _ transposes_S16x128_p1_0_S128x16 o v).trans (trunc_apply _ _ _)
    · exact (broadcastTo_1b_ab_apply _ broadcasts_S1x16_S200x16 p v).trans
        (shapeCast_a_1a_apply x10 shapeCasts_S16_S1x16 (0 : Fin 1) v)

/-! ## The two results' blocks are the specification's rows -/

/-- The first result's block read at (p, o) is node p's row of the specification at o. -/
theorem sfin_row (x0 : Vec Ideal S200x128 .f32) (x1 : Vec Ideal S200x16x3 .f32) (x2 : Vec Ideal S200x3x3 .f32)
    (x3 : Vec Ideal S200x1 .f32) (x4 : Vec Ideal S16x16 .f32) (x5 : Vec Ideal S3x16 .f32) (x6 : Vec Ideal S128x153 .f32)
    (x7 : Vec Ideal S128 .f32) (p : Fin 200) (o : Fin 128) :
    k0_pay9 (F := Ideal) x0 (k0_pay1 x2) (k0_pay2 x3) x6 x7 (k0_pay5 x1 x4) (k0_pay6 x1 x5) (k0_pay7 x2) (k0_pay8 x1 x5) (ix2 p o)
      = Cert.NodeRow.sfin (fun j => x0 (ix2 p j)) (fun v t => x1 (ix3 p v t))
          (Cert.NodeRow.hidK (fun s t => x2 (ix3 p s t)) (x3 (ix2 p (0 : Fin 1)))
            (Cert.NodeRow.vdf (fun v t => x1 (ix3 p v t)) (fun f v => x5 (ix2 f v))))
          (fun h v => x4 (ix2 h v)) (fun o j => x6 (ix2 o j)) (fun o => x7 (ix1 o)) o := by
  unfold Cert.NodeRow.sfin Cert.NodeRow.sout
  exact pay9_row x0 (k0_pay1 x2) (k0_pay2 x3) x6 x7 (k0_pay5 x1 x4) (k0_pay6 x1 x5) (k0_pay7 x2) (k0_pay8 x1 x5) p
    (Cert.NodeRow.vnorm (fun v t => x1 (ix3 p v t)) (fun h v => x4 (ix2 h v)))
    (fun s t => x2 (ix3 p s t)) (Cert.NodeRow.vdf (fun v t => x1 (ix3 p v t)) (fun f v => x5 (ix2 f v)))
    (x3 (ix2 p (0 : Fin 1)))
    (fun s t => congrFun (pay1_eq x2) (ix3 p s t)) (congrFun (pay2_eq x3) (ix2 p (0 : Fin 1)))
    (fun h => pay5_apply x1 x4 p h) (fun t f => pay6_apply x1 x5 p t f)
    (fun s u => pay7_apply x2 p s u) (fun u f => (pay8_apply x1 x5 p u f).trans (pay6_apply x1 x5 p 0 f)) o

/-- The second result's block read at (p, v, t) is node p's row of the specification at (v, t). -/
theorem vfin_row (x0 : Vec Ideal S200x128 .f32) (x1 : Vec Ideal S200x16x3 .f32) (x2 : Vec Ideal S200x3x3 .f32)
    (x3 : Vec Ideal S200x1 .f32) (x4 : Vec Ideal S16x16 .f32) (x5 : Vec Ideal S3x16 .f32) (x6 : Vec Ideal S128x153 .f32)
    (x7 : Vec Ideal S128 .f32) (x8 : Vec Ideal S16x16 .f32) (x9 : Vec Ideal S16x128 .f32) (x10 : Vec Ideal S16 .f32)
    (p : Fin 200) (v : Fin 16) (t : Fin 3) :
    k0_pay10 (F := Ideal) x0 (k0_pay1 x2) (k0_pay2 x3) x6 x7 x8 x9 x10 (k0_pay4 x1 x4) (k0_pay5 x1 x4) (k0_pay6 x1 x5)
        (k0_pay7 x2) (k0_pay8 x1 x5) (ix3 p v t)
      = Cert.NodeRow.vfin (fun j => x0 (ix2 p j)) (fun v t => x1 (ix3 p v t))
          (Cert.NodeRow.hidK (fun s t => x2 (ix3 p s t)) (x3 (ix2 p (0 : Fin 1)))
            (Cert.NodeRow.vdf (fun v t => x1 (ix3 p v t)) (fun f v => x5 (ix2 f v))))
          (fun h v => x4 (ix2 h v)) (fun o j => x6 (ix2 o j)) (fun o => x7 (ix1 o)) (fun v h => x8 (ix2 v h))
          (fun v o => x9 (ix2 v o)) (fun v => x10 (ix1 v)) v t := by
  unfold Cert.NodeRow.vfin Cert.NodeRow.vup Cert.NodeRow.gate
  exact pay10_row x0 (k0_pay1 x2) (k0_pay2 x3) x6 x7 x8 x9 x10 (k0_pay4 x1 x4) (k0_pay5 x1 x4) (k0_pay6 x1 x5)
    (k0_pay7 x2) (k0_pay8 x1 x5) p
    (Cert.NodeRow.vh (fun v t => x1 (ix3 p v t)) (fun h v => x4 (ix2 h v)))
    (Cert.NodeRow.sfin (fun j => x0 (ix2 p j)) (fun v t => x1 (ix3 p v t))
          (Cert.NodeRow.hidK (fun s t => x2 (ix3 p s t)) (x3 (ix2 p (0 : Fin 1)))
            (Cert.NodeRow.vdf (fun v t => x1 (ix3 p v t)) (fun f v => x5 (ix2 f v))))
          (fun h v => x4 (ix2 h v)) (fun o j => x6 (ix2 o j)) (fun o => x7 (ix1 o)))
    (fun t h => pay4_apply x1 x4 p t h) (fun o => sfin_row x0 x1 x2 x3 x4 x5 x6 x7 p o) v t

end Cert.KernelRows

end
-- ==== Proof.KernelBlock.lean ====
/-
  One block of the node pass against the whole arrays.

  The node pass walks the 100000 nodes in 500 blocks of 200; row `p` of block `T` is node `200 T + p`. Each node's two
  result rows depend on that node's rows of the four per-node arrays (scalar channels, vector channels, summed frames,
  edge count) and on the whole weight arrays. So when a block's per-node inputs are rows `200 T + p` of the whole
  arrays, the two payloads the body stores for row `p` are the whole-array functions `rowS`, `rowV` at node `200 T + p`.
-/
import proofs.«120632_j80229989089898_2_alg».proof.Proof.KernelRows

noncomputable section

namespace Cert.KernelNode

open Idealize.ShloMosaic Idealize.ShloMosaic.ValueIdx Cert.KernelIdeal Cert.KernelIdeal.Gen

/-- Row `p` of block `T` is node `200 T + p`. -/
abbrev nodeOf (T : Nat) (hT : T < 500) (p : Fin 200) : Fin 100000 := ⟨T * 200 + p.val, by omega⟩

/-- The hidden features of node `n` in the kernel's arrangement, from the whole arrays: the node's summed frames `A2`,
    its edge count `A3`, and its frame projection (vector channels `A1` against the frame weights `A5`). -/
def hidOf (A1 : S100000x16x3.Idx → EReal) (A2 : S100000x3x3.Idx → EReal) (A3 : S100000x1.Idx → EReal)
    (A5 : S3x16.Idx → EReal) (n : Fin 100000) : Fin 9 → EReal :=
  Cert.NodeRow.hidK (fun s t => A2 (ix3 n s t)) (A3 (ix2 n (0 : Fin 1)))
    (Cert.NodeRow.vdf (fun v t => A1 (ix3 n v t)) (fun f v => A5 (ix2 f v)))

/-- The first result at `(n, o)` as a function of the whole arrays. -/
def rowS (A0 : S100000x128.Idx → EReal) (A1 : S100000x16x3.Idx → EReal) (A2 : S100000x3x3.Idx → EReal)
    (A3 : S100000x1.Idx → EReal) (A4 : S16x16.Idx → EReal) (A5 : S3x16.Idx → EReal) (A6 : S128x153.Idx → EReal)
    (A7 : S128.Idx → EReal) (n : Fin 100000) (o : Fin 128) : EReal :=
  Cert.NodeRow.sfin (fun j => A0 (ix2 n j)) (fun v t => A1 (ix3 n v t)) (hidOf A1 A2 A3 A5 n)
    (fun h v => A4 (ix2 h v)) (fun o j => A6 (ix2 o j)) (fun o => A7 (ix1 o)) o

/-- The second result at `(n, v, t)` as a function of the whole arrays. -/
def rowV (A0 : S100000x128.Idx → EReal) (A1 : S100000x16x3.Idx → EReal) (A2 : S100000x3x3.Idx → EReal)
    (A3 : S100000x1.Idx → EReal) (A4 : S16x16.Idx → EReal) (A5 : S3x16.Idx → EReal) (A6 : S128x153.Idx → EReal)
    (A7 : S128.Idx → EReal) (A8 : S16x16.Idx → EReal) (A9 : S16x128.Idx → EReal) (A10 : S16.Idx → EReal)
    (n : Fin 100000) (v : Fin 16) (t : Fin 3) : EReal :=
  Cert.NodeRow.vfin (fun j => A0 (ix2 n j)) (fun v t => A1 (ix3 n v t)) (hidOf A1 A2 A3 A5 n)
    (fun h v => A4 (ix2 h v)) (fun o j => A6 (ix2 o j)) (fun o => A7 (ix1 o)) (fun v h => A8 (ix2 v h))
    (fun v o => A9 (ix2 v o)) (fun v => A10 (ix1 v)) v t

/-- The first payload of block `T` at row `p` is `rowS` of the whole arrays at node `200 T + p`. -/
theorem block_sfin (A0 : S100000x128.Idx → EReal) (A1 : S100000x16x3.Idx → EReal) (A2 : S100000x3x3.Idx → EReal)
    (A3 : S100000x1.Idx → EReal) (A4 : S16x16.Idx → EReal) (A5 : S3x16.Idx → EReal) (A6 : S128x153.Idx → EReal)
    (A7 : S128.Idx → EReal)
    (x0 : Vec Ideal S200x128 .f32) (x1 : Vec Ideal S200x16x3 .f32) (x2 : Vec Ideal S200x3x3 .f32)
    (x3 : Vec Ideal S200x1 .f32) (x4 : Vec Ideal S16x16 .f32) (x5 : Vec Ideal S3x16 .f32) (x6 : Vec Ideal S128x153 .f32)
    (x7 : Vec Ideal S128 .f32) (T : Nat) (hT : T < 500)
    (h0 : ∀ (p : Fin 200) (j : Fin 128), x0 (ix2 p j) = A0 (ix2 (nodeOf T hT p) j))
    (h1 : ∀ (p : Fin 200) (v : Fin 16) (t : Fin 3), x1 (ix3 p v t) = A1 (ix3 (nodeOf T hT p) v t))
    (h2 : ∀ (p : Fin 200) (s t : Fin 3), x2 (ix3 p s t) = A2 (ix3 (nodeOf T hT p) s t))
    (h3 : ∀ p : Fin 200, x3 (ix2 p (0 : Fin 1)) = A3 (ix2 (nodeOf T hT p) (0 : Fin 1)))
    (h4 : x4 = A4) (h5 : x5 = A5) (h6 : x6 = A6) (h7 : x7 = A7) (p : Fin 200) (o : Fin 128) :
    k0_pay9 (F := Ideal) x0 (k0_pay1 x2) (k0_pay2 x3) x6 x7 (k0_pay5 x1 x4) (k0_pay6 x1 x5) (k0_pay7 x2) (k0_pay8 x1 x5)
        (ix2 p o)
      = rowS A0 A1 A2 A3 A4 A5 A6 A7 (nodeOf T hT p) o := by
  rw [Cert.KernelRows.sfin_row]
  subst h4 h5 h6 h7
  unfold rowS hidOf
  simp only [h0, h1, h2, h3]

/-- The second payload of block `T` at row `p` is `rowV` of the whole arrays at node `200 T + p`. -/
theorem block_vfin (A0 : S100000x128.Idx → EReal) (A1 : S100000x16x3.Idx → EReal) (A2 : S100000x3x3.Idx → EReal)
    (A3 : S100000x1.Idx → EReal) (A4 : S16x16.Idx → EReal) (A5 : S3x16.Idx → EReal) (A6 : S128x153.Idx → EReal)
    (A7 : S128.Idx → EReal) (A8 : S16x16.Idx → EReal) (A9 : S16x128.Idx → EReal) (A10 : S16.Idx → EReal)
    (x0 : Vec Ideal S200x128 .f32) (x1 : Vec Ideal S200x16x3 .f32) (x2 : Vec Ideal S200x3x3 .f32)
    (x3 : Vec Ideal S200x1 .f32) (x4 : Vec Ideal S16x16 .f32) (x5 : Vec Ideal S3x16 .f32) (x6 : Vec Ideal S128x153 .f32)
    (x7 : Vec Ideal S128 .f32) (x8 : Vec Ideal S16x16 .f32) (x9 : Vec Ideal S16x128 .f32) (x10 : Vec Ideal S16 .f32)
    (T : Nat) (hT : T < 500)
    (h0 : ∀ (p : Fin 200) (j : Fin 128), x0 (ix2 p j) = A0 (ix2 (nodeOf T hT p) j))
    (h1 : ∀ (p : Fin 200) (v : Fin 16) (t : Fin 3), x1 (ix3 p v t) = A1 (ix3 (nodeOf T hT p) v t))
    (h2 : ∀ (p : Fin 200) (s t : Fin 3), x2 (ix3 p s t) = A2 (ix3 (nodeOf T hT p) s t))
    (h3 : ∀ p : Fin 200, x3 (ix2 p (0 : Fin 1)) = A3 (ix2 (nodeOf T hT p) (0 : Fin 1)))
    (h4 : x4 = A4) (h5 : x5 = A5) (h6 : x6 = A6) (h7 : x7 = A7) (h8 : x8 = A8) (h9 : x9 = A9) (h10 : x10 = A10)
    (p : Fin 200) (v : Fin 16) (t : Fin 3) :
    k0_pay10 (F := Ideal) x0 (k0_pay1 x2) (k0_pay2 x3) x6 x7 x8 x9 x10 (k0_pay4 x1 x4) (k0_pay5 x1 x4) (k0_pay6 x1 x5)
        (k0_pay7 x2) (k0_pay8 x1 x5) (ix3 p v t)
      = rowV A0 A1 A2 A3 A4 A5 A6 A7 A8 A9 A10 (nodeOf T hT p) v t := by
  rw [Cert.KernelRows.vfin_row]
  subst h4 h5 h6 h7 h8 h9 h10
  unfold rowV hidOf
  simp only [h0, h1, h2, h3]

end Cert.KernelNode

end
-- ==== Proof.KernelArray.lean ====
/-
  From blocks to arrays: after the node pass, each result array is one function of the arrays the pass found.

  The pass has 500 points; point `t` stages rows `200 t … 200 t + 199` of the four per-node arrays and of the two
  results, and the seven weight arrays whole. So what point `t` writes back to a result is block `t` of the
  whole-array function (`rowS`, `rowV`) of the staged arrays, the 500 blocks tile each result, and each result array
  ends as that function.
-/
import proofs.«120632_j80229989089898_2_alg».proof.Proof.Gen.KernelIdeal.Value
import proofs.«120632_j80229989089898_2_alg».proof.Proof.KernelBlock
import Idealize.ShloMosaic.Lib.Pipeline.Value

noncomputable section

namespace Cert.KernelArray

open Cert.KernelIdeal Cert.KernelIdeal.Gen Idealize.ShloMosaic Idealize.ShloMosaic.TcCoe Idealize.SL.Sem
open Idealize.ShloMosaic.ValueIdx Cert.KernelNode
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 500 points: a per-node window's block index on axis 0 is the point's
    position and zero on the other axes; a weight window's is zero on every axis. -/
theorem idx_facts : ∀ t : Fin cfg0.N,
    win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 1) = 0
    ∧ win0_11.index t (0 : Fin 2) = t.val
    ∧ win0_11.index t (1 : Fin 2) = 0
    ∧ win0_12.index t (0 : Fin 3) = t.val
    ∧ win0_12.index t (1 : Fin 3) = 0
    ∧ win0_12.index t (2 : Fin 3) = 0 :=
  (by decide +kernel : ∀ t : Fin grid0.N, _)

/-- The node that row `p` of point `t`'s blocks holds. -/
abbrev nodeAt (t : Fin cfg0.N) (p : Fin 200) : Fin 100000 := nodeOf t.val t.isLt p

/-! ## Each input window's block at a point, read off the array the region finds -/

/-- Window 0's block at point `t`, read off ANY contents `A` of its array: row `p` is row `200 t + p` of `A`. -/
theorem read0 (c : Dev nD) (A : Buf (Elt Ideal) ((c : Thread nD τ).loc main_arg0)) (t : Fin cfg0.N) (p : Fin 200) (j : Fin 128) :
    ((cfg0.win 0).blk t).view.read (Elt Ideal) A (ix2 p j : S200x128.Idx) = A (ix2 (nodeAt t p) j : S100000x128.Idx) := by
  show A (((cfg0.win 0).blk t).view.emb (ix2 p j : S200x128.Idx)) = _
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg A (funext fun a => Fin.ext ?_)
  match a with
  | ⟨0, _⟩ => show win0_0.index t (0 : Fin 2) * 200 + 1 * p.val = t.val * 200 + p.val; omega
  | ⟨1, _⟩ => show win0_0.index t (1 : Fin 2) * 128 + 1 * j.val = j.val; omega

theorem blk0 (c : Dev nD) (t : Fin cfg0.N) (p : Fin 200) (j : Fin 128) :
    iblk m c 0 t (ix2 p j : S200x128.Idx) = V m c main_arg0 (ix2 (nodeAt t p) j : S100000x128.Idx) :=
  read0 c (V m c main_arg0) t p j

/-- Window 1's block at point `t`, read off ANY contents `A` of its array: row `p` is row `200 t + p` of `A`. -/
theorem read1 (c : Dev nD) (A : Buf (Elt Ideal) ((c : Thread nD τ).loc main_arg1)) (t : Fin cfg0.N) (p : Fin 200) (v : Fin 16) (u : Fin 3) :
    ((cfg0.win 1).blk t).view.read (Elt Ideal) A (ix3 p v u : S200x16x3.Idx) = A (ix3 (nodeAt t p) v u : S100000x16x3.Idx) := by
  show A (((cfg0.win 1).blk t).view.emb (ix3 p v u : S200x16x3.Idx)) = _
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg A (funext fun a => Fin.ext ?_)
  match a with
  | ⟨0, _⟩ => show win0_1.index t (0 : Fin 3) * 200 + 1 * p.val = t.val * 200 + p.val; omega
  | ⟨1, _⟩ => show win0_1.index t (1 : Fin 3) * 16 + 1 * v.val = v.val; omega
  | ⟨2, _⟩ => show win0_1.index t (2 : Fin 3) * 3 + 1 * u.val = u.val; omega

theorem blk1 (c : Dev nD) (t : Fin cfg0.N) (p : Fin 200) (v : Fin 16) (u : Fin 3) :
    iblk m c 1 t (ix3 p v u : S200x16x3.Idx) = V m c main_arg1 (ix3 (nodeAt t p) v u : S100000x16x3.Idx) :=
  read1 c (V m c main_arg1) t p v u

/-- Window 2's block at point `t`, read off ANY contents `A` of its array: row `p` is row `200 t + p` of `A`. -/
theorem read2 (c : Dev nD) (A : Buf (Elt Ideal) ((c : Thread nD τ).loc main_v4)) (t : Fin cfg0.N) (p : Fin 200) (s : Fin 3) (u : Fin 3) :
    ((cfg0.win 2).blk t).view.read (Elt Ideal) A (ix3 p s u : S200x3x3.Idx) = A (ix3 (nodeAt t p) s u : S100000x3x3.Idx) := by
  show A (((cfg0.win 2).blk t).view.emb (ix3 p s u : S200x3x3.Idx)) = _
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg A (funext fun a => Fin.ext ?_)
  match a with
  | ⟨0, _⟩ => show win0_2.index t (0 : Fin 3) * 200 + 1 * p.val = t.val * 200 + p.val; omega
  | ⟨1, _⟩ => show win0_2.index t (1 : Fin 3) * 3 + 1 * s.val = s.val; omega
  | ⟨2, _⟩ => show win0_2.index t (2 : Fin 3) * 3 + 1 * u.val = u.val; omega

theorem blk2 (c : Dev nD) (t : Fin cfg0.N) (p : Fin 200) (s : Fin 3) (u : Fin 3) :
    iblk m c 2 t (ix3 p s u : S200x3x3.Idx) = V m c main_v4 (ix3 (nodeAt t p) s u : S100000x3x3.Idx) :=
  read2 c (V m c main_v4) t p s u

/-- Window 3's block at point `t`, read off ANY contents `A` of its array: row `p` is row `200 t + p` of `A`. -/
theorem read3 (c : Dev nD) (A : Buf (Elt Ideal) ((c : Thread nD τ).loc main_v9)) (t : Fin cfg0.N) (p : Fin 200) (z : Fin 1) :
    ((cfg0.win 3).blk t).view.read (Elt Ideal) A (ix2 p z : S200x1.Idx) = A (ix2 (nodeAt t p) z : S100000x1.Idx) := by
  show A (((cfg0.win 3).blk t).view.emb (ix2 p z : S200x1.Idx)) = _
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg A (funext fun a => Fin.ext ?_)
  match a with
  | ⟨0, _⟩ => show win0_3.index t (0 : Fin 2) * 200 + 1 * p.val = t.val * 200 + p.val; omega
  | ⟨1, _⟩ => show win0_3.index t (1 : Fin 2) * 1 + 1 * z.val = z.val; omega

theorem blk3 (c : Dev nD) (t : Fin cfg0.N) (p : Fin 200) (z : Fin 1) :
    iblk m c 3 t (ix2 p z : S200x1.Idx) = V m c main_v9 (ix2 (nodeAt t p) z : S100000x1.Idx) :=
  read3 c (V m c main_v9) t p z

theorem blk4 (c : Dev nD) (t : Fin cfg0.N) : iblk m c 4 t = V m c main_arg3 := by
  refine funext fun (y : S16x16.Idx) => ?_
  show V m c main_arg3 (((cfg0.win 4).blk t).view.emb y) = V m c main_arg3 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg3) (funext fun a => Fin.ext ?_)
  match a with
  | ⟨0, _⟩ => show win0_4.index t (0 : Fin 2) * 16 + 1 * (y 0).val = (y 0).val; omega
  | ⟨1, _⟩ => show win0_4.index t (1 : Fin 2) * 16 + 1 * (y 1).val = (y 1).val; omega

theorem blk5 (c : Dev nD) (t : Fin cfg0.N) : iblk m c 5 t = V m c main_arg4 := by
  refine funext fun (y : S3x16.Idx) => ?_
  show V m c main_arg4 (((cfg0.win 5).blk t).view.emb y) = V m c main_arg4 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg4) (funext fun a => Fin.ext ?_)
  match a with
  | ⟨0, _⟩ => show win0_5.index t (0 : Fin 2) * 3 + 1 * (y 0).val = (y 0).val; omega
  | ⟨1, _⟩ => show win0_5.index t (1 : Fin 2) * 16 + 1 * (y 1).val = (y 1).val; omega

theorem blk6 (c : Dev nD) (t : Fin cfg0.N) : iblk m c 6 t = V m c main_arg5 := by
  refine funext fun (y : S128x153.Idx) => ?_
  show V m c main_arg5 (((cfg0.win 6).blk t).view.emb y) = V m c main_arg5 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg5) (funext fun a => Fin.ext ?_)
  match a with
  | ⟨0, _⟩ => show win0_6.index t (0 : Fin 2) * 128 + 1 * (y 0).val = (y 0).val; omega
  | ⟨1, _⟩ => show win0_6.index t (1 : Fin 2) * 153 + 1 * (y 1).val = (y 1).val; omega

theorem blk7 (c : Dev nD) (t : Fin cfg0.N) : iblk m c 7 t = V m c main_arg6 := by
  refine funext fun (y : S128.Idx) => ?_
  show V m c main_arg6 (((cfg0.win 7).blk t).view.emb y) = V m c main_arg6 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg6) (funext fun a => Fin.ext ?_)
  match a with
  | ⟨0, _⟩ => show win0_7.index t (0 : Fin 1) * 128 + 1 * (y 0).val = (y 0).val; omega

theorem blk8 (c : Dev nD) (t : Fin cfg0.N) : iblk m c 8 t = V m c main_arg7 := by
  refine funext fun (y : S16x16.Idx) => ?_
  show V m c main_arg7 (((cfg0.win 8).blk t).view.emb y) = V m c main_arg7 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg7) (funext fun a => Fin.ext ?_)
  match a with
  | ⟨0, _⟩ => show win0_8.index t (0 : Fin 2) * 16 + 1 * (y 0).val = (y 0).val; omega
  | ⟨1, _⟩ => show win0_8.index t (1 : Fin 2) * 16 + 1 * (y 1).val = (y 1).val; omega

theorem blk9 (c : Dev nD) (t : Fin cfg0.N) : iblk m c 9 t = V m c main_arg8 := by
  refine funext fun (y : S16x128.Idx) => ?_
  show V m c main_arg8 (((cfg0.win 9).blk t).view.emb y) = V m c main_arg8 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg8) (funext fun a => Fin.ext ?_)
  match a with
  | ⟨0, _⟩ => show win0_9.index t (0 : Fin 2) * 16 + 1 * (y 0).val = (y 0).val; omega
  | ⟨1, _⟩ => show win0_9.index t (1 : Fin 2) * 128 + 1 * (y 1).val = (y 1).val; omega

theorem blk10 (c : Dev nD) (t : Fin cfg0.N) : iblk m c 10 t = V m c main_arg9 := by
  refine funext fun (y : S16.Idx) => ?_
  show V m c main_arg9 (((cfg0.win 10).blk t).view.emb y) = V m c main_arg9 y
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  refine congrArg (V m c main_arg9) (funext fun a => Fin.ext ?_)
  match a with
  | ⟨0, _⟩ => show win0_10.index t (0 : Fin 1) * 16 + 1 * (y 0).val = (y 0).val; omega

/-! ## The first result -/

/-- The first result array as one function of the arrays the region finds. -/
abbrev G11 (c : Dev nD) : S100000x128.Idx → EReal := fun (i : S100000x128.Idx) =>
  rowS (V m c main_arg0) (V m c main_arg1) (V m c main_v4) (V m c main_v9) (V m c main_arg3) (V m c main_arg4)
    (V m c main_arg5) (V m c main_arg6) (i 0) (i 1)

/-- WHAT POINT `t` WRITES BACK to the first result is block `t` of `G11`. -/
theorem flushed11_eq (c : Dev nD) (t : Fin cfg0.N) :
    (dats m 0 c).flushed 11 t = ((cfg0.win 11).blk t).view.read (Elt Ideal) (G11 m c) := by
  rw [Cert.KernelIdeal.Value.flushed11]
  unfold out0_11
  rw [View.canon_unit_zero hz2]
  simp only [View.ld_unit_zero (S := S200x128) hz2, View.ld_unit_zero (S := S200x16x3) hz3,
    View.ld_unit_zero (S := S200x3x3) hz3, View.ld_unit_zero (S := S200x1) hz2, View.ld_unit_zero (S := S16x16) hz2,
    View.ld_unit_zero (S := S3x16) hz2, View.ld_unit_zero (S := S128x153) hz2, View.ld_unit_zero (S := S128) hz1,
    View.ld_unit_zero (S := S16x128) hz2, View.ld_unit_zero (S := S16) hz1]
  refine funext fun (y : S200x128.Idx) => ?_
  obtain ⟨p, o, rfl⟩ : ∃ (p : Fin 200) (o : Fin 128), y = ix2 p o := ⟨y 0, y 1, eq_ix2 y⟩
  show k0_pay9 (F := Ideal) (iblk m c 0 t) (k0_pay1 (iblk m c 2 t)) (k0_pay2 (iblk m c 3 t)) (iblk m c 6 t) (iblk m c 7 t)
      (k0_pay5 (iblk m c 1 t) (iblk m c 4 t)) (k0_pay6 (iblk m c 1 t) (iblk m c 5 t)) (k0_pay7 (iblk m c 2 t))
      (k0_pay8 (iblk m c 1 t) (iblk m c 5 t)) (ix2 p o : S200x128.Idx)
    = G11 m c (((cfg0.win 11).blk t).view.emb (ix2 p o : S200x128.Idx))
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  have e0 : ((cfg0.win 11).blk t).view.emb (ix2 p o : S200x128.Idx) = (ix2 (nodeAt t p) o : S100000x128.Idx) :=
    funext fun a => Fin.ext (by
      match a with
      | ⟨0, _⟩ => show win0_11.index t (0 : Fin 2) * 200 + 1 * p.val = t.val * 200 + p.val; omega
      | ⟨1, _⟩ => show win0_11.index t (1 : Fin 2) * 128 + 1 * o.val = o.val; omega)
  rw [e0]
  exact block_sfin (V m c main_arg0) (V m c main_arg1) (V m c main_v4) (V m c main_v9) (V m c main_arg3) (V m c main_arg4)
    (V m c main_arg5) (V m c main_arg6) (iblk m c 0 t) (iblk m c 1 t) (iblk m c 2 t) (iblk m c 3 t) (iblk m c 4 t)
    (iblk m c 5 t) (iblk m c 6 t) (iblk m c 7 t) t.val t.isLt (blk0 m c t) (blk1 m c t) (blk2 m c t)
    (fun p => blk3 m c t p (0 : Fin 1)) (blk4 m c t) (blk5 m c t) (blk6 m c t) (blk7 m c t) p o

/-- An index of the first result is in point `t`'s block iff each coordinate is in the block's range on its axis. -/
theorem mem_blk11 (t : Fin cfg0.N) (i : S100000x128.Idx) :
    i ∈ ((cfg0.win 11).blk t).view.set ↔ ∀ a : Fin 2, win0_11.index t a * S200x128.size a ≤ (i a).val
      ∧ (i a).val < win0_11.index t a * S200x128.size a + S200x128.size a := by
  show i ∈ ((View.whole main_v10_0).slice (win0_11.rect t)).set ↔ _
  rw [View.set_slice_whole, Rect.mem_set_unit]
  exact Iff.rfl

/-- The 500 blocks tile the first result: row `r` is in the block of point `r / 200`. -/
theorem cover11 (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have ht : (i 0).val / 200 < 500 := by omega
  refine ⟨⟨(i 0).val / 200, ht⟩, flush0_11 _, ?_⟩
  rw [mem_blk11]
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts ⟨(i 0).val / 200, ht⟩
  intro a
  match a with
  | ⟨0, _⟩ =>
    show win0_11.index ⟨(i 0).val / 200, ht⟩ (0 : Fin 2) * 200 ≤ (i 0).val
      ∧ (i 0).val < win0_11.index ⟨(i 0).val / 200, ht⟩ (0 : Fin 2) * 200 + 200
    have e : win0_11.index ⟨(i 0).val / 200, ht⟩ (0 : Fin 2) = (i 0).val / 200 := f11_0
    omega
  | ⟨1, _⟩ =>
    show win0_11.index ⟨(i 0).val / 200, ht⟩ (1 : Fin 2) * 128 ≤ (i 1).val
      ∧ (i 1).val < win0_11.index ⟨(i 0).val / 200, ht⟩ (1 : Fin 2) * 128 + 128
    omega

/-- THE FIRST RESULT after the run is `G11`. -/
theorem final11 (c : Dev nD) : (dats m 0 c).arrAt 11 cfg0.N = G11 m c :=
  (dats m 0 c).arrAt_eq_of_cover 11 (G11 m c) (fun t _ => flushed11_eq m c t) cover11

/-! ## The second result -/

/-- The second result array as one function of the arrays the region finds. -/
abbrev G12 (c : Dev nD) : S100000x16x3.Idx → EReal := fun (i : S100000x16x3.Idx) =>
  rowV (V m c main_arg0) (V m c main_arg1) (V m c main_v4) (V m c main_v9) (V m c main_arg3) (V m c main_arg4)
    (V m c main_arg5) (V m c main_arg6) (V m c main_arg7) (V m c main_arg8) (V m c main_arg9) (i 0) (i 1) (i 2)

/-- WHAT POINT `t` WRITES BACK to the second result is block `t` of `G12`. -/
theorem flushed12_eq (c : Dev nD) (t : Fin cfg0.N) :
    (dats m 0 c).flushed 12 t = ((cfg0.win 12).blk t).view.read (Elt Ideal) (G12 m c) := by
  rw [Cert.KernelIdeal.Value.flushed12]
  unfold out0_12
  rw [View.canon_unit_zero hz3]
  simp only [View.ld_unit_zero (S := S200x128) hz2, View.ld_unit_zero (S := S200x16x3) hz3,
    View.ld_unit_zero (S := S200x3x3) hz3, View.ld_unit_zero (S := S200x1) hz2, View.ld_unit_zero (S := S16x16) hz2,
    View.ld_unit_zero (S := S3x16) hz2, View.ld_unit_zero (S := S128x153) hz2, View.ld_unit_zero (S := S128) hz1,
    View.ld_unit_zero (S := S16x128) hz2, View.ld_unit_zero (S := S16) hz1]
  refine funext fun (y : S200x16x3.Idx) => ?_
  obtain ⟨p, v, u, rfl⟩ : ∃ (p : Fin 200) (v : Fin 16) (u : Fin 3), y = ix3 p v u := ⟨y 0, y 1, y 2, eq_ix3 y⟩
  show k0_pay10 (F := Ideal) (iblk m c 0 t) (k0_pay1 (iblk m c 2 t)) (k0_pay2 (iblk m c 3 t)) (iblk m c 6 t) (iblk m c 7 t)
      (iblk m c 8 t) (iblk m c 9 t) (iblk m c 10 t) (k0_pay4 (iblk m c 1 t) (iblk m c 4 t))
      (k0_pay5 (iblk m c 1 t) (iblk m c 4 t)) (k0_pay6 (iblk m c 1 t) (iblk m c 5 t)) (k0_pay7 (iblk m c 2 t))
      (k0_pay8 (iblk m c 1 t) (iblk m c 5 t)) (ix3 p v u : S200x16x3.Idx)
    = G12 m c (((cfg0.win 12).blk t).view.emb (ix3 p v u : S200x16x3.Idx))
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts t
  have e0 : ((cfg0.win 12).blk t).view.emb (ix3 p v u : S200x16x3.Idx) = (ix3 (nodeAt t p) v u : S100000x16x3.Idx) :=
    funext fun a => Fin.ext (by
      match a with
      | ⟨0, _⟩ => show win0_12.index t (0 : Fin 3) * 200 + 1 * p.val = t.val * 200 + p.val; omega
      | ⟨1, _⟩ => show win0_12.index t (1 : Fin 3) * 16 + 1 * v.val = v.val; omega
      | ⟨2, _⟩ => show win0_12.index t (2 : Fin 3) * 3 + 1 * u.val = u.val; omega)
  rw [e0]
  exact block_vfin (V m c main_arg0) (V m c main_arg1) (V m c main_v4) (V m c main_v9) (V m c main_arg3) (V m c main_arg4)
    (V m c main_arg5) (V m c main_arg6) (V m c main_arg7) (V m c main_arg8) (V m c main_arg9) (iblk m c 0 t) (iblk m c 1 t)
    (iblk m c 2 t) (iblk m c 3 t) (iblk m c 4 t) (iblk m c 5 t) (iblk m c 6 t) (iblk m c 7 t) (iblk m c 8 t)
    (iblk m c 9 t) (iblk m c 10 t) t.val t.isLt (blk0 m c t) (blk1 m c t) (blk2 m c t)
    (fun p => blk3 m c t p (0 : Fin 1)) (blk4 m c t) (blk5 m c t) (blk6 m c t) (blk7 m c t) (blk8 m c t) (blk9 m c t)
    (blk10 m c t) p v u

/-- An index of the second result is in point `t`'s block iff each coordinate is in the block's range on its axis. -/
theorem mem_blk12 (t : Fin cfg0.N) (i : S100000x16x3.Idx) :
    i ∈ ((cfg0.win 12).blk t).view.set ↔ ∀ a : Fin 3, win0_12.index t a * S200x16x3.size a ≤ (i a).val
      ∧ (i a).val < win0_12.index t a * S200x16x3.size a + S200x16x3.size a := by
  show i ∈ ((View.whole main_v10_1).slice (win0_12.rect t)).set ↔ _
  rw [View.set_slice_whole, Rect.mem_set_unit]
  exact Iff.rfl

/-- The 500 blocks tile the second result. -/
theorem cover12 (i : S100000x16x3.Idx) :
    ∃ t : Fin cfg0.N, (cfg0.win 12).flush t = true ∧ i ∈ ((cfg0.win 12).blk t).view.set := by
  have hi0 : (i 0).val < 100000 := (i 0).isLt
  have hi1 : (i 1).val < 16 := (i 1).isLt
  have hi2 : (i 2).val < 3 := (i 2).isLt
  have ht : (i 0).val / 200 < 500 := by omega
  refine ⟨⟨(i 0).val / 200, ht⟩, flush0_12 _, ?_⟩
  rw [mem_blk12]
  obtain ⟨f0_0, f0_1, f1_0, f1_1, f1_2, f2_0, f2_1, f2_2, f3_0, f3_1, f4_0, f4_1, f5_0, f5_1, f6_0, f6_1, f7_0, f8_0, f8_1, f9_0, f9_1, f10_0, f11_0, f11_1, f12_0, f12_1, f12_2⟩ := idx_facts ⟨(i 0).val / 200, ht⟩
  intro a
  match a with
  | ⟨0, _⟩ =>
    show win0_12.index ⟨(i 0).val / 200, ht⟩ (0 : Fin 3) * 200 ≤ (i 0).val
      ∧ (i 0).val < win0_12.index ⟨(i 0).val / 200, ht⟩ (0 : Fin 3) * 200 + 200
    have e : win0_12.index ⟨(i 0).val / 200, ht⟩ (0 : Fin 3) = (i 0).val / 200 := f12_0
    omega
  | ⟨1, _⟩ =>
    show win0_12.index ⟨(i 0).val / 200, ht⟩ (1 : Fin 3) * 16 ≤ (i 1).val
      ∧ (i 1).val < win0_12.index ⟨(i 0).val / 200, ht⟩ (1 : Fin 3) * 16 + 16
    omega
  | ⟨2, _⟩ =>
    show win0_12.index ⟨(i 0).val / 200, ht⟩ (2 : Fin 3) * 3 ≤ (i 2).val
      ∧ (i 2).val < win0_12.index ⟨(i 0).val / 200, ht⟩ (2 : Fin 3) * 3 + 3
    omega

/-- THE SECOND RESULT after the run is `G12`. -/
theorem final12 (c : Dev nD) : (dats m 0 c).arrAt 12 cfg0.N = G12 m c :=
  (dats m 0 c).arrAt_eq_of_cover 12 (G12 m c) (fun t _ => flushed12_eq m c t) cover12

end Cert.KernelArray

end
-- ==== Proof.LibSegmentSum.lean ====
/-
  A segment sum read at an index, on the extended reals.

  `jax.ops.segment_sum(data, ids, num_segments = N)` lowers to a `stablehlo.scatter` with an `add` body: the
  updates `data : [E, …]` are added into a zero operand `[N, …]` along axis 0, update row `e` landing on the row
  its index word `ids[e]` names. The index word is read as a SIGNED integer and is NOT clamped: an edge whose word
  is negative or at least `N` contributes nothing. So element `(n, …)` of the result is the operand's element plus the
  sum, over the edges `e` with `ids[e] = n` (as integers), of `data[e, …]` — stated here for updates of rank 1, 2
  and 3 over index arrays of shape `[E, 1]` (index vector on axis 1), for any extents.

  Beside it, the law that lets a sum over edges pass through a three-term contraction when every entry is a real
  number: Σ_e Σ_t a e t · d t = (Σ_e a e 0) · d 0 + (Σ_e a e 1) · d 1 + (Σ_e a e 2) · d 2. On the extended reals
  distributivity fails at the infinities, so the entries are asked to be coercions of reals.
-/
import Idealize.ShloMosaic.PureOps.Ideal
import Idealize.ShloMosaic.Lib.ValueIdx

noncomputable section

namespace Idealize.ShloMosaic.SegmentSum

open Idealize.ShloMosaic Idealize.ShloMosaic.ValueIdx

/-! ## Finite sums of reals inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over edges passes through a three-term contraction with a fixed factor, when all entries are reals:
    Σ_e ((a e 0 · d 0 + a e 1 · d 1) + a e 2 · d 2) = ((Σ_e a e 0) · d 0 + (Σ_e a e 1) · d 1) + (Σ_e a e 2) · d 2. -/
theorem sum_contract3 {ι : Type*} (s : Finset ι) (a : ι → Fin 3 → EReal) (d : Fin 3 → EReal)
    (ha : ∀ e t, ∃ r : ℝ, a e t = (r : EReal)) (hd : ∀ t, ∃ r : ℝ, d t = (r : EReal)) :
    ∑ e ∈ s, ∑ t : Fin 3, a e t * d t
      = ((∑ e ∈ s, a e 0) * d 0 + (∑ e ∈ s, a e 1) * d 1) + (∑ e ∈ s, a e 2) * d 2 := by
  choose a' ha' using ha
  choose d' hd' using hd
  simp only [ha', hd', Fin.sum_univ_three, ← EReal.coe_mul, ← EReal.coe_add, ← coe_sum]
  congr 1
  rw [Finset.sum_add_distrib, Finset.sum_add_distrib, Finset.sum_mul, Finset.sum_mul, Finset.sum_mul]

/-! ## Updates of rank 2: `[E, K]` rows added into `[N, K]` -/

section Rank2

/-- The dimension numbers of a row scatter-add of `[E, K]` updates into `[N, K]` by `[E, 1]` indices. -/
abbrev seg2Dims (N E K : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat} (wf : ScatterDims.WF ⟨2, ![N, K]⟩ ⟨2, ![E, 1]⟩ ⟨2, ![E, K]⟩ [1] [0] [0] 1)

theorem seg2_start0 (idx : IVec ⟨2, ![E, 1]⟩ w) (e : Fin E) (k : Fin K) :
    (seg2Dims N E K wf).start (ix2 e k) idx 0 = (idx (ix2 e 0)).toInt := by
  unfold ScatterDims.start
  rw [dif_pos (show (0 : Fin 2) ∈ (seg2Dims N E K wf).scatterDimsToOperandDims from List.mem_singleton.mpr rfl)]
  have hsi : (seg2Dims N E K wf).siIdx (ix2 e k) ⟨List.idxOf (0 : Fin 2) (seg2Dims N E K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem seg2_start1 (idx : IVec ⟨2, ![E, 1]⟩ w) (j : (⟨2, ![E, K]⟩ : Shape).Idx) :
    (seg2Dims N E K wf).start j idx 1 = 0 := by
  unfold ScatterDims.start
  rw [dif_neg (show (1 : Fin 2) ∉ ([0] : List (Fin 2)) by decide)]

theorem seg2_window0 (j : (⟨2, ![E, K]⟩ : Shape).Idx) : (seg2Dims N E K wf).window j 0 = 0 := by
  unfold ScatterDims.window
  have h : (0 : Fin 2) ∉ (seg2Dims N E K wf).sKept := by
    show (0 : Fin 2) ∉ ([1] : List (Fin 2)); decide
  rw [dif_neg h]

theorem seg2_window1 (e : Fin E) (k : Fin K) : (seg2Dims N E K wf).window (ix2 e k) 1 = k.val := by
  unfold ScatterDims.window
  have h : (1 : Fin 2) ∈ (seg2Dims N E K wf).sKept := by
    show (1 : Fin 2) ∈ ([1] : List (Fin 2)); decide
  rw [dif_pos h]
  rfl

/-- Update `(e, k)` lands on `(n, k')` exactly when edge `e`'s index word, read signed, is `n`, and `k = k'`. -/
theorem seg2_resultIdx_iff (idx : IVec ⟨2, ![E, 1]⟩ w) (e : Fin E) (k : Fin K) (n : Fin N) (k' : Fin K) :
    (seg2Dims N E K wf).resultIdx? (ix2 e k) idx = some (ix2 n k')
      ↔ (idx (ix2 e 0)).toInt = (n.val : Int) ∧ k = k' := by
  unfold ScatterDims.resultIdx?
  split
  · rename_i H
    rw [Option.some.injEq]
    constructor
    · intro h
      have h0 : ((seg2Dims N E K wf).start (ix2 e k) idx 0 + ((seg2Dims N E K wf).window (ix2 e k) 0 : Nat)).toNat = n.val :=
        congrArg (fun f => (f 0).val) h
      have h1 : ((seg2Dims N E K wf).start (ix2 e k) idx 1 + ((seg2Dims N E K wf).window (ix2 e k) 1 : Nat)).toNat = k'.val :=
        congrArg (fun f => (f 1).val) h
      have H0 := (H 0).1
      rw [seg2_start0, seg2_window0] at h0 H0
      rw [seg2_start1, seg2_window1] at h1
      exact ⟨by omega, Fin.ext (by omega)⟩
    · rintro ⟨hr, rfl⟩
      funext a; refine Fin.ext ?_
      match a with
      | ⟨0, _⟩ =>
        show ((seg2Dims N E K wf).start (ix2 e k) idx 0 + ((seg2Dims N E K wf).window (ix2 e k) 0 : Nat)).toNat = n.val
        rw [seg2_start0, seg2_window0, hr]; omega
      | ⟨1, _⟩ =>
        show ((seg2Dims N E K wf).start (ix2 e k) idx 1 + ((seg2Dims N E K wf).window (ix2 e k) 1 : Nat)).toNat = k.val
        rw [seg2_start1, seg2_window1]; omega
  · rename_i H
    constructor
    · intro h; exact absurd h (by simp)
    · rintro ⟨hr, rfl⟩
      exfalso; apply H
      intro a
      match a with
      | ⟨0, _⟩ =>
        show 0 ≤ (seg2Dims N E K wf).start (ix2 e k) idx 0 + ((seg2Dims N E K wf).window (ix2 e k) 0 : Nat)
          ∧ (seg2Dims N E K wf).start (ix2 e k) idx 0 + ((seg2Dims N E K wf).window (ix2 e k) 0 : Nat) < (N : Int)
        rw [seg2_start0, seg2_window0, hr]; have := n.isLt; omega
      | ⟨1, _⟩ =>
        show 0 ≤ (seg2Dims N E K wf).start (ix2 e k) idx 1 + ((seg2Dims N E K wf).window (ix2 e k) 1 : Nat)
          ∧ (seg2Dims N E K wf).start (ix2 e k) idx 1 + ((seg2Dims N E K wf).window (ix2 e k) 1 : Nat) < (K : Int)
        rw [seg2_start1, seg2_window1]; have := k.isLt; omega

/-- THE ROW SCATTER-ADD READ AT `(n, k)`: the operand's element plus the sum, over the edges whose index word
    read signed is `n`, of their updates' element `k`. -/
theorem seg2_apply (x : (⟨2, ![N, K]⟩ : Shape).Idx → EReal) (idx : IVec ⟨2, ![E, 1]⟩ w)
    (upd : (⟨2, ![E, K]⟩ : Shape).Idx → EReal) (n : Fin N) (k : Fin K) :
    Ideal.hostScatterAdd (seg2Dims N E K wf) x idx upd (ix2 n k)
      = x (ix2 n k) + ∑ e ∈ Finset.univ.filter (fun e : Fin E => (idx (ix2 e 0)).toInt = (n.val : Int)), upd (ix2 e k) := by
  unfold Ideal.hostScatterAdd
  congr 1
  have key : ∀ j : (⟨2, ![E, K]⟩ : Shape).Idx, (seg2Dims N E K wf).resultIdx? j idx = some (ix2 n k) →
      (idx (ix2 (j 0) 0)).toInt = (n.val : Int) ∧ j 1 = k := fun j hj => by
    rw [eq_ix2 j] at hj
    exact (seg2_resultIdx_iff wf idx (j 0) (j 1) n k).mp hj
  refine Finset.sum_bij' (fun j _ => (j 0 : Fin E)) (fun e _ => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (seg2_resultIdx_iff wf idx e k n k).mpr ⟨(Finset.mem_filter.mp he).2, rfl⟩⟩
  · intro j hj
    have hk := (key j (Finset.mem_filter.mp hj).2).2
    subst hk
    exact (eq_ix2 j).symm
  · intro e _; rfl
  · intro j hj
    have hk := (key j (Finset.mem_filter.mp hj).2).2
    subst hk
    exact congrArg upd (eq_ix2 j)

end Rank2

/-! ## Updates of rank 3: `[E, A, B]` slabs added into `[N, A, B]` -/

section Rank3

/-- The dimension numbers of a slab scatter-add of `[E, A, B]` updates into `[N, A, B]` by `[E, 1]` indices. -/
abbrev seg3Dims (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat} (wf : ScatterDims.WF ⟨3, ![N, A, B]⟩ ⟨2, ![E, 1]⟩ ⟨3, ![E, A, B]⟩ [1, 2] [0] [0] 1)

theorem seg3_start0 (idx : IVec ⟨2, ![E, 1]⟩ w) (e : Fin E) (a : Fin A) (b : Fin B) :
    (seg3Dims N E A B wf).start (ix3 e a b) idx 0 = (idx (ix2 e 0)).toInt := by
  unfold ScatterDims.start
  rw [dif_pos (show (0 : Fin 3) ∈ (seg3Dims N E A B wf).scatterDimsToOperandDims from List.mem_singleton.mpr rfl)]
  have hsi : (seg3Dims N E A B wf).siIdx (ix3 e a b) ⟨List.idxOf (0 : Fin 3) (seg3Dims N E A B wf).scatterDimsToOperandDims,
      List.idxOf_lt_length_iff.2 (List.mem_singleton.mpr rfl)⟩ = ix2 e 0 := by
    funext c; refine Fin.ext ?_
    match c with
    | ⟨0, _⟩ => rfl
    | ⟨1, _⟩ => rfl
  rw [hsi]

theorem seg3_start1 (idx : IVec ⟨2, ![E, 1]⟩ w) (j : (⟨3, ![E, A, B]⟩ : Shape).Idx) :
    (seg3Dims N E A B wf).start j idx 1 = 0 := by
  unfold ScatterDims.start
  rw [dif_neg (show (1 : Fin 3) ∉ ([0] : List (Fin 3)) by decide)]

theorem seg3_start2 (idx : IVec ⟨2, ![E, 1]⟩ w) (j : (⟨3, ![E, A, B]⟩ : Shape).Idx) :
    (seg3Dims N E A B wf).start j idx 2 = 0 := by
  unfold ScatterDims.start
  rw [dif_neg (show (2 : Fin 3) ∉ ([0] : List (Fin 3)) by decide)]

theorem seg3_window0 (j : (⟨3, ![E, A, B]⟩ : Shape).Idx) : (seg3Dims N E A B wf).window j 0 = 0 := by
  unfold ScatterDims.window
  have h : (0 : Fin 3) ∉ (seg3Dims N E A B wf).sKept := by
    show (0 : Fin 3) ∉ ([1, 2] : List (Fin 3)); decide
  rw [dif_neg h]

theorem seg3_window1 (e : Fin E) (a : Fin A) (b : Fin B) : (seg3Dims N E A B wf).window (ix3 e a b) 1 = a.val := by
  unfold ScatterDims.window
  have h : (1 : Fin 3) ∈ (seg3Dims N E A B wf).sKept := by
    show (1 : Fin 3) ∈ ([1, 2] : List (Fin 3)); decide
  rw [dif_pos h]
  rfl

theorem seg3_window2 (e : Fin E) (a : Fin A) (b : Fin B) : (seg3Dims N E A B wf).window (ix3 e a b) 2 = b.val := by
  unfold ScatterDims.window
  have h : (2 : Fin 3) ∈ (seg3Dims N E A B wf).sKept := by
    show (2 : Fin 3) ∈ ([1, 2] : List (Fin 3)); decide
  rw [dif_pos h]
  rfl

/-- Update `(e, a, b)` lands on `(n, a', b')` exactly when edge `e`'s index word, read signed, is `n`, and
    `a = a'`, `b = b'`. -/
theorem seg3_resultIdx_iff (idx : IVec ⟨2, ![E, 1]⟩ w) (e : Fin E) (a : Fin A) (b : Fin B) (n : Fin N) (a' : Fin A)
    (b' : Fin B) :
    (seg3Dims N E A B wf).resultIdx? (ix3 e a b) idx = some (ix3 n a' b')
      ↔ (idx (ix2 e 0)).toInt = (n.val : Int) ∧ a = a' ∧ b = b' := by
  unfold ScatterDims.resultIdx?
  split
  · rename_i H
    rw [Option.some.injEq]
    constructor
    · intro h
      have h0 : ((seg3Dims N E A B wf).start (ix3 e a b) idx 0 + ((seg3Dims N E A B wf).window (ix3 e a b) 0 : Nat)).toNat = n.val :=
        congrArg (fun f => (f 0).val) h
      have h1 : ((seg3Dims N E A B wf).start (ix3 e a b) idx 1 + ((seg3Dims N E A B wf).window (ix3 e a b) 1 : Nat)).toNat = a'.val :=
        congrArg (fun f => (f 1).val) h
      have h2 : ((seg3Dims N E A B wf).start (ix3 e a b) idx 2 + ((seg3Dims N E A B wf).window (ix3 e a b) 2 : Nat)).toNat = b'.val :=
        congrArg (fun f => (f 2).val) h
      have H0 := (H 0).1
      rw [seg3_start0, seg3_window0] at h0 H0
      rw [seg3_start1, seg3_window1] at h1
      rw [seg3_start2, seg3_window2] at h2
      exact ⟨by omega, Fin.ext (by omega), Fin.ext (by omega)⟩
    · rintro ⟨hr, rfl, rfl⟩
      funext c; refine Fin.ext ?_
      match c with
      | ⟨0, _⟩ =>
        show ((seg3Dims N E A B wf).start (ix3 e a b) idx 0 + ((seg3Dims N E A B wf).window (ix3 e a b) 0 : Nat)).toNat = n.val
        rw [seg3_start0, seg3_window0, hr]; omega
      | ⟨1, _⟩ =>
        show ((seg3Dims N E A B wf).start (ix3 e a b) idx 1 + ((seg3Dims N E A B wf).window (ix3 e a b) 1 : Nat)).toNat = a.val
        rw [seg3_start1, seg3_window1]; omega
      | ⟨2, _⟩ =>
        show ((seg3Dims N E A B wf).start (ix3 e a b) idx 2 + ((seg3Dims N E A B wf).window (ix3 e a b) 2 : Nat)).toNat = b.val
        rw [seg3_start2, seg3_window2]; omega
  · rename_i H
    constructor
    · intro h; exact absurd h (by simp)
    · rintro ⟨hr, rfl, rfl⟩
      exfalso; apply H
      intro c
      match c with
      | ⟨0, _⟩ =>
        show 0 ≤ (seg3Dims N E A B wf).start (ix3 e a b) idx 0 + ((seg3Dims N E A B wf).window (ix3 e a b) 0 : Nat)
          ∧ (seg3Dims N E A B wf).start (ix3 e a b) idx 0 + ((seg3Dims N E A B wf).window (ix3 e a b) 0 : Nat) < (N : Int)
        rw [seg3_start0, seg3_window0, hr]; have := n.isLt; omega
      | ⟨1, _⟩ =>
        show 0 ≤ (seg3Dims N E A B wf).start (ix3 e a b) idx 1 + ((seg3Dims N E A B wf).window (ix3 e a b) 1 : Nat)
          ∧ (seg3Dims N E A B wf).start (ix3 e a b) idx 1 + ((seg3Dims N E A B wf).window (ix3 e a b) 1 : Nat) < (A : Int)
        rw [seg3_start1, seg3_window1]; have := a.isLt; omega
      | ⟨2, _⟩ =>
        show 0 ≤ (seg3Dims N E A B wf).start (ix3 e a b) idx 2 + ((seg3Dims N E A B wf).window (ix3 e a b) 2 : Nat)
          ∧ (seg3Dims N E A B wf).start (ix3 e a b) idx 2 + ((seg3Dims N E A B wf).window (ix3 e a b) 2 : Nat) < (B : Int)
        rw [seg3_start2, seg3_window2]; have := b.isLt; omega

/-- THE SLAB SCATTER-ADD READ AT `(n, a, b)`: the operand's element plus the sum, over the edges whose index word
    read signed is `n`, of their updates' element `(a, b)`. -/
theorem seg3_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (seg3Dims N E A B wf) x idx upd (ix3 n a b)
      = x (ix3 n a b)
        + ∑ e ∈ Finset.univ.filter (fun e : Fin E => (idx (ix2 e 0)).toInt = (n.val : Int)), upd (ix3 e a b) := by
  unfold Ideal.hostScatterAdd
  congr 1
  have key : ∀ j : (⟨3, ![E, A, B]⟩ : Shape).Idx, (seg3Dims N E A B wf).resultIdx? j idx = some (ix3 n a b) →
      (idx (ix2 (j 0) 0)).toInt = (n.val : Int) ∧ j 1 = a ∧ j 2 = b := fun j hj => by
    rw [eq_ix3 j] at hj
    exact (seg3_resultIdx_iff wf idx (j 0) (j 1) (j 2) n a b).mp hj
  refine Finset.sum_bij' (fun j _ => (j 0 : Fin E)) (fun e _ => ix3 e a b) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (seg3_resultIdx_iff wf idx e a b n a b).mpr ⟨(Finset.mem_filter.mp he).2, rfl, rfl⟩⟩
  · intro j hj
    obtain ⟨_, ha, hb⟩ := key j (Finset.mem_filter.mp hj).2
    subst ha; subst hb
    exact (eq_ix3 j).symm
  · intro e _; rfl
  · intro j hj
    obtain ⟨_, ha, hb⟩ := key j (Finset.mem_filter.mp hj).2
    subst ha; subst hb
    exact congrArg upd (eq_ix3 j)

end Rank3

/-! ## Updates of rank 1: `[E]` scalars added into `[N]` -/

section Rank1

/-- The dimension numbers of a scalar scatter-add of `[E]` updates into `[N]` by `[E, 1]` indices. -/
abbrev seg1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem seg1_start0 (idx : IVec ⟨2, ![E, 1]⟩ w) (e : Fin E) :
    (seg1Dims N E wf).start (ix1 e) idx 0 = (idx (ix2 e 0)).toInt := by
  unfold ScatterDims.start
  rw [dif_pos (show (0 : Fin 1) ∈ (seg1Dims N E wf).scatterDimsToOperandDims from List.mem_singleton.mpr rfl)]
  have hsi : (seg1Dims N E wf).siIdx (ix1 e) ⟨List.idxOf (0 : Fin 1) (seg1Dims N E wf).scatterDimsToOperandDims,
      List.idxOf_lt_length_iff.2 (List.mem_singleton.mpr rfl)⟩ = ix2 e 0 := by
    funext c; refine Fin.ext ?_
    match c with
    | ⟨0, _⟩ => rfl
    | ⟨1, _⟩ => rfl
  rw [hsi]

theorem seg1_window0 (j : (⟨1, ![E]⟩ : Shape).Idx) : (seg1Dims N E wf).window j 0 = 0 := by
  unfold ScatterDims.window
  have h : (0 : Fin 1) ∉ (seg1Dims N E wf).sKept := by
    show (0 : Fin 1) ∉ ([] : List (Fin 1)); decide
  rw [dif_neg h]

/-- Update `e` lands on `n` exactly when edge `e`'s index word, read signed, is `n`. -/
theorem seg1_resultIdx_iff (idx : IVec ⟨2, ![E, 1]⟩ w) (e : Fin E) (n : Fin N) :
    (seg1Dims N E wf).resultIdx? (ix1 e) idx = some (ix1 n) ↔ (idx (ix2 e 0)).toInt = (n.val : Int) := by
  unfold ScatterDims.resultIdx?
  split
  · rename_i H
    rw [Option.some.injEq]
    constructor
    · intro h
      have h0 : ((seg1Dims N E wf).start (ix1 e) idx 0 + ((seg1Dims N E wf).window (ix1 e) 0 : Nat)).toNat = n.val :=
        congrArg (fun f => (f 0).val) h
      have H0 := (H 0).1
      rw [seg1_start0, seg1_window0] at h0 H0
      omega
    · intro hr
      funext c; refine Fin.ext ?_
      match c with
      | ⟨0, _⟩ =>
        show ((seg1Dims N E wf).start (ix1 e) idx 0 + ((seg1Dims N E wf).window (ix1 e) 0 : Nat)).toNat = n.val
        rw [seg1_start0, seg1_window0, hr]; omega
  · rename_i H
    constructor
    · intro h; exact absurd h (by simp)
    · intro hr
      exfalso; apply H
      intro c
      match c with
      | ⟨0, _⟩ =>
        show 0 ≤ (seg1Dims N E wf).start (ix1 e) idx 0 + ((seg1Dims N E wf).window (ix1 e) 0 : Nat)
          ∧ (seg1Dims N E wf).start (ix1 e) idx 0 + ((seg1Dims N E wf).window (ix1 e) 0 : Nat) < (N : Int)
        rw [seg1_start0, seg1_window0, hr]; have := n.isLt; omega

/-- THE SCALAR SCATTER-ADD READ AT `n`: the operand's element plus the sum, over the edges whose index word read
    signed is `n`, of their updates. -/
theorem seg1_apply (x : (⟨1, ![N]⟩ : Shape).Idx → EReal) (idx : IVec ⟨2, ![E, 1]⟩ w)
    (upd : (⟨1, ![E]⟩ : Shape).Idx → EReal) (n : Fin N) :
    Ideal.hostScatterAdd (seg1Dims N E wf) x idx upd (ix1 n)
      = x (ix1 n) + ∑ e ∈ Finset.univ.filter (fun e : Fin E => (idx (ix2 e 0)).toInt = (n.val : Int)), upd (ix1 e) := by
  unfold Ideal.hostScatterAdd
  congr 1
  have key : ∀ j : (⟨1, ![E]⟩ : Shape).Idx, (seg1Dims N E wf).resultIdx? j idx = some (ix1 n) →
      (idx (ix2 (j 0) 0)).toInt = (n.val : Int) := fun j hj => by
    rw [eq_ix1 j] at hj
    exact (seg1_resultIdx_iff wf idx (j 0) n).mp hj
  refine Finset.sum_bij' (fun j _ => (j 0 : Fin E)) (fun e _ => ix1 e) ?_ ?_ ?_ ?_ ?_
  · intro j hj
    exact Finset.mem_filter.mpr ⟨Finset.mem_univ _, key j (Finset.mem_filter.mp hj).2⟩
  · intro e he
    exact Finset.mem_filter.mpr ⟨Finset.mem_univ _, (seg1_resultIdx_iff wf idx e n).mpr (Finset.mem_filter.mp he).2⟩
  · intro j _; exact (eq_ix1 j).symm
  · intro e _; rfl
  · intro j _; exact congrArg upd (eq_ix1 j)

end Rank1

/-! ## The matching gather: rows of `[N, A, B]` taken by an `[E, 1]` index array

`x[ids]` of `x : [N, A, B]` lowers to a `stablehlo.gather` with offset axes `[1, 2]`, collapsed axis `[0]`, start index
map `[0]`, the index vector on axis 1 and slices `[1, A, B]`. Result element `(e, a, b)` is `x` at row `ids[e]` read as
a signed integer and clamped into `[0, N − 1]`, as the gather clamps every start index. -/

section RowTake

variable {α : Type}

/-- Those dimension numbers. -/
abbrev rowTake3Dims (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE ROW GATHER READ AT `(e, a, b)`: the operand at row `ids[e]`, read signed and clamped into `[0, N − 1]`. -/
theorem rowTake3_apply {N E A B w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (rowTake3Dims N E A B wf) x idx (ix3 e a b)
      = x (ix3 ⟨min (idx (ix2 e 0)).toInt.toNat (N - 1), by omega⟩ a b) := by
  unfold Host.gather
  congr 1
  funext c
  refine Fin.ext ?_
  have hb : ∀ c : Fin 3, (rowTake3Dims N E A B wf).batchCoord (ix3 e a b) c = 0 := fun c =>
    GatherDims.batchCoord_eq_zero _ _ _ List.not_mem_nil
  match c with
  | ⟨0, _⟩ =>
    show (rowTake3Dims N E A B wf).start (ix3 e a b) idx 0 + (rowTake3Dims N E A B wf).batchCoord (ix3 e a b) 0
      + (rowTake3Dims N E A B wf).offCoord (ix3 e a b) 0 = _
    rw [hb 0, GatherDims.offCoord_eq_zero _ _ _
      (fun h => ((GatherDims.mem_sKept _ _).mp h).1 (List.mem_singleton.mpr rfl))]
    simp only [Nat.add_zero]
    unfold GatherDims.start
    rw [dif_pos (show (0 : Fin 3) ∈ (rowTake3Dims N E A B wf).startIndexMap from List.mem_singleton.mpr rfl)]
    have hsi : (rowTake3Dims N E A B wf).siIdx (ix3 e a b) ⟨List.idxOf (0 : Fin 3) (rowTake3Dims N E A B wf).startIndexMap,
        List.idxOf_lt_length_iff.2 (List.mem_singleton.mpr rfl)⟩ = ix2 e 0 := by
      funext q; refine Fin.ext ?_
      match q with
      | ⟨0, _⟩ => rfl
      | ⟨1, _⟩ => rfl
    rw [hsi]
    rfl
  | ⟨1, _⟩ =>
    show (rowTake3Dims N E A B wf).start (ix3 e a b) idx 1 + (rowTake3Dims N E A B wf).batchCoord (ix3 e a b) 1
      + (rowTake3Dims N E A B wf).offCoord (ix3 e a b) 1 = a.val
    rw [hb 1]
    have hs : (rowTake3Dims N E A B wf).start (ix3 e a b) idx 1 = 0 := by
      unfold GatherDims.start
      rw [dif_neg (show (1 : Fin 3) ∉ ([0] : List (Fin 3)) by decide)]
    have ho : (rowTake3Dims N E A B wf).offCoord (ix3 e a b) 1 = a.val := by
      unfold GatherDims.offCoord
      have h : (1 : Fin 3) ∈ (rowTake3Dims N E A B wf).sKept := by
        show (1 : Fin 3) ∈ ([1, 2] : List (Fin 3)); decide
      rw [dif_pos h]
      rfl
    rw [hs, ho]; omega
  | ⟨2, _⟩ =>
    show (rowTake3Dims N E A B wf).start (ix3 e a b) idx 2 + (rowTake3Dims N E A B wf).batchCoord (ix3 e a b) 2
      + (rowTake3Dims N E A B wf).offCoord (ix3 e a b) 2 = b.val
    rw [hb 2]
    have hs : (rowTake3Dims N E A B wf).start (ix3 e a b) idx 2 = 0 := by
      unfold GatherDims.start
      rw [dif_neg (show (2 : Fin 3) ∉ ([0] : List (Fin 3)) by decide)]
    have ho : (rowTake3Dims N E A B wf).offCoord (ix3 e a b) 2 = b.val := by
      unfold GatherDims.offCoord
      have h : (2 : Fin 3) ∈ (rowTake3Dims N E A B wf).sKept := by
        show (2 : Fin 3) ∈ ([1, 2] : List (Fin 3)); decide
      rw [dif_pos h]
      rfl
    rw [hs, ho]; omega

end RowTake

end Idealize.ShloMosaic.SegmentSum

end
-- ==== Proof.KernelHost.lean ====
/-
  What the kernel's host operations leave in the two arrays the node pass reads beside the arguments.

  Before the node pass the program adds the edge frames into their target nodes and counts the edges per node. With
  `row e` the first row of the edge index array at edge `e`, read as a signed integer, the arrays the node pass finds are
    summed frames   (n, s, t) ↦ 0 + Σ_{e : row e = n} frames (e, s, t)
    edge count      (n, 0)    ↦ 0 + Σ_{e : row e = n} 1
  (an edge whose word is negative or at least the node count lands nowhere).
-/
import proofs.«120632_j80229989089898_2_alg».proof.Proof.Gen.KernelIdeal.Frame
import proofs.«120632_j80229989089898_2_alg».proof.Proof.LibSegmentSum
import Idealize.ShloMosaic.Lib.StableHlo.Run
import Idealize.ShloMosaic.Lib.Pipeline.Value

noncomputable section

namespace Cert.KernelHost

open Cert.KernelIdeal Cert.KernelIdeal.Gen Idealize.ShloMosaic Idealize.ShloMosaic.TcCoe Idealize.SL.Sem
open Idealize.ShloMosaic.ValueIdx Idealize.ShloMosaic.SegmentSum Idealize.ShloMosaic.StableHlo

variable (m : (ℓ : Loc nD τ sig) → Buf (Elt Ideal) ℓ)

/-- The scatter indices both host scatters use, at `(e, 0)`: the first row of the edge index array at `e` (a slice of
    row 0, flattened, then given a trailing unit axis). -/
theorem idxArr_apply {α : Type} (x10 : S2x3200000.Idx → α) (e : Fin 3200000) :
    broadcastInDim S3200000x1 ![0] bcast_S3200000_S3200000x1_0
        (shapeCast S3200000 (extractStridedSlice S1x3200000 ![0, 0] x10 slices_S2x3200000_S1x3200000_0_0)
          shapeCasts_S1x3200000_S3200000) (ix2 e 0)
      = x10 (ix2 0 e) := by
  refine (broadcastInDim_apply _ bcast_S3200000_S3200000x1_0 _ (ix2 e 0) (ix1 e) (fun a => match a with
    | ⟨0, _⟩ => by show e.val = if (3200000 : Nat) = 1 then 0 else e.val; rw [if_neg (by decide)])).trans ?_
  refine (shapeCast_apply _ shapeCasts_S1x3200000_S3200000 (ix1 e) (ix2 0 e) (by
    rewrite [Shape.rowMajor_val_two, Shape.rowMajor_val_one]
    show 0 * 3200000 + e.val = e.val; omega)).trans ?_
  exact extractStridedSlice_apply ![0, 0] x10 slices_S2x3200000_S1x3200000_0_0 (ix2 0 e) (ix2 0 e) (fun a => match a with
    | ⟨0, _⟩ => by show (0 : Nat) = 0 + 0; rfl
    | ⟨1, _⟩ => by show e.val = 0 + e.val; omega)

/-- The summed-frames array as the node pass finds it: the host's operations' term. -/
theorem V_fsum (c : Dev nD) :
    (V m c main_v4 : S100000x3x3.Idx → EReal)
      = Host.scatterAdd (F := Ideal) scatter_S100000x3x3_S3200000x1_S3200000x3x3_12_0_0_1
          (broadcastInDim S100000x3x3 ![] bcast_S_S100000x3x3 (constant (F := Ideal) S_ .f32 0x00000000#32))
          (broadcastInDim S3200000x1 ![0] bcast_S3200000_S3200000x1_0
            (shapeCast S3200000
              (extractStridedSlice S1x3200000 ![0, 0] (m ((c : Thread nD τ).loc main_arg10)) slices_S2x3200000_S1x3200000_0_0)
              shapeCasts_S1x3200000_S3200000))
          (m ((c : Thread nD τ).loc main_arg2)) := by
  dsimp only [Gen.V, Gen.hostOps0]
  after_results
  rfl

/-- The edge-count array as the node pass finds it: the host's operations' term. -/
theorem V_cnt (c : Dev nD) :
    (V m c main_v9 : S100000x1.Idx → EReal)
      = shapeCast S100000x1
          (Host.scatterAdd (F := Ideal) scatter_S100000_S3200000x1_S3200000_n_0_0_1
            (broadcastInDim S100000 ![] bcast_S_S100000 (constant (F := Ideal) S_ .f32 0x00000000#32))
            (broadcastInDim S3200000x1 ![0] bcast_S3200000_S3200000x1_0
              (shapeCast S3200000
                (extractStridedSlice S1x3200000 ![0, 0] (m ((c : Thread nD τ).loc main_arg10)) slices_S2x3200000_S1x3200000_0_0)
                shapeCasts_S1x3200000_S3200000))
            (broadcastInDim S3200000 ![] bcast_S_S3200000 (constant (F := Ideal) S_ .f32 0x3F800000#32)))
          shapeCasts_S100000_S100000x1 := by
  dsimp only [Gen.V, Gen.hostOps0]
  after_results
  rfl

/-- The edges that land on node `n`, given the edge index array: those whose first-row word, read signed, is `n`. -/
abbrev edgesOf (x10 : S2x3200000.Idx → BitVec 32) (n : Fin 100000) : Finset (Fin 3200000) :=
  Finset.univ.filter fun e : Fin 3200000 => (x10 (ix2 0 e)).toInt = (n.val : Int)

/-- The printed dimension numbers of the frame scatter are those of a slab segment sum. -/
theorem rec3 : scatter_S100000x3x3_S3200000x1_S3200000x3x3_12_0_0_1
    = seg3Dims 100000 3200000 3 3 scatter_S100000x3x3_S3200000x1_S3200000x3x3_12_0_0_1.wf := rfl

/-- The printed dimension numbers of the count scatter are those of a scalar segment sum. -/
theorem rec1 : scatter_S100000_S3200000x1_S3200000_n_0_0_1
    = seg1Dims 100000 3200000 scatter_S100000_S3200000x1_S3200000_n_0_0_1.wf := rfl

/-- The frame scatter-add of any operand, indices and updates, at `(n, s, t)`. -/
theorem scatter3_read (x : FVec Ideal S100000x3x3 .f32) (idx : IVec S3200000x1 32) (upd : FVec Ideal S3200000x3x3 .f32)
    (n : Fin 100000) (s t : Fin 3) :
    Host.scatterAdd (F := Ideal) scatter_S100000x3x3_S3200000x1_S3200000x3x3_12_0_0_1 x idx upd (ix3 n s t)
      = x (ix3 n s t)
        + ∑ e ∈ Finset.univ.filter (fun e : Fin 3200000 => (idx (ix2 e 0)).toInt = (n.val : Int)), upd (ix3 e s t) := by
  rw [rec3]
  exact seg3_apply scatter_S100000x3x3_S3200000x1_S3200000x3x3_12_0_0_1.wf x idx upd n s t

/-- The count scatter-add of any operand, indices and updates, at `n`. -/
theorem scatter1_read (x : FVec Ideal S100000 .f32) (idx : IVec S3200000x1 32) (upd : FVec Ideal S3200000 .f32)
    (n : Fin 100000) :
    Host.scatterAdd (F := Ideal) scatter_S100000_S3200000x1_S3200000_n_0_0_1 x idx upd (ix1 n)
      = x (ix1 n)
        + ∑ e ∈ Finset.univ.filter (fun e : Fin 3200000 => (idx (ix2 e 0)).toInt = (n.val : Int)), upd (ix1 e) := by
  rw [rec1]
  exact seg1_apply scatter_S100000_S3200000x1_S3200000_n_0_0_1.wf x idx upd n

/-- The frame scatter-add's term at `(n, s, t)`: zero plus the sum of the frames' entry `(s, t)` over the edges landing
    on `n`. -/
theorem fsumTerm_apply (x10 : S2x3200000.Idx → BitVec 32) (x2 : FVec Ideal S3200000x3x3 .f32) (n : Fin 100000)
    (s t : Fin 3) :
    Host.scatterAdd (F := Ideal) scatter_S100000x3x3_S3200000x1_S3200000x3x3_12_0_0_1
        (broadcastInDim S100000x3x3 ![] bcast_S_S100000x3x3 (constant (F := Ideal) S_ .f32 0x00000000#32))
        (broadcastInDim S3200000x1 ![0] bcast_S3200000_S3200000x1_0
          (shapeCast S3200000 (extractStridedSlice S1x3200000 ![0, 0] x10 slices_S2x3200000_S1x3200000_0_0)
            shapeCasts_S1x3200000_S3200000))
        x2 (ix3 n s t)
      = Ideal.ofBits .f32 0x00000000#32 + ∑ e ∈ edgesOf x10 n, x2 (ix3 e s t) := by
  refine (scatter3_read _ _ x2 n s t).trans ?_
  exact congrArg₂ (· + ·) rfl
    (Finset.sum_congr (Finset.filter_congr fun e _ => by rw [idxArr_apply]) fun _ _ => rfl)

/-- The count scatter-add's term at `(n, 0)`, through the reshape to a column: zero plus a one per edge landing on `n`. -/
theorem cntTerm_apply (x10 : S2x3200000.Idx → BitVec 32) (n : Fin 100000) :
    shapeCast S100000x1
        (Host.scatterAdd (F := Ideal) scatter_S100000_S3200000x1_S3200000_n_0_0_1
          (broadcastInDim S100000 ![] bcast_S_S100000 (constant (F := Ideal) S_ .f32 0x00000000#32))
          (broadcastInDim S3200000x1 ![0] bcast_S3200000_S3200000x1_0
            (shapeCast S3200000 (extractStridedSlice S1x3200000 ![0, 0] x10 slices_S2x3200000_S1x3200000_0_0)
              shapeCasts_S1x3200000_S3200000))
          (broadcastInDim S3200000 ![] bcast_S_S3200000 (constant (F := Ideal) S_ .f32 0x3F800000#32)))
        shapeCasts_S100000_S100000x1 (ix2 n (0 : Fin 1))
      = Ideal.ofBits .f32 0x00000000#32 + ∑ _e ∈ edgesOf x10 n, Ideal.ofBits .f32 0x3F800000#32 := by
  refine (shapeCast_apply _ shapeCasts_S100000_S100000x1 (ix2 n (0 : Fin 1)) (ix1 n) (by
    rewrite [Shape.rowMajor_val_two, Shape.rowMajor_val_one]
    show n.val = n.val * 1 + 0; omega)).trans ?_
  refine (scatter1_read _ _ _ n).trans ?_
  exact congrArg₂ (· + ·) rfl
    (Finset.sum_congr (Finset.filter_congr fun e _ => by rw [idxArr_apply]) fun _ _ => rfl)

/-- The edge frames argument, as a function of `(e, s, t)`. -/
abbrev framesOf (c : Dev nD) : S3200000x3x3.Idx → EReal := m ((c : Thread nD τ).loc main_arg2)

/-- The edge index argument, as a function of `(r, e)` into 32-bit words. -/
abbrev wordsOf (c : Dev nD) : S2x3200000.Idx → BitVec 32 := m ((c : Thread nD τ).loc main_arg10)

/-- THE SUMMED FRAMES the node pass finds, at `(n, s, t)`. -/
theorem fsum_apply (c : Dev nD) (n : Fin 100000) (s t : Fin 3) :
    (V m c main_v4 : S100000x3x3.Idx → EReal) (ix3 n s t)
      = Ideal.ofBits .f32 0x00000000#32 + ∑ e ∈ edgesOf (wordsOf m c) n, framesOf m c (ix3 e s t) :=
  (congrFun (V_fsum m c) (ix3 n s t)).trans (fsumTerm_apply (wordsOf m c) (framesOf m c) n s t)

/-- THE EDGE COUNT the node pass finds, at `(n, 0)`. -/
theorem cnt_apply (c : Dev nD) (n : Fin 100000) :
    (V m c main_v9 : S100000x1.Idx → EReal) (ix2 n (0 : Fin 1))
      = Ideal.ofBits .f32 0x00000000#32 + ∑ _e ∈ edgesOf (wordsOf m c) n, Ideal.ofBits .f32 0x3F800000#32 :=
  (congrFun (V_cnt m c) (ix2 n (0 : Fin 1))).trans (cntTerm_apply (wordsOf m c) n)

end Cert.KernelHost

end
-- ==== Proof.RefRows.lean ====
/-
  The reference's two results, read at one index, as the per-row specification of `Cert.NodeRow`.

  Every named intermediate of the reference is read at an index of literal coordinates:
    the down projection          (n, t, h) ↦ vh t h
    its norm over space          (n, h)    ↦ vnorm h
    the merged feature row       (n, j)    ↦ merged j     (three pieces of extents 128, 16, 9 laid end to end)
    the scalar pre-activation    (n, o)    ↦ sout o
    silu of it                   (n, o)    ↦ sfin o       (the quotient 1 / (1 + exp (-x)) is the logistic function)
    the up projection            (n, v, t) ↦ vup t v
    the gate                     (n, v)    ↦ gate v
  The edge-averaged hidden features stay unopened: they enter as the function `k ↦ hidden (n, k)`.
-/
import proofs.«120632_j80229989089898_2_alg».proof.Proof.Gen.ReferenceIdeal.Read
import proofs.«120632_j80229989089898_2_alg».proof.Proof.NodeRow
import Idealize.ShloMosaic.Lib.IdealHost

noncomputable section

namespace Cert.RefRows

open Cert.ReferenceIdeal Cert.ReferenceIdeal.Gen Cert.ReferenceIdeal.Read Idealize.ShloMosaic Idealize.ShloMosaic.ValueIdx
open scoped BigOperators

/-- The down projection at `(n, t, h)`: the transposed vector channels against row `h` of the down weights. -/
theorem vh_row (x1 : (⟨S100000x16x3, .f32⟩ : BufTy).Contents (Elt Ideal)) (x3 : (⟨S16x16, .f32⟩ : BufTy).Contents (Elt Ideal))
    (n : Fin 100000) (t : Fin 3) (h : Fin 16) :
    val_main_v3 (F := Ideal) x1 x3 (ix3 n t h)
      = Cert.NodeRow.vh (fun v t => x1 (ix3 n v t)) (fun h v => x3 (ix2 h v)) t h := by
  rw [val_main_v3_apply]
  unfold Cert.NodeRow.vh
  refine Finset.sum_congr rfl fun k _ => ?_
  rw [val_main_v2_apply]
  have e1 : idx_main_v2 (lidx_main_v3 (ix3 n t h) k) = ix3 n k t :=
    funext fun a => Fin.ext (by match a with | ⟨0, _⟩ => rfl | ⟨1, _⟩ => rfl | ⟨2, _⟩ => rfl)
  have e2 : ridx_main_v3 (ix3 n t h) k = ix2 h k :=
    funext fun a => Fin.ext (by match a with | ⟨0, _⟩ => rfl | ⟨1, _⟩ => rfl)
  rw [e1, e2]

/-- The norm at `(n, h)`: the root of the sum over space of the squared down projection, plus ε. -/
theorem vnorm_row (x1 : (⟨S100000x16x3, .f32⟩ : BufTy).Contents (Elt Ideal)) (x3 : (⟨S16x16, .f32⟩ : BufTy).Contents (Elt Ideal))
    (n : Fin 100000) (h : Fin 16) :
    val_main_v8 (F := Ideal) x1 x3 (ix2 n h)
      = Cert.NodeRow.vnorm (fun v t => x1 (ix3 n v t)) (fun h v => x3 (ix2 h v)) h := by
  rw [val_main_v8_apply, val_main_v7_apply, val_main_v5_apply, val_main_v6_apply, val_main_cst_apply, val_main_cst_0_apply]
  unfold Cert.NodeRow.vnorm
  simp only [Ideal.hostUnary_sqrt_def, Ideal.addf_def, Ideal.ofBits_def, Ideal.ofBits_zero_f32, zero_add]
  refine congrArg (fun s => Ideal.sqrt (s + Ideal.ofBits .f32 0x322BCC77#32)) (Finset.sum_congr rfl fun k _ => ?_)
  have e : idx_main_v5 (ix2 n h) k = ix3 n k h :=
    funext fun a => Fin.ext (by match a with | ⟨0, _⟩ => rfl | ⟨1, _⟩ => rfl | ⟨2, _⟩ => rfl)
  rw [val_main_v4_apply, e, vh_row, Ideal.mulf_def]

/-- Three pieces of extents 128, 16 and 9 laid end to end along the second axis, read at `(n, j)`: the piece whose
    span holds `j`, at `j` less the extents before it. -/
theorem concat3_apply {α : Type} (a0 : S100000x128.Idx → α) (a1 : S100000x16.Idx → α) (a2 : S100000x9.Idx → α)
    (hc : Shape.Concatenates [S100000x128, S100000x16, S100000x9] S100000x153 1) (n : Fin 100000) (j : Fin 153) :
    concatenate S100000x153 1 [⟨S100000x128, a0⟩, ⟨S100000x16, a1⟩, ⟨S100000x9, a2⟩] hc (ix2 n j)
      = if h : j.val < 128 then a0 (ix2 n ⟨j.val, h⟩)
        else if h2 : j.val < 144 then a1 (ix2 n ⟨j.val - 128, by omega⟩)
        else a2 (ix2 n ⟨j.val - 144, by omega⟩) := by
  split
  · next h =>
    refine concatenate_apply_piece (1 : Fin S100000x153.rank) [⟨S100000x128, a0⟩, ⟨S100000x16, a1⟩, ⟨S100000x9, a2⟩] hc (ix2 n j) 0 (by show (0 : Nat) < 3; omega) S100000x128 a0 rfl rfl 0 rfl
      (ix2 n ⟨j.val, h⟩) (fun b hb => ?_) (Nat.zero_add _)
    match b with
    | ⟨0, _⟩ => rfl
    | ⟨1, _⟩ => exact absurd rfl hb
  · next h =>
    split
    · next h2 =>
      refine concatenate_apply_piece (1 : Fin S100000x153.rank) [⟨S100000x128, a0⟩, ⟨S100000x16, a1⟩, ⟨S100000x9, a2⟩] hc (ix2 n j) 1 (by show (1 : Nat) < 3; omega) S100000x16 a1 rfl rfl 128 rfl
        (ix2 n ⟨j.val - 128, by omega⟩) (fun b hb => ?_) (by show 128 + (j.val - 128) = j.val; omega)
      match b with
      | ⟨0, _⟩ => rfl
      | ⟨1, _⟩ => exact absurd rfl hb
    · next h2 =>
      refine concatenate_apply_piece (1 : Fin S100000x153.rank) [⟨S100000x128, a0⟩, ⟨S100000x16, a1⟩, ⟨S100000x9, a2⟩] hc (ix2 n j) 2 (by show (2 : Nat) < 3; omega) S100000x9 a2 rfl rfl 144 rfl
        (ix2 n ⟨j.val - 144, by omega⟩) (fun b hb => ?_) (by show 144 + (j.val - 144) = j.val; omega)
      match b with
      | ⟨0, _⟩ => rfl
      | ⟨1, _⟩ => exact absurd rfl hb

/-- The merged feature row at `(n, j)`: the scalar channels, then the norms, then the hidden features. -/
theorem merged_row (x0 : (⟨S100000x128, .f32⟩ : BufTy).Contents (Elt Ideal)) (x1 : (⟨S100000x16x3, .f32⟩ : BufTy).Contents (Elt Ideal))
    (x2 : (⟨S3200000x3x3, .f32⟩ : BufTy).Contents (Elt Ideal)) (x3 : (⟨S16x16, .f32⟩ : BufTy).Contents (Elt Ideal))
    (x4 : (⟨S3x16, .f32⟩ : BufTy).Contents (Elt Ideal)) (x10 : (⟨S2x3200000, .i32⟩ : BufTy).Contents (Elt Ideal))
    (n : Fin 100000) (j : Fin 153) :
    val_main_v32 (F := Ideal) x0 x1 x2 x3 x4 x10 (ix2 n j)
      = Cert.NodeRow.merged (fun j => x0 (ix2 n j))
          (Cert.NodeRow.vnorm (fun v t => x1 (ix3 n v t)) (fun h v => x3 (ix2 h v)))
          (fun k => val_main_v31 (F := Ideal) x1 x2 x4 x10 (ix2 n k)) j := by
  unfold val_main_v32 Cert.NodeRow.merged
  rw [concat3_apply]
  split
  · rfl
  · split
    · exact vnorm_row x1 x3 n _
    · rfl

/-- The scalar pre-activation at `(n, o)`: the merged row against row `o` of the scalar weights, plus the bias. -/
theorem sout_row
    (x0 : (⟨S100000x128, .f32⟩ : BufTy).Contents (Elt Ideal)) (x1 : (⟨S100000x16x3, .f32⟩ : BufTy).Contents (Elt Ideal))
    (x2 : (⟨S3200000x3x3, .f32⟩ : BufTy).Contents (Elt Ideal)) (x3 : (⟨S16x16, .f32⟩ : BufTy).Contents (Elt Ideal))
    (x4 : (⟨S3x16, .f32⟩ : BufTy).Contents (Elt Ideal)) (x5 : (⟨S128x153, .f32⟩ : BufTy).Contents (Elt Ideal))
    (x6 : (⟨S128, .f32⟩ : BufTy).Contents (Elt Ideal)) (x10 : (⟨S2x3200000, .i32⟩ : BufTy).Contents (Elt Ideal))
    (n : Fin 100000) (o : Fin 128) :
    val_main_v37 (F := Ideal) x0 x1 x2 x3 x4 x5 x6 x10 (ix2 n o)
      = Cert.NodeRow.sout (fun j => x0 (ix2 n j)) (fun v t => x1 (ix3 n v t))
          (fun k => val_main_v31 (F := Ideal) x1 x2 x4 x10 (ix2 n k))
          (fun h v => x3 (ix2 h v)) (fun o j => x5 (ix2 o j)) (fun o => x6 (ix1 o)) o := by
  rw [val_main_v37_apply, val_main_v34_apply, val_main_v36_apply, val_main_v35_apply, Ideal.addf_def]
  unfold Cert.NodeRow.sout
  have e6 : idx_main_v35 (idx_main_v36 (ix2 n o)) = ix1 o :=
    funext fun a => Fin.ext (by match a with | ⟨0, _⟩ => rfl)
  rw [e6]
  refine congrArg (· + x6 (ix1 o)) (Finset.sum_congr rfl fun k _ => ?_)
  have el : lidx_main_v34 (ix2 n o) k = ix2 n k :=
    funext fun a => Fin.ext (by match a with | ⟨0, _⟩ => rfl | ⟨1, _⟩ => rfl)
  have er : idx_main_v33 (ridx_main_v34 (ix2 n o) k) = ix2 o k :=
    funext fun a => Fin.ext (by match a with | ⟨0, _⟩ => rfl | ⟨1, _⟩ => rfl)
  rw [val_main_v33_apply, el, er, merged_row]

/-- The quotient `1 / (1 + exp (-x))`, with the constant one as its f32 word, is the logistic function; so the
    reference's spelling of silu is `x · logistic x`. -/
theorem silu_eq (x : EReal) :
    x * Ideal.div (Ideal.ofBits .f32 0x3F800000#32) (Ideal.ofBits .f32 0x3F800000#32 + Ideal.exp (-x))
      = Cert.NodeRow.silu x := by
  unfold Cert.NodeRow.silu Ideal.logistic
  rw [Ideal.ofBits_one_f32]

/-- The first result at `(n, o)`: silu of the scalar pre-activation. -/
theorem sfin_row
    (x0 : (⟨S100000x128, .f32⟩ : BufTy).Contents (Elt Ideal)) (x1 : (⟨S100000x16x3, .f32⟩ : BufTy).Contents (Elt Ideal))
    (x2 : (⟨S3200000x3x3, .f32⟩ : BufTy).Contents (Elt Ideal)) (x3 : (⟨S16x16, .f32⟩ : BufTy).Contents (Elt Ideal))
    (x4 : (⟨S3x16, .f32⟩ : BufTy).Contents (Elt Ideal)) (x5 : (⟨S128x153, .f32⟩ : BufTy).Contents (Elt Ideal))
    (x6 : (⟨S128, .f32⟩ : BufTy).Contents (Elt Ideal)) (x10 : (⟨S2x3200000, .i32⟩ : BufTy).Contents (Elt Ideal))
    (n : Fin 100000) (o : Fin 128) :
    val_main_v55 (F := Ideal) x0 x1 x2 x3 x4 x5 x6 x10 (ix2 n o)
      = Cert.NodeRow.sfin (fun j => x0 (ix2 n j)) (fun v t => x1 (ix3 n v t))
          (fun k => val_main_v31 (F := Ideal) x1 x2 x4 x10 (ix2 n k))
          (fun h v => x3 (ix2 h v)) (fun o j => x5 (ix2 o j)) (fun o => x6 (ix1 o)) o := by
  rw [val_main_v55_apply, val_main_call1_v5_apply, val_main_call1_v4_apply, val_main_call1_cst_0_apply,
    val_main_call1_v3_apply, val_main_call1_v2_apply, val_main_call1_cst_apply, val_main_call1_v1_apply,
    val_main_call1_v0_apply, sout_row]
  unfold Cert.NodeRow.sfin
  simp only [Ideal.mulf_def, Ideal.hostDivf_def, Ideal.ofBits_def, Ideal.addf_def, Ideal.hostUnary_exp_def,
    Ideal.hostNegf_def, Ideal.negf_def]
  exact silu_eq _

/-- The same row read from the first of the two silu calls (the one the gate consumes). -/
theorem sfin_row_gate
    (x0 : (⟨S100000x128, .f32⟩ : BufTy).Contents (Elt Ideal)) (x1 : (⟨S100000x16x3, .f32⟩ : BufTy).Contents (Elt Ideal))
    (x2 : (⟨S3200000x3x3, .f32⟩ : BufTy).Contents (Elt Ideal)) (x3 : (⟨S16x16, .f32⟩ : BufTy).Contents (Elt Ideal))
    (x4 : (⟨S3x16, .f32⟩ : BufTy).Contents (Elt Ideal)) (x5 : (⟨S128x153, .f32⟩ : BufTy).Contents (Elt Ideal))
    (x6 : (⟨S128, .f32⟩ : BufTy).Contents (Elt Ideal)) (x10 : (⟨S2x3200000, .i32⟩ : BufTy).Contents (Elt Ideal))
    (n : Fin 100000) (o : Fin 128) :
    val_main_v40 (F := Ideal) x0 x1 x2 x3 x4 x5 x6 x10 (ix2 n o)
      = Cert.NodeRow.sfin (fun j => x0 (ix2 n j)) (fun v t => x1 (ix3 n v t))
          (fun k => val_main_v31 (F := Ideal) x1 x2 x4 x10 (ix2 n k))
          (fun h v => x3 (ix2 h v)) (fun o j => x5 (ix2 o j)) (fun o => x6 (ix1 o)) o := by
  rw [val_main_v40_apply, val_main_call0_v5_apply, val_main_call0_v4_apply, val_main_call0_cst_0_apply,
    val_main_call0_v3_apply, val_main_call0_v2_apply, val_main_call0_cst_apply, val_main_call0_v1_apply,
    val_main_call0_v0_apply, sout_row]
  unfold Cert.NodeRow.sfin
  simp only [Ideal.mulf_def, Ideal.hostDivf_def, Ideal.ofBits_def, Ideal.addf_def, Ideal.hostUnary_exp_def,
    Ideal.hostNegf_def, Ideal.negf_def]
  exact silu_eq _

/-- The up projection at `(n, v, t)`: the down projection at `(n, t, ·)` against row `v` of the up weights. -/
theorem vup_row (x1 : (⟨S100000x16x3, .f32⟩ : BufTy).Contents (Elt Ideal)) (x3 x7 : (⟨S16x16, .f32⟩ : BufTy).Contents (Elt Ideal))
    (n : Fin 100000) (v : Fin 16) (t : Fin 3) :
    val_main_v39 (F := Ideal) x1 x3 x7 (ix3 n v t)
      = Cert.NodeRow.vup (fun v t => x1 (ix3 n v t)) (fun h v => x3 (ix2 h v)) (fun v h => x7 (ix2 v h)) t v := by
  rw [val_main_v39_apply, val_main_v38_apply]
  unfold Cert.NodeRow.vup
  refine Finset.sum_congr rfl fun k _ => ?_
  have el : lidx_main_v38 (idx_main_v39 (ix3 n v t)) k = ix3 n t k :=
    funext fun a => Fin.ext (by match a with | ⟨0, _⟩ => rfl | ⟨1, _⟩ => rfl | ⟨2, _⟩ => rfl)
  have er : ridx_main_v38 (idx_main_v39 (ix3 n v t)) k = ix2 v k :=
    funext fun a => Fin.ext (by match a with | ⟨0, _⟩ => rfl | ⟨1, _⟩ => rfl)
  rw [el, er, vh_row]

/-- The gate at `(n, v)`: the logistic function of the first result's row against row `v` of the gate weights,
    plus the bias. -/
theorem gate_row
    (x0 : (⟨S100000x128, .f32⟩ : BufTy).Contents (Elt Ideal)) (x1 : (⟨S100000x16x3, .f32⟩ : BufTy).Contents (Elt Ideal))
    (x2 : (⟨S3200000x3x3, .f32⟩ : BufTy).Contents (Elt Ideal)) (x3 : (⟨S16x16, .f32⟩ : BufTy).Contents (Elt Ideal))
    (x4 : (⟨S3x16, .f32⟩ : BufTy).Contents (Elt Ideal)) (x5 : (⟨S128x153, .f32⟩ : BufTy).Contents (Elt Ideal))
    (x6 : (⟨S128, .f32⟩ : BufTy).Contents (Elt Ideal)) (x8 : (⟨S16x128, .f32⟩ : BufTy).Contents (Elt Ideal))
    (x9 : (⟨S16, .f32⟩ : BufTy).Contents (Elt Ideal)) (x10 : (⟨S2x3200000, .i32⟩ : BufTy).Contents (Elt Ideal))
    (n : Fin 100000) (v : Fin 16) :
    val_main_v51 (F := Ideal) x0 x1 x2 x3 x4 x5 x6 x8 x9 x10 (ix2 n v)
      = Cert.NodeRow.gate (fun j => x0 (ix2 n j)) (fun v t => x1 (ix3 n v t))
          (fun k => val_main_v31 (F := Ideal) x1 x2 x4 x10 (ix2 n k))
          (fun h v => x3 (ix2 h v)) (fun o j => x5 (ix2 o j)) (fun o => x6 (ix1 o))
          (fun v o => x8 (ix2 v o)) (fun v => x9 (ix1 v)) v := by
  rw [val_main_v51_apply, val_main_v50_apply, val_main_cst_7_apply, val_main_v49_apply, val_main_v48_apply,
    val_main_cst_6_apply, val_main_v47_apply, val_main_v46_apply, val_main_v45_apply, val_main_v42_apply,
    val_main_v44_apply, val_main_v43_apply]
  unfold Cert.NodeRow.gate Ideal.logistic
  simp only [Ideal.hostDivf_def, Ideal.ofBits_def, Ideal.addf_def, Ideal.hostUnary_exp_def, Ideal.hostNegf_def,
    Ideal.negf_def, Ideal.ofBits_one_f32]
  have e9 : idx_main_v43 (idx_main_v44 (ix2 n v)) = ix1 v :=
    funext fun a => Fin.ext (by match a with | ⟨0, _⟩ => rfl)
  rw [e9]
  refine congrArg (fun s => Ideal.div 1 (1 + Ideal.exp (-(s + x9 (ix1 v))))) (Finset.sum_congr rfl fun k _ => ?_)
  have el : lidx_main_v42 (ix2 n v) k = ix2 n k :=
    funext fun a => Fin.ext (by match a with | ⟨0, _⟩ => rfl | ⟨1, _⟩ => rfl)
  have er : idx_main_v41 (ridx_main_v42 (ix2 n v) k) = ix2 v k :=
    funext fun a => Fin.ext (by match a with | ⟨0, _⟩ => rfl | ⟨1, _⟩ => rfl)
  rw [val_main_v41_apply, el, er, sfin_row_gate]

/-- The second result at `(n, v, t)`: the up projection, gated per vector channel. -/
theorem vfin_row
    (x0 : (⟨S100000x128, .f32⟩ : BufTy).Contents (Elt Ideal)) (x1 : (⟨S100000x16x3, .f32⟩ : BufTy).Contents (Elt Ideal))
    (x2 : (⟨S3200000x3x3, .f32⟩ : BufTy).Contents (Elt Ideal)) (x3 : (⟨S16x16, .f32⟩ : BufTy).Contents (Elt Ideal))
    (x4 : (⟨S3x16, .f32⟩ : BufTy).Contents (Elt Ideal)) (x5 : (⟨S128x153, .f32⟩ : BufTy).Contents (Elt Ideal))
    (x6 : (⟨S128, .f32⟩ : BufTy).Contents (Elt Ideal)) (x7 : (⟨S16x16, .f32⟩ : BufTy).Contents (Elt Ideal))
    (x8 : (⟨S16x128, .f32⟩ : BufTy).Contents (Elt Ideal)) (x9 : (⟨S16, .f32⟩ : BufTy).Contents (Elt Ideal))
    (x10 : (⟨S2x3200000, .i32⟩ : BufTy).Contents (Elt Ideal))
    (n : Fin 100000) (v : Fin 16) (t : Fin 3) :
    val_main_v54 (F := Ideal) x0 x1 x2 x3 x4 x5 x6 x7 x8 x9 x10 (ix3 n v t)
      = Cert.NodeRow.vfin (fun j => x0 (ix2 n j)) (fun v t => x1 (ix3 n v t))
          (fun k => val_main_v31 (F := Ideal) x1 x2 x4 x10 (ix2 n k))
          (fun h v => x3 (ix2 h v)) (fun o j => x5 (ix2 o j)) (fun o => x6 (ix1 o))
          (fun v h => x7 (ix2 v h)) (fun v o => x8 (ix2 v o)) (fun v => x9 (ix1 v)) v t := by
  rw [val_main_v54_apply, val_main_v53_apply, val_main_v52_apply, Ideal.mulf_def, vup_row]
  have e : idx_main_v52 (idx_main_v53 (ix3 n v t)) = ix2 n v :=
    funext fun a => Fin.ext (by match a with | ⟨0, _⟩ => rfl | ⟨1, _⟩ => rfl)
  rw [e, gate_row]
  rfl

end Cert.RefRows

end
-- ==== Proof.EdgeMean.lean ====
/-
  The edge-averaged frame features of one node, in the two arrangements the programs use, and their equality.

  For a node with incoming edge set `T`, per-edge frames `a e s t` and frame projection `d t f`, at `k = 3 f + s`:
    the reference first contracts each edge's frame with the projection and then adds over the edges,
        ( 0 + Σ_{e ∈ T} Σ_t a e s t · d t f ) / max( 0 + Σ_{e ∈ T} 1, 1 );
    the kernel first adds the frames over the edges and then contracts once,
        ( (Fs s 0 · d 0 f + Fs s 1 · d 1 f) + Fs s 2 · d 2 f ) / max( count, 1 ),   Fs s t = 0 + Σ_{e ∈ T} a e s t.
  The two agree when every frame entry and every projection entry is a real number: a finite sum of reals passes
  through the product with a real. (At an infinite entry the extended reals do not distribute.)
-/
import proofs.«120632_j80229989089898_2_alg».proof.Proof.NodeRow
import proofs.«120632_j80229989089898_2_alg».proof.Proof.LibSegmentSum
import Idealize.ShloMosaic.Lib.IdealHost

noncomputable section

namespace Cert.EdgeMean

open Idealize.ShloMosaic Idealize.ShloMosaic.SegmentSum

/-- The reference's arrangement of the hidden features at `k = 3 f + s`. -/
def hidR {ι : Type} (T : Finset ι) (a : ι → Fin 3 → Fin 3 → EReal) (d : Fin 3 → Fin 3 → EReal) (k : Fin 9) : EReal :=
  Ideal.div
    (Ideal.ofBits .f32 0x00000000#32
      + ∑ e ∈ T, ∑ t : Fin 3, a e ⟨k.val % 3, Nat.mod_lt _ (by decide)⟩ t * d t ⟨k.val / 3, by omega⟩)
    (max (Ideal.ofBits .f32 0x00000000#32 + ∑ _e ∈ T, Ideal.ofBits .f32 0x3F800000#32)
      (Ideal.ofBits .f32 0x3F800000#32))

/-- The kernel's arrangement, over the summed frames and the summed count, is the reference's, when the frames and
    the projection are real-valued. -/
theorem hidK_eq_hidR {ι : Type} (T : Finset ι) (a : ι → Fin 3 → Fin 3 → EReal) (d : Fin 3 → Fin 3 → EReal)
    (ha : ∀ e s t, ∃ r : ℝ, a e s t = (r : EReal)) (hd : ∀ t f, ∃ r : ℝ, d t f = (r : EReal)) (k : Fin 9) :
    Cert.NodeRow.hidK (fun s t => Ideal.ofBits .f32 0x00000000#32 + ∑ e ∈ T, a e s t)
        (Ideal.ofBits .f32 0x00000000#32 + ∑ _e ∈ T, Ideal.ofBits .f32 0x3F800000#32) d k
      = hidR T a d k := by
  unfold Cert.NodeRow.hidK hidR
  congr 1
  simp only [Ideal.ofBits_zero_f32, zero_add]
  exact (sum_contract3 T (fun e t => a e ⟨k.val % 3, Nat.mod_lt _ (by decide)⟩ t) (fun t => d t ⟨k.val / 3, by omega⟩)
    (fun e t => ha e _ t) (fun t => hd t _)).symm

end Cert.EdgeMean

end
-- ==== Proof.RefHidden.lean ====
/-
  The reference's edge-averaged hidden features, read at one index `(n, k)`, `k = 3 f + s`.

  The stage is a scatter-mean. Each edge `e` carries a target word `ids e` (row 0 of the edge list) and a frame
  `a e s t`; the node's frame projection is `d t f = Σ_v a1 v t · W4 f v`. The reference
    gathers, per edge, the projection of the edge's target node (a negative word is first wrapped by the node
      count, then the gather clamps it into range),
    contracts the edge's frame with it,               u e (s, f) = Σ_t a e s t · d_{target e} t f,
    adds `u e` into row `ids e` of a zero array,       the sum over the edges whose word, read signed, is `n`,
    counts those edges the same way,                  0 + Σ 1,
    and divides by the larger of the count and one.
  Inside the sum over the edges of node `n` the word is `n` itself, `0 ≤ n < 100000`: the sign test fails, the
  wrapped alternative is not taken, the clamp is the identity, and the gathered projection is node `n`'s own.
-/
import proofs.«120632_j80229989089898_2_alg».proof.Proof.Gen.ReferenceIdeal.Read
import proofs.«120632_j80229989089898_2_alg».proof.Proof.NodeRow
import proofs.«120632_j80229989089898_2_alg».proof.Proof.LibSegmentSum
import proofs.«120632_j80229989089898_2_alg».proof.Proof.EdgeMean
import Idealize.ShloMosaic.Lib.Affine

noncomputable section

namespace Cert.RefHidden

open Cert.ReferenceIdeal Cert.ReferenceIdeal.Gen Cert.ReferenceIdeal.Read Idealize.ShloMosaic Idealize.ShloMosaic.ValueIdx
  Idealize.ShloMosaic.SegmentSum
open scoped BigOperators

/-- The flat list of target words at `e` is row 0 of the edge list at `e`. -/
theorem edge_word (x10 : (⟨S2x3200000, .i32⟩ : BufTy).Contents (Elt Ideal)) (e : Fin 3200000) :
    val_main_v1 (F := Ideal) x10 (ix1 e) = x10 (ix2 0 e) := by
  rw [val_main_v1_apply, val_main_v0_apply]
  refine congrArg x10 (funext fun a => Fin.ext ?_)
  match a with
  | ⟨0, _⟩ => rfl
  | ⟨1, _⟩ => exact Nat.mod_eq_of_lt e.isLt

/-- The index column of the feature scatter at `(e, 0)` is edge `e`'s target word. -/
theorem sums_word (x10 : (⟨S2x3200000, .i32⟩ : BufTy).Contents (Elt Ideal)) (e : Fin 3200000) :
    val_main_v21 (F := Ideal) x10 (ix2 e 0) = x10 (ix2 0 e) := by
  rw [val_main_v21_apply]
  have ei : idx_main_v21 (ix2 e 0) = ix1 e := funext fun a => Fin.ext (by match a with | ⟨0, _⟩ => rfl)
  rw [ei, edge_word]

/-- The index column of the count scatter at `(e, 0)` is edge `e`'s target word. -/
theorem cnt_word (x10 : (⟨S2x3200000, .i32⟩ : BufTy).Contents (Elt Ideal)) (e : Fin 3200000) :
    val_main_v25 (F := Ideal) x10 (ix2 e 0) = x10 (ix2 0 e) := by
  rw [val_main_v25_apply]
  have ei : idx_main_v25 (ix2 e 0) = ix1 e := funext fun a => Fin.ext (by match a with | ⟨0, _⟩ => rfl)
  rw [ei, edge_word]

/-- For an edge whose target word is a node `n`, the wrapped index column of the gather at `(e, 0)` is the word
    itself: the word is not negative, so the wrapped alternative is not selected. -/
theorem take_word (x10 : (⟨S2x3200000, .i32⟩ : BufTy).Contents (Elt Ideal)) (n : Fin 100000) (e : Fin 3200000)
    (he : (x10 (ix2 0 e)).toInt = (n.val : Int)) :
    val_main_v15 (F := Ideal) x10 (ix2 e 0) = x10 (ix2 0 e) := by
  rw [val_main_v15_apply]
  have ei : idx_main_v15 (ix2 e 0) = ix1 e := funext fun a => Fin.ext (by match a with | ⟨0, _⟩ => rfl)
  rw [ei, val_main_v14_apply, val_main_v11_apply, val_main_v10_apply, val_main_c_apply, edge_word]
  have hc : IntOp.cmpi .slt (x10 (ix2 0 e)) 0#32 = 0#1 :=
    eq_zero_of_ne_one fun h1 => by
      have h2 := IntOp.cmpi_slt.mp h1
      rw [he, BitVec.toInt_zero] at h2
      omega
  rw [hc, select_zero]

/-- The frame projection at `(n, t, f)`: the transposed vector channels against row `f` of the frame weights. -/
theorem vdf_row (x1 : (⟨S100000x16x3, .f32⟩ : BufTy).Contents (Elt Ideal)) (x4 : (⟨S3x16, .f32⟩ : BufTy).Contents (Elt Ideal))
    (n : Fin 100000) (t : Fin 3) (f : Fin 3) :
    val_main_v9 (F := Ideal) x1 x4 (ix3 n t f)
      = Cert.NodeRow.vdf (fun v t => x1 (ix3 n v t)) (fun f v => x4 (ix2 f v)) t f := by
  rw [val_main_v9_apply]
  unfold Cert.NodeRow.vdf
  refine Finset.sum_congr rfl fun k _ => ?_
  rw [val_main_v2_apply]
  have e1 : idx_main_v2 (lidx_main_v9 (ix3 n t f) k) = ix3 n k t :=
    funext fun a => Fin.ext (by match a with | ⟨0, _⟩ => rfl | ⟨1, _⟩ => rfl | ⟨2, _⟩ => rfl)
  have e2 : ridx_main_v9 (ix3 n t f) k = ix2 f k :=
    funext fun a => Fin.ext (by match a with | ⟨0, _⟩ => rfl | ⟨1, _⟩ => rfl)
  rw [e1, e2]

/-- For an edge whose target word is node `n`, the gathered projection is node `n`'s own. -/
theorem gathered_row (x1 : (⟨S100000x16x3, .f32⟩ : BufTy).Contents (Elt Ideal)) (x4 : (⟨S3x16, .f32⟩ : BufTy).Contents (Elt Ideal))
    (x10 : (⟨S2x3200000, .i32⟩ : BufTy).Contents (Elt Ideal)) (n : Fin 100000) (e : Fin 3200000)
    (he : (x10 (ix2 0 e)).toInt = (n.val : Int)) (t f : Fin 3) :
    val_main_v16 (F := Ideal) x1 x4 x10 (ix3 e t f)
      = Cert.NodeRow.vdf (fun v t => x1 (ix3 n v t)) (fun f v => x4 (ix2 f v)) t f := by
  unfold val_main_v16
  refine (rowTake3_apply (N := 100000) (E := 3200000) (A := 3) (B := 3) (by decide)
    Facts₀.gather_S100000x3x3_S3200000x1_S3200000x3x3_12_0_n_n_0_1_133_wf
    (val_main_v9 (F := Ideal) x1 x4) (val_main_v15 (F := Ideal) x10) e t f).trans ?_
  have hrow : ∀ p : min (val_main_v15 (F := Ideal) x10 (ix2 e 0)).toInt.toNat (100000 - 1) < 100000,
      (⟨min (val_main_v15 (F := Ideal) x10 (ix2 e 0)).toInt.toNat (100000 - 1), p⟩ : Fin 100000) = n := fun p =>
    Fin.ext (by
      show min (val_main_v15 (F := Ideal) x10 (ix2 e 0)).toInt.toNat (100000 - 1) = n.val
      rw [take_word x10 n e he, he]
      have := n.isLt
      omega)
  exact (congrArg (fun r : Fin 100000 => val_main_v9 (F := Ideal) x1 x4 (ix3 r t f)) (hrow _)).trans
    (vdf_row x1 x4 n t f)

/-- For an edge whose target word is node `n`, its update at `k = 3 f + s`: the edge's frame row `s` against
    column `f` of node `n`'s projection. -/
theorem edge_term (x1 : (⟨S100000x16x3, .f32⟩ : BufTy).Contents (Elt Ideal)) (x2 : (⟨S3200000x3x3, .f32⟩ : BufTy).Contents (Elt Ideal))
    (x4 : (⟨S3x16, .f32⟩ : BufTy).Contents (Elt Ideal)) (x10 : (⟨S2x3200000, .i32⟩ : BufTy).Contents (Elt Ideal))
    (n : Fin 100000) (e : Fin 3200000) (he : (x10 (ix2 0 e)).toInt = (n.val : Int)) (k : Fin 9) :
    val_main_v19 (F := Ideal) x1 x2 x4 x10 (ix2 e k)
      = ∑ t : Fin 3, x2 (ix3 e ⟨k.val % 3, Nat.mod_lt _ (by decide)⟩ t)
          * Cert.NodeRow.vdf (fun v t => x1 (ix3 n v t)) (fun f v => x4 (ix2 f v)) t ⟨k.val / 3, by omega⟩ := by
  rw [val_main_v19_apply, val_main_v18_apply, val_main_v17_apply]
  refine Finset.sum_congr rfl fun t _ => ?_
  have el : lidx_main_v17 (idx_main_v18 (idx_main_v19 (ix2 e k))) t = ix3 e ⟨k.val % 3, Nat.mod_lt _ (by decide)⟩ t :=
    funext fun a => Fin.ext (by
      have hk := k.isLt
      match a with
      | ⟨0, _⟩ => show (e.val * 9 + k.val) / 9 = e.val; omega
      | ⟨1, _⟩ => show (e.val * 9 + k.val) % 3 = k.val % 3; omega
      | ⟨2, _⟩ => rfl)
  have er : ridx_main_v17 (idx_main_v18 (idx_main_v19 (ix2 e k))) t = ix3 e t ⟨k.val / 3, by omega⟩ :=
    funext fun a => Fin.ext (by
      have hk := k.isLt
      match a with
      | ⟨0, _⟩ => show (e.val * 9 + k.val) / 9 = e.val; omega
      | ⟨1, _⟩ => rfl
      | ⟨2, _⟩ => show (e.val * 9 + k.val) / 3 % 3 = k.val / 3; omega)
  rw [el, er, gathered_row x1 x4 x10 n e he]

/-- A row scatter-add of `[3200000, 9]` updates into `[100000, 9]`, read at `(n, k)`. -/
theorem scatter2_apply (z : S100000x9.Idx → EReal) (idx : IVec S3200000x1 32) (u : S3200000x9.Idx → EReal)
    (n : Fin 100000) (k : Fin 9) :
    Host.scatterAdd (F := Ideal) (φ := .f32) scatter_S100000x9_S3200000x1_S3200000x9_1_0_0_1 z idx u (ix2 n k)
      = z (ix2 n k) + ∑ e ∈ Finset.univ.filter (fun e : Fin 3200000 => (idx (ix2 e 0)).toInt = (n.val : Int)), u (ix2 e k) :=
  seg2_apply (N := 100000) (E := 3200000) (K := 9) Facts₀.scatter_S100000x9_S3200000x1_S3200000x9_1_0_0_1_wf z idx u n k

/-- A scalar scatter-add of `[3200000]` updates into `[100000]`, read at `n`. -/
theorem scatter1_apply (z : S100000.Idx → EReal) (idx : IVec S3200000x1 32) (u : S3200000.Idx → EReal)
    (n : Fin 100000) :
    Host.scatterAdd (F := Ideal) (φ := .f32) scatter_S100000_S3200000x1_S3200000_n_0_0_1 z idx u (ix1 n)
      = z (ix1 n) + ∑ e ∈ Finset.univ.filter (fun e : Fin 3200000 => (idx (ix2 e 0)).toInt = (n.val : Int)), u (ix1 e) :=
  seg1_apply (N := 100000) (E := 3200000) Facts₀.scatter_S100000_S3200000x1_S3200000_n_0_0_1_wf z idx u n

/-- The summed updates at `(n, k)`: the zero word plus, over the edges whose target word is `n`, each edge's
    update. -/
theorem sums_row (x1 : (⟨S100000x16x3, .f32⟩ : BufTy).Contents (Elt Ideal)) (x2 : (⟨S3200000x3x3, .f32⟩ : BufTy).Contents (Elt Ideal))
    (x4 : (⟨S3x16, .f32⟩ : BufTy).Contents (Elt Ideal)) (x10 : (⟨S2x3200000, .i32⟩ : BufTy).Contents (Elt Ideal))
    (n : Fin 100000) (k : Fin 9) :
    val_main_v22 (F := Ideal) x1 x2 x4 x10 (ix2 n k)
      = Ideal.ofBits .f32 0x00000000#32
        + ∑ e ∈ Finset.univ.filter (fun e : Fin 3200000 => (x10 (ix2 0 e)).toInt = (n.val : Int)),
            ∑ t : Fin 3, x2 (ix3 e ⟨k.val % 3, Nat.mod_lt _ (by decide)⟩ t)
              * Cert.NodeRow.vdf (fun v t => x1 (ix3 n v t)) (fun f v => x4 (ix2 f v)) t ⟨k.val / 3, by omega⟩ := by
  unfold val_main_v22
  refine (scatter2_apply _ _ _ n k).trans ?_
  rw [val_main_v20_apply, val_main_cst_2_apply, Ideal.ofBits_def]
  refine congrArg (Ideal.ofBits .f32 0x00000000#32 + ·) ?_
  refine Finset.sum_congr (Finset.filter_congr fun e _ => by rw [sums_word]) fun e he => ?_
  exact edge_term x1 x2 x4 x10 n e (Finset.mem_filter.mp he).2 k

/-- The edge count at `n`: the zero word plus one one-word per edge whose target word is `n`. -/
theorem cnt_row (x10 : (⟨S2x3200000, .i32⟩ : BufTy).Contents (Elt Ideal)) (n : Fin 100000) :
    val_main_v26 (F := Ideal) x10 (ix1 n)
      = Ideal.ofBits .f32 0x00000000#32
        + ∑ _e ∈ Finset.univ.filter (fun e : Fin 3200000 => (x10 (ix2 0 e)).toInt = (n.val : Int)),
            Ideal.ofBits .f32 0x3F800000#32 := by
  unfold val_main_v26
  refine (scatter1_apply _ _ _ n).trans ?_
  rw [val_main_v24_apply, val_main_cst_4_apply, Ideal.ofBits_def]
  refine congrArg (Ideal.ofBits .f32 0x00000000#32 + ·) ?_
  refine Finset.sum_congr (Finset.filter_congr fun e _ => by rw [cnt_word]) fun e _ => ?_
  rw [val_main_v23_apply, val_main_cst_3_apply, Ideal.ofBits_def]

/-- The hidden features at `(n, k)`: the summed updates over the larger of the edge count and one. -/
theorem hid_row (x1 : (⟨S100000x16x3, .f32⟩ : BufTy).Contents (Elt Ideal)) (x2 : (⟨S3200000x3x3, .f32⟩ : BufTy).Contents (Elt Ideal))
    (x4 : (⟨S3x16, .f32⟩ : BufTy).Contents (Elt Ideal)) (x10 : (⟨S2x3200000, .i32⟩ : BufTy).Contents (Elt Ideal))
    (n : Fin 100000) (k : Fin 9) :
    val_main_v31 (F := Ideal) x1 x2 x4 x10 (ix2 n k)
      = Cert.EdgeMean.hidR (Finset.univ.filter fun e : Fin 3200000 => (x10 (ix2 0 e)).toInt = (n.val : Int))
          (fun e s t => x2 (ix3 e s t))
          (Cert.NodeRow.vdf (fun v t => x1 (ix3 n v t)) (fun f v => x4 (ix2 f v))) k := by
  rw [val_main_v31_apply, val_main_v30_apply, val_main_v29_apply, val_main_v28_apply, val_main_v27_apply,
    val_main_cst_5_apply, Ideal.hostDivf_def, Ideal.maximumf_def, Ideal.ofBits_def]
  have ei : idx_main_v29 (idx_main_v30 (ix2 n k)) = ix1 n := funext fun a => Fin.ext (by match a with | ⟨0, _⟩ => rfl)
  rw [ei, sums_row, cnt_row]
  rfl

end Cert.RefHidden

end
-- ==== Proof.Bridge.lean ====
/-
  The two sides meet: each result array of the kernel is the reference's stage of the same arguments.

  Both are, row by row, the same function of the node's inputs, the weights and the node's hidden features
  (`Cert.NodeRow`). The hidden features are where the two programs differ: the kernel contracts the node's SUMMED
  frames with its frame projection once, the reference contracts every edge's frame and sums. For real-valued frames,
  vector channels and frame weights the projection is real-valued too, and a finite sum of reals passes through the
  product with a real (`Cert.EdgeMean.hidK_eq_hidR`), so the two hidden vectors agree and with them both results.
-/
import proofs.«120632_j80229989089898_2_alg».proof.Proof.KernelArray
import proofs.«120632_j80229989089898_2_alg».proof.Proof.KernelHost
import proofs.«120632_j80229989089898_2_alg».proof.Proof.RefRows
import proofs.«120632_j80229989089898_2_alg».proof.Proof.RefHidden
import proofs.«120632_j80229989089898_2_alg».proof.Proof.EdgeMean

noncomputable section

namespace Cert.Bridge

open Cert.KernelIdeal Cert.KernelIdeal.Gen Idealize.ShloMosaic Idealize.ShloMosaic.TcCoe Idealize.SL.Sem
open Idealize.ShloMosaic.ValueIdx Idealize.ShloMosaic.SegmentSum Cert.KernelNode Cert.KernelArray Cert.KernelHost

/-- The frame projection of a node is real-valued when the vector channels and the frame weights are: a finite sum
    of products of reals. -/
theorem vdf_real (a1 : Fin 16 → Fin 3 → EReal) (W4 : Fin 3 → Fin 16 → EReal)
    (h1 : ∀ v t, ∃ r : ℝ, a1 v t = (r : EReal)) (h4 : ∀ f v, ∃ r : ℝ, W4 f v = (r : EReal)) (t f : Fin 3) :
    ∃ r : ℝ, Cert.NodeRow.vdf a1 W4 t f = (r : EReal) := by
  choose a1' e1 using h1
  choose W4' e4 using h4
  refine ⟨∑ v : Fin 16, a1' v t * W4' f v, ?_⟩
  unfold Cert.NodeRow.vdf
  simp only [e1, e4, ← EReal.coe_mul]
  exact (coe_sum Finset.univ fun v => a1' v t * W4' f v).symm

/-! ## Over plain arrays

`a0 … a10` stand for the eleven arguments, `A2`, `A3` for the summed-frames and edge-count arrays the node pass finds. -/

/-- The kernel's hidden features of node `n` are the reference's stage at row `n`, given what the summed-frames and
    edge-count arrays hold at node `n`, when the vector channels, the edge frames and the frame weights are real. -/
theorem hid_aux (a1 : S100000x16x3.Idx → EReal) (a2 : S3200000x3x3.Idx → EReal) (a4 : S3x16.Idx → EReal)
    (a10 : S2x3200000.Idx → BitVec 32) (A2 : S100000x3x3.Idx → EReal) (A3 : S100000x1.Idx → EReal) (n : Fin 100000)
    (hA2 : ∀ s t : Fin 3, A2 (ix3 n s t) = Ideal.ofBits .f32 0x00000000#32 + ∑ e ∈ edgesOf a10 n, a2 (ix3 e s t))
    (hA3 : A3 (ix2 n (0 : Fin 1)) = Ideal.ofBits .f32 0x00000000#32 + ∑ _e ∈ edgesOf a10 n, Ideal.ofBits .f32 0x3F800000#32)
    (h1 : ∀ i, ∃ r : ℝ, a1 i = (r : EReal)) (h2 : ∀ i, ∃ r : ℝ, a2 i = (r : EReal)) (h4 : ∀ i, ∃ r : ℝ, a4 i = (r : EReal)) :
    hidOf a1 A2 A3 a4 n = fun k => Cert.ReferenceIdeal.Read.val_main_v31 (F := Ideal) a1 a2 a4 a10 (ix2 n k) := by
  funext k
  rw [Cert.RefHidden.hid_row]
  unfold hidOf
  have hF : (fun s t => A2 (ix3 n s t))
      = fun s t => Ideal.ofBits .f32 0x00000000#32 + ∑ e ∈ edgesOf a10 n, a2 (ix3 e s t) :=
    funext fun s => funext fun t => hA2 s t
  rw [hF, hA3]
  exact Cert.EdgeMean.hidK_eq_hidR (edgesOf a10 n) (fun e s t => a2 (ix3 e s t))
    (Cert.NodeRow.vdf (fun v t => a1 (ix3 n v t)) (fun f v => a4 (ix2 f v)))
    (fun e s t => h2 (ix3 e s t))
    (vdf_real _ _ (fun v t => h1 (ix3 n v t)) (fun f v => h4 (ix2 f v))) k

/-- The first result's row, given the hidden features. -/
theorem first_aux (a0 : S100000x128.Idx → EReal) (a1 : S100000x16x3.Idx → EReal) (a2 : S3200000x3x3.Idx → EReal)
    (a3 : S16x16.Idx → EReal) (a4 : S3x16.Idx → EReal) (a5 : S128x153.Idx → EReal) (a6 : S128.Idx → EReal)
    (a10 : S2x3200000.Idx → BitVec 32) (A2 : S100000x3x3.Idx → EReal) (A3 : S100000x1.Idx → EReal) (n : Fin 100000)
    (o : Fin 128)
    (hid : hidOf a1 A2 A3 a4 n = fun k => Cert.ReferenceIdeal.Read.val_main_v31 (F := Ideal) a1 a2 a4 a10 (ix2 n k)) :
    rowS a0 a1 A2 A3 a3 a4 a5 a6 n o = Cert.ReferenceIdeal.Read.val_main_v55 (F := Ideal) a0 a1 a2 a3 a4 a5 a6 a10 (ix2 n o) := by
  rw [Cert.RefRows.sfin_row]
  unfold rowS
  rw [hid]

/-- The second result's row, given the hidden features. -/
theorem second_aux (a0 : S100000x128.Idx → EReal) (a1 : S100000x16x3.Idx → EReal) (a2 : S3200000x3x3.Idx → EReal)
    (a3 : S16x16.Idx → EReal) (a4 : S3x16.Idx → EReal) (a5 : S128x153.Idx → EReal) (a6 : S128.Idx → EReal)
    (a7 : S16x16.Idx → EReal) (a8 : S16x128.Idx → EReal) (a9 : S16.Idx → EReal)
    (a10 : S2x3200000.Idx → BitVec 32) (A2 : S100000x3x3.Idx → EReal) (A3 : S100000x1.Idx → EReal) (n : Fin 100000)
    (v : Fin 16) (u : Fin 3)
    (hid : hidOf a1 A2 A3 a4 n = fun k => Cert.ReferenceIdeal.Read.val_main_v31 (F := Ideal) a1 a2 a4 a10 (ix2 n k)) :
    rowV a0 a1 A2 A3 a3 a4 a5 a6 a7 a8 a9 n v u
      = Cert.ReferenceIdeal.Read.val_main_v54 (F := Ideal) a0 a1 a2 a3 a4 a5 a6 a7 a8 a9 a10 (ix3 n v u) := by
  rw [Cert.RefRows.vfin_row]
  unfold rowV
  rw [hid]

/-- `rowS` depends on its arrays only through their values. -/
theorem rowS_congr {A0 a0 : S100000x128.Idx → EReal} {A1 a1 : S100000x16x3.Idx → EReal} (A2 : S100000x3x3.Idx → EReal)
    (A3 : S100000x1.Idx → EReal) {A4 a3 : S16x16.Idx → EReal} {A5 a4 : S3x16.Idx → EReal} {A6 a5 : S128x153.Idx → EReal}
    {A7 a6 : S128.Idx → EReal} (e0 : A0 = a0) (e1 : A1 = a1) (e3 : A4 = a3) (e4 : A5 = a4) (e5 : A6 = a5) (e6 : A7 = a6)
    (n : Fin 100000) (o : Fin 128) :
    rowS A0 A1 A2 A3 A4 A5 A6 A7 n o = rowS a0 a1 A2 A3 a3 a4 a5 a6 n o := by
  subst e0 e1 e3 e4 e5 e6; rfl

/-- `rowV` depends on its arrays only through their values. -/
theorem rowV_congr {A0 a0 : S100000x128.Idx → EReal} {A1 a1 : S100000x16x3.Idx → EReal} (A2 : S100000x3x3.Idx → EReal)
    (A3 : S100000x1.Idx → EReal) {A4 a3 : S16x16.Idx → EReal} {A5 a4 : S3x16.Idx → EReal} {A6 a5 : S128x153.Idx → EReal}
    {A7 a6 : S128.Idx → EReal} {A8 a7 : S16x16.Idx → EReal} {A9 a8 : S16x128.Idx → EReal} {A10 a9 : S16.Idx → EReal}
    (e0 : A0 = a0) (e1 : A1 = a1) (e3 : A4 = a3) (e4 : A5 = a4) (e5 : A6 = a5) (e6 : A7 = a6) (e7 : A8 = a7)
    (e8 : A9 = a8) (e9 : A10 = a9) (n : Fin 100000) (v : Fin 16) (u : Fin 3) :
    rowV A0 A1 A2 A3 A4 A5 A6 A7 A8 A9 A10 n v u = rowV a0 a1 A2 A3 a3 a4 a5 a6 a7 a8 a9 n v u := by
  subst e0 e1 e3 e4 e5 e6 e7 e8 e9; rfl

/-! ## At the kernel's memory -/

variable (m : (ℓ : Loc nD τ sig) → Buf (Elt Ideal) ℓ)

/-- The hidden features at the kernel's memory: the summed-frames and edge-count arrays are the host's segment sums. -/
theorem hid_eq (c : Dev nD)
    (h1 : ∀ i : S100000x16x3.Idx, ∃ r : ℝ, (m ((c : Thread nD τ).loc main_arg1) : S100000x16x3.Idx → EReal) i = (r : EReal))
    (h2 : ∀ i : S3200000x3x3.Idx, ∃ r : ℝ, (m ((c : Thread nD τ).loc main_arg2) : S3200000x3x3.Idx → EReal) i = (r : EReal))
    (h4 : ∀ i : S3x16.Idx, ∃ r : ℝ, (m ((c : Thread nD τ).loc main_arg4) : S3x16.Idx → EReal) i = (r : EReal))
    (n : Fin 100000) :
    hidOf (m ((c : Thread nD τ).loc main_arg1)) (V m c main_v4) (V m c main_v9) (m ((c : Thread nD τ).loc main_arg4)) n
      = fun k => Cert.ReferenceIdeal.Read.val_main_v31 (F := Ideal) (m ((c : Thread nD τ).loc main_arg1))
          (m ((c : Thread nD τ).loc main_arg2)) (m ((c : Thread nD τ).loc main_arg4))
          (m ((c : Thread nD τ).loc main_arg10)) (ix2 n k) :=
  hid_aux (m ((c : Thread nD τ).loc main_arg1)) (m ((c : Thread nD τ).loc main_arg2)) (m ((c : Thread nD τ).loc main_arg4))
    (m ((c : Thread nD τ).loc main_arg10)) (V m c main_v4) (V m c main_v9) n (fsum_apply m c n) (cnt_apply m c n) h1 h2 h4

/-- THE FIRST RESULT of the kernel is the reference's first result of the same arguments. -/
theorem first_eq (c : Dev nD)
    (h1 : ∀ i : S100000x16x3.Idx, ∃ r : ℝ, (m ((c : Thread nD τ).loc main_arg1) : S100000x16x3.Idx → EReal) i = (r : EReal))
    (h2 : ∀ i : S3200000x3x3.Idx, ∃ r : ℝ, (m ((c : Thread nD τ).loc main_arg2) : S3200000x3x3.Idx → EReal) i = (r : EReal))
    (h4 : ∀ i : S3x16.Idx, ∃ r : ℝ, (m ((c : Thread nD τ).loc main_arg4) : S3x16.Idx → EReal) i = (r : EReal)) :
    G11 m c = Cert.ReferenceIdeal.Read.val_main_v55 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))
        (m ((c : Thread nD τ).loc main_arg10)) := by
  refine funext fun (i : S100000x128.Idx) => ?_
  obtain ⟨n, o, rfl⟩ : ∃ (n : Fin 100000) (o : Fin 128), i = ix2 n o := ⟨i 0, i 1, eq_ix2 i⟩
  exact (rowS_congr (V m c main_v4) (V m c main_v9) (V_main_arg0 m c) (V_main_arg1 m c) (V_main_arg3 m c)
    (V_main_arg4 m c) (V_main_arg5 m c) (V_main_arg6 m c) n o).trans
    (first_aux _ _ _ _ _ _ _ _ (V m c main_v4) (V m c main_v9) n o (hid_eq m c h1 h2 h4 n))

/-- THE SECOND RESULT of the kernel is the reference's second result of the same arguments. -/
theorem second_eq (c : Dev nD)
    (h1 : ∀ i : S100000x16x3.Idx, ∃ r : ℝ, (m ((c : Thread nD τ).loc main_arg1) : S100000x16x3.Idx → EReal) i = (r : EReal))
    (h2 : ∀ i : S3200000x3x3.Idx, ∃ r : ℝ, (m ((c : Thread nD τ).loc main_arg2) : S3200000x3x3.Idx → EReal) i = (r : EReal))
    (h4 : ∀ i : S3x16.Idx, ∃ r : ℝ, (m ((c : Thread nD τ).loc main_arg4) : S3x16.Idx → EReal) i = (r : EReal)) :
    G12 m c = Cert.ReferenceIdeal.Read.val_main_v54 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))
        (m ((c : Thread nD τ).loc main_arg7)) (m ((c : Thread nD τ).loc main_arg8)) (m ((c : Thread nD τ).loc main_arg9))
        (m ((c : Thread nD τ).loc main_arg10)) := by
  refine funext fun (i : S100000x16x3.Idx) => ?_
  obtain ⟨n, v, u, rfl⟩ : ∃ (n : Fin 100000) (v : Fin 16) (u : Fin 3), i = ix3 n v u := ⟨i 0, i 1, i 2, eq_ix3 i⟩
  exact (rowV_congr (V m c main_v4) (V m c main_v9) (V_main_arg0 m c) (V_main_arg1 m c) (V_main_arg3 m c)
    (V_main_arg4 m c) (V_main_arg5 m c) (V_main_arg6 m c) (V_main_arg7 m c) (V_main_arg8 m c) (V_main_arg9 m c) n v u).trans
    (second_aux _ _ _ _ _ _ _ _ _ _ _ (V m c main_v4) (V m c main_v9) n v u (hid_eq m c h1 h2 h4 n))

end Cert.Bridge

end
-- ==== Proof.FiniteInputs.lean ====
/-
  From the precondition to real-valued arguments. The precondition is the conjunction, over the ten float
  arguments, of "every element's absolute value is below +∞": per argument the elementwise comparison
  |x| < +∞ against the splat of the word of +∞, reduced by `and` from the constant true over every axis; the ten
  conjuncts are joined by `and` from left to right. If the conjunction is true then so is each conjunct, then every
  element of the comparison is true, and an extended real whose absolute value max x (-x) is below ⊤ is neither ⊥
  nor ⊤: it is a real. Stated for the three arguments the algebra needs: the vector channels, the edge frames and
  the frame weights. No index type is enumerated anywhere: the reduction is only ever read through the statement
  that a reduction by `and` that came out true met only true elements.
-/
import proofs.«120632_j80229989089898_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The scalar shape has one index. -/
instance subsingleton_scalar_idx : Subsingleton S_.Idx := ⟨fun a b => funext fun d => d.elim0⟩

/-- An extended real whose absolute value is below +∞ is a real. -/
theorem real_of_abs_lt (x : EReal) (h : max x (-x) < ⊤) : ∃ r : ℝ, x = (r : EReal) := by
  induction x using EReal.rec with
  | bot => exact absurd h (by simp)
  | top => exact absurd h (by simp)
  | coe r => exact ⟨r, rfl⟩

/-- The word 0x7F800000 is +∞. -/
theorem ofBits_inf : Ideal.ofBits .f32 0x7F800000#32 = ⊤ := by simp [Ideal.ofBits, Ideal.ieee]

/-- If the ordered comparison |x| < (the word of +∞) is true then x is a real. -/
theorem real_of_cmp (x : EReal)
    (h : Ideal.cmp .olt (max x (-x)) (Ideal.ofBits .f32 0x7F800000#32) = 1#1) : ∃ r : ℝ, x = (r : EReal) := by
  rw [ofBits_inf] at h
  have h' : BitVec.ofBool (decide (max x (-x) < ⊤)) = 1#1 := h
  refine real_of_abs_lt x ?_
  by_contra hn
  rw [decide_eq_false hn] at h'
  exact absurd h' (by decide)

/-- A true `and` of two one-bit vectors at an index: both are true there. -/
theorem andi_apply_eq_one {s : Shape} (x y : IVec s 1) (i : s.Idx) (h : andi x y i = 1#1) : x i = 1#1 ∧ y i = 1#1 :=
  IntOp.andi_eq_one.1 h

/-- One conjunct: if the reduction by `and`, over every axis and from the constant true, of the comparison
    |x| < +∞ is true, then every element of x is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : ∃ r : ℝ, x i = (r : EReal) := by
  have hi : cmpf .olt (Host.absf x) (broadcastInDim s ![] hb (constant (F := Ideal) S_ .f32 0x7F800000#32)) i = 1#1 :=
    Host.reduce_andi_all
      (cmpf .olt (Host.absf x) (broadcastInDim s ![] hb (constant (F := Ideal) S_ .f32 0x7F800000#32)))
      (constantI S_ 1 1#1) hr hu ValueIdx.ix0 e i
  exact real_of_cmp (x i) hi

variable [Facts]

/-- The precondition makes the vector channels, the edge frames and the frame weights real-valued. -/
theorem real_of_pre (a0 : FVec Ideal S100000x128 .f32) (a1 : FVec Ideal S100000x16x3 .f32)
    (a2 : FVec Ideal S3200000x3x3 .f32) (a3 : FVec Ideal S16x16 .f32) (a4 : FVec Ideal S3x16 .f32)
    (a5 : FVec Ideal S128x153 .f32) (a6 : FVec Ideal S128 .f32) (a7 : FVec Ideal S16x16 .f32)
    (a8 : FVec Ideal S16x128 .f32) (a9 : FVec Ideal S16 .f32) (a10 : IVec S2x3200000 32)
    (h : fn (F := Ideal) a0 a1 a2 a3 a4 a5 a6 a7 a8 a9 a10 = fun _ => 1#1) :
    (∀ i, ∃ r : ℝ, a1 i = (r : EReal)) ∧ (∀ i, ∃ r : ℝ, a2 i = (r : EReal)) ∧ (∀ i, ∃ r : ℝ, a4 i = (r : EReal)) := by
  have h0 := congrFun h ValueIdx.ix0
  dsimp only [fn, fn_part1, fn_part2] at h0
  obtain ⟨h43, -⟩ := andi_apply_eq_one _ _ _ h0
  obtain ⟨h38, -⟩ := andi_apply_eq_one _ _ _ h43
  obtain ⟨h33, -⟩ := andi_apply_eq_one _ _ _ h38
  obtain ⟨h28, -⟩ := andi_apply_eq_one _ _ _ h33
  obtain ⟨h23, -⟩ := andi_apply_eq_one _ _ _ h28
  obtain ⟨h18, h22⟩ := andi_apply_eq_one _ _ _ h23
  obtain ⟨h13, -⟩ := andi_apply_eq_one _ _ _ h18
  obtain ⟨h8, h12⟩ := andi_apply_eq_one _ _ _ h13
  obtain ⟨-, h7⟩ := andi_apply_eq_one _ _ _ h8
  exact ⟨fun i => real_of_all a1 Facts.bcast_S_S100000x16x3 Facts.reducesTo_S100000x16x3_S_d0_1_2 Facts.h_S_ h7 i,
    fun i => real_of_all a2 Facts.bcast_S_S3200000x3x3 Facts.reducesTo_S3200000x3x3_S_d0_1_2 Facts.h_S_ h12 i,
    fun i => real_of_all a4 Facts.bcast_S_S3x16 Facts.reducesTo_S3x16_S_d0_1 Facts.h_S_ h22 i⟩

end Cert.FiniteInputs

end
-- ==== Proof.lean ====
/-
  The claim: the node pass of a gated equivariant message-passing layer, against its plain reference.

  Per node the layer projects the 16 vector channels down and onto 3 frame channels, takes the norm of the down
  projection over space, averages over the node's incoming edges the edge frames contracted with the frame
  projection (9 hidden features), merges 128 scalar channels, 16 norms and those 9 features into one row, applies a
  linear map with bias and silu to get the first result, and gates the up-projected vector channels by a sigmoid of a
  linear map of the first result to get the second.

  The kernel adds the edge frames into their target nodes on the host and contracts once per node inside a pass over
  500 blocks of 200 nodes; the reference gathers the target node's projection per edge, contracts per edge and then
  adds. On the extended reals the two agree when frames, vector channels and frame weights are real-valued — the
  precondition — because a finite sum of reals passes through a product with a real. An edge whose index word is
  negative or at least the node count is dropped by both scatter-adds, so the reference's wrapped and clamped gather
  index only matters on edges where it is the word itself.

  Frames: the two kernels' are the generated frame certificates; the reference's is its generated run with the
  results dropped. The idealization rewrote nothing, so `preserves` asks nothing. `algebraic`: the kernel's run ends
  with each result array at the whole-array function of the arrays the pass found (Proof/KernelArray.lean over the
  per-block rows of Proof/KernelRows.lean), the reference's run at its stages (read in Proof/RefRows.lean and
  Proof/RefHidden.lean), and Proof/Bridge.lean joins them under the precondition (Proof/FiniteInputs.lean).
-/
import proofs.«120632_j80229989089898_2_alg».proof.Defs
import proofs.«120632_j80229989089898_2_alg».proof.Proof.Gen.Kernel
import proofs.«120632_j80229989089898_2_alg».proof.Proof.Gen.Kernel.Skeleton
import proofs.«120632_j80229989089898_2_alg».proof.Proof.Gen.Kernel.Launch
import proofs.«120632_j80229989089898_2_alg».proof.Proof.Gen.Kernel.Points
import proofs.«120632_j80229989089898_2_alg».proof.Proof.Gen.Kernel.Frame
import proofs.«120632_j80229989089898_2_alg».proof.Proof.Gen.KernelIdeal
import proofs.«120632_j80229989089898_2_alg».proof.Proof.Gen.KernelIdeal.Skeleton
import proofs.«120632_j80229989089898_2_alg».proof.Proof.Gen.KernelIdeal.Launch
import proofs.«120632_j80229989089898_2_alg».proof.Proof.Gen.KernelIdeal.Points
import proofs.«120632_j80229989089898_2_alg».proof.Proof.Gen.KernelIdeal.Frame
import proofs.«120632_j80229989089898_2_alg».proof.Proof.Gen.ReferenceIdeal
import proofs.«120632_j80229989089898_2_alg».proof.Proof.Gen.Pre_finite_inputs
import proofs.«120632_j80229989089898_2_alg».proof.Proof.Gen.KernelIdeal.Value
import proofs.«120632_j80229989089898_2_alg».proof.Proof.Gen.ReferenceIdeal.Run
import proofs.«120632_j80229989089898_2_alg».proof.Proof.Gen.ReferenceIdeal.Read
import proofs.«120632_j80229989089898_2_alg».proof.Proof.Bridge
import proofs.«120632_j80229989089898_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- From memories agreeing on the arguments, under the precondition, both programs end with the same two result
    arrays: the whole-array functions `G11`, `G12` of the kernel's side. -/
theorem algebraic : Cert.algebraic_KernelIdeal_ReferenceIdeal := by
  intro m ρ m' ρ' hpre hagree
  have hreal := fun c => Cert.FiniteInputs.real_of_pre _ _ _ _ _ _ _ _ _ _ _ (hpre c)
  refine ⟨fun c => Cert.KernelArray.G11 m c, fun c => Cert.KernelArray.G12 m c, ?_, ?_⟩
  · exact (θ_run Cert.KernelIdeal.defs _ _).mono
      (fun r h c => ⟨(h c).1.trans (Cert.KernelArray.final11 m c), (h c).2.1.trans (Cert.KernelArray.final12 m c),
        (h c).2.2⟩)
      (Cert.KernelIdeal.Value.run_blocks m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v55_eq, e0, e1, e2, e3, e4, e5, e6, e10]
      exact (Cert.Bridge.first_eq m c (hreal c).1 (hreal c).2.1 (hreal c).2.2).symm
    · obtain ⟨e0, e1, e2, e3, e4, e5, e6, e7, e8, e9, e10⟩ := hagree c
      rw [Cert.ReferenceIdeal.Read.val_main_v54_eq, e0, e1, e2, e3, e4, e5, e6, e7, e8, e9, e10]
      exact (Cert.Bridge.second_eq m c (hreal c).1 (hreal c).2.1 (hreal c).2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
